-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S16x8x128 : Shape := ⟨3, ![16, 8, 128]⟩
abbrev S512x256 : Shape := ⟨2, ![512, 256]⟩
abbrev S512x1 : Shape := ⟨2, ![512, 1]⟩
abbrev S1x512 : Shape := ⟨2, ![1, 512]⟩
abbrev S1x8x128 : Shape := ⟨3, ![1, 8, 128]⟩
abbrev S8x128 : Shape := ⟨2, ![8, 128]⟩
abbrev S256x512 : Shape := ⟨2, ![256, 512]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩
abbrev S1x1 : Shape := ⟨2, ![1, 1]⟩
abbrev S16x1x4 : Shape := ⟨3, ![16, 1, 4]⟩
abbrev S16x4 : Shape := ⟨2, ![16, 4]⟩
abbrev S4 : Shape := ⟨1, ![4]⟩

abbrev nBuf : Space → Nat
  | .hbm => 28
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x256, .f32⟩
  | .hbm, ⟨8, _⟩ => ⟨S8192x256, .f32⟩
  | .hbm, ⟨9, _⟩ => ⟨S8192x256, .bf16⟩
  | .hbm, ⟨10, _⟩ => ⟨S8192x1, .i32⟩
  | .hbm, ⟨11, _⟩ => ⟨S1x8192, .i32⟩
  | .hbm, ⟨12, _⟩ => ⟨S16x8x128, .f32⟩
  | .hbm, ⟨13, _⟩ => ⟨S16x1x4, .f32⟩
  | .hbm, ⟨14, _⟩ => ⟨S16x4, .f32⟩
  | .hbm, ⟨15, _⟩ => ⟨S_, .f32⟩
  | .hbm, ⟨16, _⟩ => ⟨S4, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S1x8x128, .f32⟩
  | .local _ .vmem, ⟨9, _⟩ => ⟨S1x8x128, .f32⟩
  | .local _ .vmem, ⟨10, _⟩ => ⟨S8x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bitsLt_bf16_f32 : FTy.bits .bf16 < FTy.bits .f32
  bcast_S8192_S1x8192_1 : S8192.BroadcastsInDim S1x8192 (![1] : Fin 1 → Fin S1x8192.rank)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  inb_S8x128_S1x1_0_0 : ∀ a, (![0, 0] : Fin 2 → Nat) a + S1x1.size a ≤ S8x128.size a
  h_S1x1 : 0 < S1x1.numel
  shapeCasts_S1x1_S1x1 : S1x1.ShapeCasts S1x1
  inb_S8x128_S1x1_0_1 : ∀ a, (![0, 1] : Fin 2 → Nat) a + S1x1.size a ≤ S8x128.size a
  inb_S8x128_S1x1_0_2 : ∀ a, (![0, 2] : Fin 2 → Nat) a + S1x1.size a ≤ S8x128.size a
  inb_S8x128_S1x1_0_3 : ∀ a, (![0, 3] : Fin 2 → Nat) a + S1x1.size a ≤ S8x128.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S16x8x128_S16x1x4_0_0_0 : S16x8x128.Slices ![0, 0, 0] S16x1x4
  shapeCasts_S16x1x4_S16x4 : S16x1x4.ShapeCasts S16x4
  reducesTo_S16x4_S4_d0 : S16x4.ReducesTo [0] S4
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .bf16 = 32 ∨ (Rect.block (s := S8192x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S16x8x128.size a
  hwx0_4 : ∀ i : grid0.Coords, EltTy.bits .f32 = 32 ∨ (Rect.block (s := S16x8x128) S1x8x128.size (cc0_transform_4 i) (hinb0_4 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_v6) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 49
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x256, .f32⟩
  | .hbm, ⟨8, _⟩ => ⟨S8192x256, .f32⟩
  | .hbm, ⟨9, _⟩ => ⟨S256x8192, .f32⟩
  | .hbm, ⟨10, _⟩ => ⟨S8192x8192, .f32⟩
  | .hbm, ⟨11, _⟩ => ⟨S8192x1, .i32⟩
  | .hbm, ⟨12, _⟩ => ⟨S1x8192, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S8192x8192, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_call2_cst : Ref sig .tc := ⟨.hbm, 32, rfl⟩
abbrev main_call2_v0 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_call3_v0 : Ref sig .tc := ⟨.hbm, 37, rfl⟩
abbrev main_call3_v1 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  natLt_1_32 : 1 < 32
  reducesTo_S8192x8192_S_d0_1 : S8192x8192.ReducesTo [0, 1] S_
  bcast_S_S8192x8192 : S_.BroadcastsInDim S8192x8192 (![] : Fin 0 → Fin S8192x8192.rank)
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.WCond.lean ====
/-
  The body's one branch: at a grid point (i, j) the accumulator is cleared exactly when j = 0, that is at the
  points whose number is a multiple of 16. Also the names of the memrefs the pipeline passes the body at a point.
-/
import proofs.«109907_j78185584657073_1_alg».proof.Proof.Gen.Kernel.Launch
import proofs.«109907_j78185584657073_1_alg».proof.Proof.Gen.Kernel.Skeleton
import proofs.«109907_j78185584657073_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch's condition from the grid coordinates: the second coordinate is zero. -/
abbrev clears (i : grid0.Coords) : Prop :=
  (Scalar.cmpi .ne (Scalar.extui (Scalar.cmpi .eq (BitVec.ofNat 32 (i 1).val) 0#32)) 0#32) = 1#1

/-- It holds at the points that begin a row of the grid. -/
theorem clears_iff : ∀ t : Fin cfg0.N, clears (grid0.coords t) ↔ t.val % 16 = 0 :=
  (by decide +kernel : ∀ t : Fin grid0.N, clears (grid0.coords t) ↔ t.val % 16 = 0)

/-- No window is idle at any point: the body stores into the output at every point. -/
theorem live : ∀ (w : Fin 5) (t : Fin cfg0.N), cfg0.idle w (grid0.coords t) = false := by decide +kernel

/-- The scratch accumulator as a memref and as a view. -/
abbrev accM : Memref sig .tc .vmem S8x128 .f32 := Memref.whole cc0_scratch0
abbrev accV : View sig .tc .vmem S8x128 .f32 := accM.view
/-- One staging buffer of the output window, through which its contents are stated. -/
abbrev outV : View sig .tc .vmem S1x8x128 .f32 := (Memref.whole cc0_stg4_0 : Memref sig .tc .vmem S1x8x128 .f32).view

end Cert.Kernel.Body

end
-- ==== Proof.WRunFirst.lean ====
/-
  The body run at a point that begins a grid row (j = 0): the accumulator is first cleared, then each of its four
  leading cells of row 0 is read, increased by the tile's total for that cell and stored back, and last the whole
  accumulator is copied into the output block. What the stores leave is recorded as the list of pieces written.
-/
import proofs.«109907_j78185584657073_1_alg».proof.Proof.WCond

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four inputs at their contents, the output block and the accumulator at anything — the body
    at a row's first point runs to the continuation with the inputs as they were and the output block and the
    accumulator with their pieces written. -/
noncomputable def runFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (arg7 : Memref sig .tc .vmem S8x128 .f32) (harg7 : arg7.IsWhole) (hc : clears i)
    (x0 : Vec F S512x256 .bf16) (x1 : Vec F S512x256 .bf16) (x2 : Vec F S512x1 .i32) (x3 : Vec F S1x512 .i32) :
    Σ' (LO : List (View.Piece (Elt F) S1x8x128 .f32)), { LA : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LA)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, fun E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

end Cert.Kernel.Body

end
-- ==== Proof.WRunNext.lean ====
/-
  The body run at a point that does not begin a grid row (j ≠ 0): the accumulator holds what the point before left;
  each of its four leading cells of row 0 is read, increased by the tile's total for that cell and stored back, and
  last the whole accumulator is copied into the output block. The accumulator ends at its old contents with the four
  pieces written over them; the output block with its one piece written.
-/
import proofs.«109907_j78185584657073_1_alg».proof.Proof.WCond

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four inputs at their contents, the output block at anything, the accumulator at `xa` —
    the body at a later point of a row runs to the continuation with the inputs as they were, the output block with
    its pieces written and the accumulator with its pieces written over `xa`. -/
noncomputable def runNext (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (arg7 : Memref sig .tc .vmem S8x128 .f32) (harg7 : arg7.IsWhole) (hc : ¬clears i)
    (x0 : Vec F S512x256 .bf16) (x1 : Vec F S512x256 .bf16) (x2 : Vec F S512x1 .i32) (x3 : Vec F S1x512 .i32) (xa : Vec F S8x128 .f32) :
    Σ' (LO : List (View.Piece (Elt F) S1x8x128 .f32)), { LA : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (arg7.view.loc (c : Thread nD τ) ↦[arg7.view.set]{fullShare} arg7.view.writes (Elt F) (harg7.unread xa) LA)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, fun E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3
    obtain rfl := harg7.eq_unread hf5
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexact H5

end Cert.Kernel.Body

end
-- ==== Proof.WLeaves.lean ====
/-
  What one run of the body leaves: the accumulator's and the output block's contents after the body at a point, read
  back from the pieces the run wrote. At a row's first point the accumulator is wholly rewritten, so what it held
  before does not matter; at a later point the pieces are written over what the point before left. The output block
  is wholly rewritten at every point.
-/
import proofs.«109907_j78185584657073_1_alg».proof.Proof.WRunFirst
import proofs.«109907_j78185584657073_1_alg».proof.Proof.WRunNext

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator after the body at a row's first point. -/
def accFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (arg7 : Memref sig .tc .vmem S8x128 .f32) (harg7 : arg7.IsWhole) (hc : clears i) (x0 : Vec F S512x256 .bf16) (x1 : Vec F S512x256 .bf16) (x2 : Vec F S512x1 .i32) (x3 : Vec F S1x512 .i32) : Vec F S8x128 .f32 :=
  accV.read (Elt F) (accV.writes (Elt F) accV.junk (runFirst c i arg2 harg2 arg3 harg3 arg4 harg4 arg5 harg5 arg6 harg6 arg7 harg7 hc x0 x1 x2 x3).2.1)

/-- The output block after the body at a row's first point. -/
def outFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (arg7 : Memref sig .tc .vmem S8x128 .f32) (harg7 : arg7.IsWhole) (hc : clears i) (x0 : Vec F S512x256 .bf16) (x1 : Vec F S512x256 .bf16) (x2 : Vec F S512x1 .i32) (x3 : Vec F S1x512 .i32) : Vec F S1x8x128 .f32 :=
  outV.read (Elt F) (outV.writes (Elt F) outV.junk (runFirst c i arg2 harg2 arg3 harg3 arg4 harg4 arg5 harg5 arg6 harg6 arg7 harg7 hc x0 x1 x2 x3).1)

/-- The accumulator after the body at a later point of a row, from what it held before, `xa`. -/
def accNext (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (hc : ¬clears i)
    (x0 : Vec F S512x256 .bf16) (x1 : Vec F S512x256 .bf16) (x2 : Vec F S512x1 .i32) (x3 : Vec F S1x512 .i32) (xa : Vec F S8x128 .f32) : Vec F S8x128 .f32 :=
  accV.read (Elt F) (accV.writes (Elt F) ((Memref.isWhole_whole cc0_scratch0).unread xa)
    (runNext c i arg2 harg2 arg3 harg3 arg4 harg4 arg5 harg5 arg6 harg6 accM (Memref.isWhole_whole _) hc x0 x1 x2 x3 xa).2.1)

/-- The output block after the body at a later point of a row. -/
def outNext (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (hc : ¬clears i)
    (x0 : Vec F S512x256 .bf16) (x1 : Vec F S512x256 .bf16) (x2 : Vec F S512x1 .i32) (x3 : Vec F S1x512 .i32) (xa : Vec F S8x128 .f32) : Vec F S1x8x128 .f32 :=
  outV.read (Elt F) (outV.writes (Elt F) outV.junk
    (runNext c i arg2 harg2 arg3 harg3 arg4 harg4 arg5 harg5 arg6 harg6 accM (Memref.isWhole_whole _) hc x0 x1 x2 x3 xa).1)

end Cert.Kernel.Body

end
-- ==== Proof.WEntry.lean ====
/-
  What core c's buffers hold when the kernel region is entered: the launch contents with the ten host operations
  before the region applied.
-/
import proofs.«109907_j78185584657073_1_alg».proof.Proof.Gen.Kernel.Launch

noncomputable section

namespace Cert.Kernel.Launch

open Cert.Kernel Cert.Kernel.Gen
open Idealize.ShloMosaic Idealize.ShloMosaic.TcCoe Idealize.SL.Sem

variable {F : FTy → Type} [FloatOps F]

variable (m : (ℓ : Loc nD τ sig) → Buf (Elt F) ℓ)

/-- Core `c`'s buffers as a valuation once the ten host operations before the region have run. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

end Cert.Kernel.Launch

end
-- ==== Proof.WBlocks.lean ====
/-
  A window's block at a grid point, read off its array as the kernel region finds it.
-/
import proofs.«109907_j78185584657073_1_alg».proof.Proof.WEntry
import Idealize.ShloMosaic.Lib.Pipeline.FrameBody

noncomputable section

namespace Cert.Kernel.Body

open Cert.Kernel Cert.Kernel.Gen Cert.Kernel.Launch
open Idealize.ShloMosaic Idealize.ShloMosaic.TcCoe Idealize.SL.Sem

variable {F : FTy → Type} [FloatOps F]

variable (m : (ℓ : Loc nD τ sig) → Buf (Elt F) ℓ)

/-- Window `w`'s block at point `t`: the part of its array (at the region-entry contents) the point's index selects. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Body

end
-- ==== Proof.WShares.lean ====
/-
  The share at which each window of the kernel's one call holds its array: the first two windows both read the
  array of unit rows, a half each; every other window's array is its own.
-/
import proofs.«109907_j78185584657073_1_alg».proof.Proof.Gen.Kernel.Launch

noncomputable section

namespace Cert.Kernel.Launch

open Idealize.ShloMosaic Idealize.SL Idealize.SL.RA Idealize.SL.BI

/-- Windows 0 and 1 hold the shared array at the two halves of the full share; windows 2, 3 and 4 hold theirs whole. -/
def qW : Fin 5 → PosShare TreeShare
  | ⟨0, _⟩ => fullShare.left
  | ⟨1, _⟩ => fullShare.right
  | ⟨2, _⟩ => fullShare
  | ⟨3, _⟩ => fullShare
  | ⟨4, _⟩ => fullShare

end Cert.Kernel.Launch

end
-- ==== Proof.WData.lean ====
/-
  The proof data of the kernel's one call. After the body at point t the four input windows' buffers hold their
  blocks (the body only reads them); the output block and the accumulator hold what the run at t leaves: at a
  row's first point the run from cleared contents, at a later point the run over what the point before left in the
  accumulator. Between points the invariant is the accumulator at exactly those contents (before the first point:
  at anything).
-/
import proofs.«109907_j78185584657073_1_alg».proof.Proof.WLeaves
import proofs.«109907_j78185584657073_1_alg».proof.Proof.WBlocks
import proofs.«109907_j78185584657073_1_alg».proof.Proof.WShares

set_option maxRecDepth 16384

noncomputable section

namespace Cert.Kernel.Body

open Cert.Kernel Cert.Kernel.Gen Cert.Kernel.Launch
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Each window's current staging memref at point `t`, as the pipeline passes it to the body, and its wholeness. -/
abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x128 .f32 := win0_4.stage (cfg0.slots t 4)
abbrev hs4 (t : Fin cfg0.N) : (ms4 t).IsWhole := hstage0_4 ((cfg0.slots t 4).cast nbuf0_4)

/-- The output block and the accumulator after the body at a row's first point `t`. -/
def firstAt (c : Dev nD) (t : Fin cfg0.N) (h : t.val % 16 = 0) : Vec F S1x8x128 .f32 × Vec F S8x128 .f32 :=
  (outFirst c (grid0.coords t) (ms0 t) (hs0 t) (ms1 t) (hs1 t) (ms2 t) (hs2 t) (ms3 t) (hs3 t) (ms4 t) (hs4 t) accM (Memref.isWhole_whole _) ((clears_iff t).mpr h) (iblk m c 0 t) (iblk m c 1 t) (iblk m c 2 t) (iblk m c 3 t),
   accFirst c (grid0.coords t) (ms0 t) (hs0 t) (ms1 t) (hs1 t) (ms2 t) (hs2 t) (ms3 t) (hs3 t) (ms4 t) (hs4 t) accM (Memref.isWhole_whole _) ((clears_iff t).mpr h) (iblk m c 0 t) (iblk m c 1 t) (iblk m c 2 t) (iblk m c 3 t))

/-- The same at a later point `t` of a row, the accumulator having held `xa`. -/
def nextAt (c : Dev nD) (t : Fin cfg0.N) (h : ¬t.val % 16 = 0) (xa : Vec F S8x128 .f32) : Vec F S1x8x128 .f32 × Vec F S8x128 .f32 :=
  (outNext c (grid0.coords t) (ms0 t) (hs0 t) (ms1 t) (hs1 t) (ms2 t) (hs2 t) (ms3 t) (hs3 t) (ms4 t) (hs4 t) (fun hc => h ((clears_iff t).mp hc)) (iblk m c 0 t) (iblk m c 1 t) (iblk m c 2 t) (iblk m c 3 t) xa,
   accNext c (grid0.coords t) (ms0 t) (hs0 t) (ms1 t) (hs1 t) (ms2 t) (hs2 t) (ms3 t) (hs3 t) (ms4 t) (hs4 t) (fun hc => h ((clears_iff t).mp hc)) (iblk m c 0 t) (iblk m c 1 t) (iblk m c 2 t) (iblk m c 3 t) xa)

/-- What the output block and the accumulator hold after the body at point `n`, by recursion on the point. -/
def leavesAt (c : Dev nD) : (n : ℕ) → n < cfg0.N → Vec F S1x8x128 .f32 × Vec F S8x128 .f32
  | 0, hn => firstAt m c ⟨0, hn⟩ (Nat.zero_mod _)
  | n + 1, hn =>
    if h : (n + 1) % 16 = 0 then firstAt m c ⟨n + 1, hn⟩ h
    else nextAt m c ⟨n + 1, hn⟩ h (leavesAt c n (Nat.lt_of_succ_lt hn)).2

theorem leavesAt_first (c : Dev nD) (t : Fin cfg0.N) (h : t.val % 16 = 0) :
    leavesAt m c t.val t.isLt = firstAt m c t h := by
  obtain ⟨n, hn⟩ := t
  cases n with
  | zero => rfl
  | succ n => exact dif_pos h

theorem leavesAt_next (c : Dev nD) (t : Fin cfg0.N) (h : ¬t.val % 16 = 0) :
    leavesAt m c t.val t.isLt
      = nextAt m c t h (leavesAt m c (t.val - 1) (Nat.lt_of_le_of_lt (Nat.sub_le _ _) t.isLt)).2 := by
  obtain ⟨n, hn⟩ := t
  cases n with
  | zero => exact absurd (Nat.zero_mod _) h
  | succ n => exact dif_neg h

/-- The invariant before point `n`: before the first point the accumulator at anything (the call's scoped rest);
    afterwards the accumulator at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) accM fullShare (leavesAt m c n hn).2

theorem PhiS_succ (c : Dev nD) (n : ℕ) (hn : n < cfg0.N) :
    PhiS m c (n + 1) hn = owns (c : Thread nD τ) accM fullShare (leavesAt m c n hn).2 := rfl

theorem PhiS_pos (c : Dev nD) (n : ℕ) (h : n ≤ cfg0.N) (hz : n ≠ 0) :
    PhiS m c n h = owns (c : Thread nD τ) accM fullShare (leavesAt m c (n - 1) (by omega)).2 := by
  cases n with
  | zero => exact absurd rfl hz
  | succ n => rfl

/-- The scoped rest is the accumulator owned at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (leavesAt m c t.val t.isLt).1
  Φ t := PhiS m c t.val (Nat.le_of_lt_succ t.isLt)
  q := qW
  owed _ := 0

theorem A_eq (c : Dev nD) (w : Fin cfg0.W) : (dats m 0 c).A w = V m c (Pipeline.arrRef spec0 w) := by
  dsimp only [dats]

theorem q_eq (c : Dev nD) (w : Fin cfg0.W) : (dats m 0 c).q w = qW w := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (leavesAt m c t.val t.isLt).1 := by dsimp only [dats]

/-- Each input window's current buffer holds its block at every point, fetched there or not: the body leaves the
    block in place, and an unfetched window's block index has not moved. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

end Cert.Kernel.Body

end
-- ==== Proof.WBodyOb.lean ====
/-
  The body obligation of the kernel's call: at every grid point, from the invariant and the five windows' current
  buffers as the pipeline hands them, the body runs to the invariant of the next point and the buffers at what the
  proof data says it leaves. The point is either a row's first (the run from cleared contents; the accumulator came
  in at anything at the very first point, at the previous row's last contents otherwise) or a later one (the run
  over what the point before left).
-/
import proofs.«109907_j78185584657073_1_alg».proof.Proof.WData

set_option maxRecDepth 16384

noncomputable section

namespace Cert.Kernel.Body

open Cert.Kernel Cert.Kernel.Gen Cert.Kernel.Launch
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The one store of the whole output block covers it, at a first point -/
theorem coverOutFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (arg7 : Memref sig .tc .vmem S8x128 .f32) (harg7 : arg7.IsWhole) (hc : clears i) (x0 : Vec F S512x256 .bf16) (x1 : Vec F S512x256 .bf16) (x2 : Vec F S512x1 .i32) (x3 : Vec F S1x512 .i32) (y : S1x8x128.Idx) :
    ∃ pc ∈ (runFirst c i arg2 harg2 arg3 harg3 arg4 harg4 arg5 harg5 arg6 harg6 arg7 harg7 hc x0 x1 x2 x3).1, y ∈ pc.1.set :=
  View.cover_of_tiledL (runFirst c i arg2 harg2 arg3 harg3 arg4 harg4 arg5 harg5 arg6 harg6 arg7 harg7 hc x0 x1 x2 x3).1 S1x8x128.size (by sl_kernel_rfl) y

/-- and at a later point. -/
theorem coverOutNext (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (arg7 : Memref sig .tc .vmem S8x128 .f32) (harg7 : arg7.IsWhole) (hc : ¬clears i) (x0 : Vec F S512x256 .bf16) (x1 : Vec F S512x256 .bf16) (x2 : Vec F S512x1 .i32) (x3 : Vec F S1x512 .i32) (xa : Vec F S8x128 .f32) (y : S1x8x128.Idx) :
    ∃ pc ∈ (runNext c i arg2 harg2 arg3 harg3 arg4 harg4 arg5 harg5 arg6 harg6 arg7 harg7 hc x0 x1 x2 x3 xa).1, y ∈ pc.1.set :=
  View.cover_of_tiledL (runNext c i arg2 harg2 arg3 harg3 arg4 harg4 arg5 harg5 arg6 harg6 arg7 harg7 hc x0 x1 x2 x3 xa).1 S1x8x128.size (by sl_kernel_rfl) y

/-- At a first point the clearing store covers the accumulator. -/
theorem coverAccFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (arg7 : Memref sig .tc .vmem S8x128 .f32) (harg7 : arg7.IsWhole) (hc : clears i) (x0 : Vec F S512x256 .bf16) (x1 : Vec F S512x256 .bf16) (x2 : Vec F S512x1 .i32) (x3 : Vec F S1x512 .i32) (y : S8x128.Idx) :
    ∃ pc ∈ (runFirst c i arg2 harg2 arg3 harg3 arg4 harg4 arg5 harg5 arg6 harg6 arg7 harg7 hc x0 x1 x2 x3).2.1, y ∈ pc.1.set :=
  View.cover_of_tiledL (runFirst c i arg2 harg2 arg3 harg3 arg4 harg4 arg5 harg5 arg6 harg6 arg7 harg7 hc x0 x1 x2 x3).2.1 S8x128.size (by sl_kernel_rfl) y

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem leaves_eq (c : Dev nD) (w : Fin 5) (t : Fin cfg0.N) :
    (dats m 0 c).leavesExact w t = owns (c : Thread nD τ) ((cfg0.win w).stage (cfg0.slots t w)) fullShare ((dats m 0 c).after w t) := by
  unfold Dat.leavesExact; rw [live w t]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves_eq m c 0 t, leaves_eq m c 1 t, leaves_eq m c 2 t, leaves_eq m c 3 t, leaves_eq m c 4 t,
    after0, after1, after2, after3, after4]
  by_cases h0 : t.val % 16 = 0
  · rw [leavesAt_first m c t h0]
    unfold firstAt outFirst accFirst; (try dsimp only)
    by_cases hz : t.val = 0
    · rw [Phi_castSucc m c t, PhiS_zero m c _ _ hz, scopedRest_eq]
      iintro ⟨HA, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) accM (Memref.isWhole_whole _) ((clears_iff t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HA]; · iexact HA
      iintro ⟨H0, H1, H2, H3, ⟨%e4, H4⟩, ⟨%ea, HA⟩⟩
      isplitl [HA]
      · unfold owns; iexists _; isplitr
        swap; · iexact HA
        ipureintro; exact View.read_writes_of_cover _ _ _ _ _ (coverAccFirst c _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutFirst c _ _ _ _ _ _ _ _ _ _ _ _ _ _ _ _ _ _)
    · rw [Phi_castSucc m c t, PhiS_pos m c _ _ hz]
      iintro ⟨HA, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) accM (Memref.isWhole_whole _) ((clears_iff t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HA]; · iexists _; iexact HA
      iintro ⟨H0, H1, H2, H3, ⟨%e4, H4⟩, ⟨%ea, HA⟩⟩
      isplitl [HA]
      · unfold owns; iexists _; isplitr
        swap; · iexact HA
        ipureintro; exact View.read_writes_of_cover _ _ _ _ _ (coverAccFirst c _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutFirst c _ _ _ _ _ _ _ _ _ _ _ _ _ _ _ _ _ _)
  · have hz : t.val ≠ 0 := fun h => h0 (by rw [h])
    rw [leavesAt_next m c t h0]
    unfold nextAt outNext accNext; (try dsimp only)
    rw [Phi_castSucc m c t, PhiS_pos m c _ _ hz]
    iintro ⟨HA, Ho, ⟨%d0, H0⟩, ⟨%d1, H1⟩, ⟨%d2, H2⟩, ⟨%d3, H3⟩, ⟨%d4, H4⟩⟩
    iapply ((runNext c (grid0.coords t) (ms0 t) (hs0 t) (ms1 t) (hs1 t) (ms2 t) (hs2 t) (ms3 t) (hs3 t) (ms4 t) (hs4 t) accM (Memref.isWhole_whole _) (fun hc => h0 ((clears_iff t).mp hc)) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [HA]; · iexact HA
    iintro ⟨H0, H1, H2, H3, ⟨%e4, H4⟩, HA⟩
    isplitl [HA]
    · unfold owns; iexists _; isplitr
      swap; · iexact HA
      ipureintro; rfl
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOutNext c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the invariant is the scoped rest. -/
theorem phi_in (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point it gives the scoped rest back: the accumulator's named contents are forgotten. -/
theorem phi_out (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), scopedRest_eq]
  iintro HA
  iexists _; iexact HA

end Cert.Kernel.Body

end
-- ==== Proof.WLaunch.lean ====
/-
  The launch of the kernel program, over any proof data of its one region.

  @main is ten host operations (the rows of the first argument scaled to unit length and rounded, the labels broadcast
  as a column and as a row), ONE kernel region — a 16 × 16 grid of points over five windows, the first two BOTH on the
  array of unit rows (a tile row's block and a tile column's block), then the label column, the label row, and the
  output of per-tile-row partial totals, with a scratch accumulator —, then fifteen host operations that slice the
  partial totals, add them up and form the two quotients and their sum. Its run, for any float values: from any
  memory with zero counters every weakly fair execution of @main on the TensorCores terminates, and every final state
  has the result at what the fifteen operations make of the output array the region's write-backs leave, and both
  arguments as launched (`run_of`).

  The thread state between the segments is every unscoped buffer whole at a valuation: the launch memory, then the
  ten operations applied to it (`V0`), then that with the output array replaced by what the write-backs leave (`W2`),
  then the fifteen operations applied to that (`W3`). At the region's entry the four distinct buffers behind the five
  windows' arrays are dealt to the windows, the shared array's points-to split into the two halves of the full share
  (`entry_split`); at its exit the inputs come back as entered, the two halves are joined again, and with the buffers
  that bypassed the region they are every unscoped buffer at `W2` (`exit_join`). The region's invariant at both ends is
  the scratch at some contents (`ΦS`); the kernel has no semaphore of its own and owes nothing.
-/
import proofs.«109907_j78185584657073_1_alg».proof.Proof.WEntry
import proofs.«109907_j78185584657073_1_alg».proof.Proof.WShares
import proofs.«109907_j78185584657073_1_alg».proof.Proof.Gen.Kernel.Launch
import Idealize.ShloMosaic.Lib.Pipeline.Regions
import Idealize.ShloMosaic.Lib.Pipeline.Frame

noncomputable section

namespace Cert.Kernel.Launch

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable {c : Dev nD} (dat : Dat τ (Elt F) Unit ℕ (UR sig nD τ) ℕ cfg0 c)

/-- The windows' arrays, one by one: the shared array twice, at the two halves of the full share. -/
theorem arrays_eq (hq : ∀ w, dat.q w = qW w)
    (G : (w : Fin cfg0.W) → Buf (Elt F) ((cfg0.win w).arr.view.loc (c : Thread nD τ))) :
    (dat.arrays G : sProp 𝕄)
      = iprop((((c : Thread nD τ).loc main_v6) ↦{fullShare.left} G 0) ∗ (((c : Thread nD τ).loc main_v6) ↦{fullShare.right} G 1)
          ∗ (((c : Thread nD τ).loc main_v7) ↦{fullShare} G 2) ∗ (((c : Thread nD τ).loc main_v8) ↦{fullShare} G 3)
          ∗ (((c : Thread nD τ).loc main_v9) ↦{fullShare} G 4)) := by
  unfold Dat.arrays
  rw [bigSep_W0]
  rw [(arr_whole0 0).set_eq_univ, (arr_whole0 2).set_eq_univ, (arr_whole0 3).set_eq_univ, (arr_whole0 4).set_eq_univ]
  unfold Dat.share
  rw [hq 0, hq 1, hq 2, hq 3]
  rfl

/-- The distinct buffers behind the windows' arrays, one by one. -/
theorem arrBufs_eq (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v6) ↦{fullShare} V main_v6) ∗ (((c : Thread nD τ).loc main_v7) ↦{fullShare} V main_v7)
          ∗ (((c : Thread nD τ).loc main_v8) ↦{fullShare} V main_v8) ∗ (((c : Thread nD τ).loc main_v9) ↦{fullShare} V main_v9)) := by
  unfold Pipeline.arrBufs
  exact bigSep_eq_bigSepL_of_eq [main_v6, main_v7, main_v8, main_v9] (by decide) (by decide) _

end Arrays

variable (m : (ℓ : Loc nD τ sig) → Buf (Elt F) ℓ) (ρ : Dev nD → PrngReg)

/-- The scratch at some contents: what the region's invariant is at both ends. -/
def ΦS (c : Dev nD) : sProp 𝕄 :=
  Pipeline.scopedRest (Ix := Unit) (Name := ℕ) (U := UR sig nD τ) (Lvl := ℕ) (Val := Elt F) spec0 c

/-- No pipeline has a prefetched table. -/
abbrev adm : (p : Fin 1) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through the host operations: the core owing nothing — before the region with nothing
    recorded, after it with whatever the region's waits recorded. -/
abbrev R₀ (c : Dev nD) : sProp 𝕄 := owes (c : Thread nD τ) (0 : CellTallies nD τ sig Unit) ∅
abbrev R (c : Dev nD) : sProp 𝕄 := iprop(∃ W, owes (c : Thread nD τ) (0 : CellTallies nD τ sig Unit) W)

/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (Rr : Dev nD → sProp 𝕄) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Run

variable (dats : (p : Fin 1) → (c : Dev nD) → Dat τ (Elt F) Unit ℕ (UR sig nD τ) ℕ (cfgs p) c)

/-- Core `c`'s buffers when the region is left: the output array at what the write-backs leave, every other buffer as entered. -/
def W2 (c : Dev nD) : Valuation τ sig (Elt F) :=
  Function.update (V0 m c) (Proc.devRef .tc main_v9) ((dats 0 c).arrAt 4 cfg0.N)

/-- and at the end: the fifteen host operations after the region have run. -/
abbrev W3 (c : Dev nD) : Valuation τ sig (Elt F) := StableHlo.after hostOps1 (W2 m dats c)

end Run

section Deal

variable {c : Dev nD} (dat : Dat τ (Elt F) Unit ℕ (UR sig nD τ) ℕ cfg0 c)

/-- ENTRY: the four buffers behind the windows' arrays, each whole, dealt to the five windows — the shared array's
    points-to split into the two halves of the full share. -/
theorem entry_split (hA : ∀ w, dat.A w = V m c (Pipeline.arrRef spec0 w)) (hq : ∀ w, dat.q w = qW w) :
    (Pipeline.arrBufs (Ix := Unit) (Name := ℕ) (U := UR sig nD τ) (Lvl := ℕ) spec0 c (V m c) : sProp 𝕄)
      ⊢ dat.arrays (dat.arrAt · 0) := by
  rw [arrBufs_eq, arrays_eq dat hq]
  rw [show dat.arrAt 0 0 = V m c main_v6 from hA 0, show dat.arrAt 1 0 = V m c main_v6 from hA 1,
    show dat.arrAt 2 0 = V m c main_v7 from hA 2, show dat.arrAt 3 0 = V m c main_v8 from hA 3,
    show dat.arrAt 4 0 = V m c main_v9 from hA 4]
  iintro ⟨H6, H7, H8, H9⟩
  ihave H := (pointsTo_share (PosShare.mem_left_op_right fullShare)).1 $$ H6
  icases H with ⟨H6a, H6b⟩
  isplitl [H6a]; · iexact H6a
  isplitl [H6b]; · iexact H6b
  isplitl [H7]; · iexact H7
  isplitl [H8]; · iexact H8
  iexact H9

end Deal

section Join

variable (dats : (p : Fin 1) → (c : Dev nD) → Dat τ (Elt F) Unit ℕ (UR sig nD τ) ℕ (cfgs p) c) (c : Dev nD)

/-- Off the output array, the buffers at the region's exit are those at its entry; -/
theorem W2_of_ne (b : Ref sig .tc) (hb : b ≠ main_v9) : W2 m dats c (Proc.devRef .tc b) = V0 m c (Proc.devRef .tc b) :=
  Function.update_of_ne (StableHlo.devRef_ne_of_ne hb) _ _
/-- the output array holds what the write-backs leave. -/
theorem W2_v9 : W2 m dats c (Proc.devRef .tc main_v9) = (dats 0 c).arrAt 4 cfg0.N := Function.update_self ..

/-- EXIT: the five windows' arrays as the region leaves them — the inputs as entered, the shared array's two halves
    joined again — and the buffers that bypassed the region are every unscoped buffer at the exit contents. -/
theorem exit_join (hA : ∀ w, (dats 0 c).A w = V m c (Pipeline.arrRef spec0 w)) (hq : ∀ w, (dats 0 c).q w = qW w) :
    iprop((dats 0 c).arrays ((dats 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (W2 m dats c) : sProp 𝕄) := by
  have hrest : (Pipeline.unscopedRest (Ix := Unit) (Name := ℕ) (U := UR sig nD τ) (Lvl := ℕ) spec0 c (fun b => W2 m dats c b) : sProp 𝕄)
      = Pipeline.unscopedRest spec0 c (V m c) := by
    unfold Pipeline.unscopedRest
    exact bigSep_congr fun b hb => by
      beta_reduce
      rw [W2_of_ne m dats c b (fun e => (Finset.mem_sdiff.mp hb).2 (Finset.mem_image.mpr ⟨4, Finset.mem_univ _, e.symm⟩))]
  rw [← Pipeline.unscopedBufs_held c (W2 m dats c), Pipeline.unscopedBufs_split₀ cfgs 0 winFacts₀0.arr_unscoped c, hrest,
    arrBufs_eq, arrays_eq (dats 0 c) hq]
  beta_reduce
  rw [show (dats 0 c).arrAt 0 cfg0.N = V m c main_v6 from ((dats 0 c).arrAt_in 0 rfl _).trans (hA 0),
    show (dats 0 c).arrAt 1 cfg0.N = V m c main_v6 from ((dats 0 c).arrAt_in 1 rfl _).trans (hA 1),
    show (dats 0 c).arrAt 2 cfg0.N = V m c main_v7 from ((dats 0 c).arrAt_in 2 rfl _).trans (hA 2),
    show (dats 0 c).arrAt 3 cfg0.N = V m c main_v8 from ((dats 0 c).arrAt_in 3 rfl _).trans (hA 3),
    show W2 m dats c (Proc.devRef .tc main_v6) = V m c main_v6 from W2_of_ne m dats c main_v6 (by decide),
    show W2 m dats c (Proc.devRef .tc main_v7) = V m c main_v7 from W2_of_ne m dats c main_v7 (by decide),
    show W2 m dats c (Proc.devRef .tc main_v8) = V m c main_v8 from W2_of_ne m dats c main_v8 (by decide),
    W2_v9 m dats c]
  iintro ⟨⟨H6a, H6b, H7, H8, H9⟩, Hrest⟩
  isplitr [Hrest]
  · isplitl [H6a H6b]
    · iapply (pointsTo_share (PosShare.mem_left_op_right fullShare)).2
      isplitl [H6a] <;> iassumption
    isplitl [H7]; · iexact H7
    isplitl [H8]; · iexact H8
    iexact H9
  iexact Hrest

end Join

section Segs

variable (dats : (p : Fin 1) → (c : Dev nD) → Dat τ (Elt F) Unit ℕ (UR sig nD τ) ℕ (cfgs p) c)
  (hA : ∀ c w, (dats 0 c).A w = V m c (Pipeline.arrRef spec0 w))
  (hq : ∀ c w, (dats 0 c).q w = qW w)
  (hΦ0 : ∀ c, ΦS c ⊢ (dats 0 c).Φ 0)
  (hΦN : ∀ c, (dats 0 c).Φ (Fin.last cfg0.N) ⊢ ΦS c)
  (howed : ∀ c t, (dats 0 c).owed t = 0)
  (hbody : ∀ c, Pipeline.BodyObligation (dats 0 c) (defs₀ (F := F)) Variants.none () Set.univ)

set_option backward.isDefEq.respectTransparency.types false in
/-- THE REGION over the thread state: entered from every unscoped buffer at the contents the ten host operations leave,
    left with the output array at what the write-backs leave and every other buffer as entered; the windows' arrays
    dealt out of the unscoped buffers at entry and put back at exit; the invariant's ends the scratch at some contents;
    nothing owed; no semaphore of the kernel's own. -/
def reg0 : Pipeline.RegionSeg (pcfgs (F := F)) adm dats () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 howed
  pre c := iprop(StableHlo.held (c : Thread nD τ) (Pipeline.ucRefs τ sig) (V0 m c) ∗ R₀ c)
  post c := iprop(StableHlo.held (c : Thread nD τ) (Pipeline.ucRefs τ sig) (W2 m dats c) ∗ R c)
  X c := iprop(emp)
  Y c := iprop(emp)
  Z c := Pipeline.unscopedRest (Ix := Unit) (Name := ℕ) (U := UR sig nD τ) (Lvl := ℕ) spec0 c (V m c)
  hentry c := by
    rw [Pipeline.ownSems0_none, ← Pipeline.unscopedBufs_held c (V0 m c), Pipeline.unscopedBufs_split₀ cfgs 0 winFacts₀0.arr_unscoped c]
    iintro ⟨⟨⟨Hab, Hrest⟩, HO⟩, -, -⟩
    ihave Ha := (entry_split m (dats 0 c) (hA c) (hq c)) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      iexists ∅; isplitr; · ipureintro; rw [Finset.coe_empty]; exact Set.empty_subset _
      iexact HO
    isplitr; · iempintro
    iexact Hrest
  hin c := by
    have h := hΦ0 c
    unfold ΦS at h
    iintro ⟨-, -, Hr⟩
    iapply h; iexact Hr
  hout c := by
    have h := hΦN c
    unfold ΦS at h
    rw [Pipeline.ownSems0_none]
    refine h.trans ?_
    iintro Hr
    isplitr; · iempintro
    isplitr; · iempintro
    iexact Hr
  hexit c := by
    iintro ⟨Ha, HO, -, Hrest⟩
    imodintro
    isplitr [HO]
    · iapply (exit_join m dats c (hA c) (hq c)); isplitl [Ha] <;> iassumption
    unfold Pipeline.Dat.owesAt Pipeline.owesWithin
    rw [howed c]
    icases HO with ⟨%W, -, HO⟩; iexists W; iexact HO

end Segs

section Launch

/-- No host operation before the region writes an argument, -/
theorem after0_arg (Wv : Valuation τ sig (Elt F)) (b : Ref sig .tc) (hb : b = main_arg0 ∨ b = main_arg1) :
    StableHlo.after (hostOps0 (F := F)) Wv (Proc.devRef .tc b) = Wv (Proc.devRef .tc b) := by
  refine StableHlo.after_of_forall_not_mem _ _ (List.forall_iff_forall_mem.mp ?_)
  rcases hb with rfl | rfl
  all_goals
    simp only [hostOps0, List.Forall, StableHlo.nullary_writes, StableHlo.unary_writes, StableHlo.binary_writes, StableHlo.reshape_writes, Finset.mem_singleton]
    repeat' apply And.intro
    all_goals exact StableHlo.devRef_ne_of_ne (by decide)

/-- and none after it. -/
theorem after1_arg (Wv : Valuation τ sig (Elt F)) (b : Ref sig .tc) (hb : b = main_arg0 ∨ b = main_arg1) :
    StableHlo.after (hostOps1 (F := F)) Wv (Proc.devRef .tc b) = Wv (Proc.devRef .tc b) := by
  refine StableHlo.after_of_forall_not_mem _ _ (List.forall_iff_forall_mem.mp ?_)
  rcases hb with rfl | rfl
  all_goals
    simp only [hostOps1, List.Forall, StableHlo.nullary_writes, StableHlo.unary_writes, StableHlo.binary_writes, StableHlo.reshape_writes, Finset.mem_singleton]
    repeat' apply And.intro
    all_goals exact StableHlo.devRef_ne_of_ne (by decide)

variable (dats : (p : Fin 1) → (c : Dev nD) → Dat τ (Elt F) Unit ℕ (UR sig nD τ) ℕ (cfgs p) c)

/-- An argument reaches the end as launched: no host operation writes it and the region only reads. -/
theorem W3_arg (c : Dev nD) (b : Ref sig .tc) (hb : b = main_arg0 ∨ b = main_arg1) :
    W3 m dats c (Proc.devRef .tc b) = m ((c : Thread nD τ).loc b) :=
  calc W3 m dats c (Proc.devRef .tc b)
    _ = W2 m dats c (Proc.devRef .tc b) := after1_arg _ b hb
    _ = V0 m c (Proc.devRef .tc b) := W2_of_ne m dats c b (by rcases hb with rfl | rfl <;> decide)
    _ = m ((c : Thread nD τ).loc b) := after0_arg _ b hb

variable (hA : ∀ c w, (dats 0 c).A w = V m c (Pipeline.arrRef spec0 w))
  (hq : ∀ c w, (dats 0 c).q w = qW w)
  (hΦ0 : ∀ c, ΦS c ⊢ (dats 0 c).Φ 0)
  (hΦN : ∀ c, (dats 0 c).Φ (Fin.last cfg0.N) ⊢ ΦS c)
  (howed : ∀ c t, (dats 0 c).owed t = 0)
  (hbody : ∀ c, Pipeline.BodyObligation (dats 0 c) (defs₀ (F := F)) Variants.none () Set.univ)

/-- @main's three segments: the ten host operations, the region, the fifteen host operations. -/
abbrev segs : List (Pipeline.Seg (pcfgs (F := F)) adm dats () defs₀ 𝒱₀ L lv) :=
  [ .host (hseg hostOps0 hostOps0_sub hostOps0_fresh (fun c b => m (c, b)) R₀),
    .region (reg0 m dats hA hq hΦ0 hΦN howed hbody),
    .host (hseg hostOps1 hostOps1_sub hostOps1_fresh (W2 m dats) R) ]

set_option backward.isDefEq.respectTransparency.types false in
/-- THE RUN, over any proof data of the region whose arrays are the entry contents, whose shares are `qW`, whose
    invariant's ends are the scratch at some contents, that owes nothing and whose body obligation holds: at the compiled
    mesh, from any memory with zero counters, every weakly fair execution of @main on the TensorCores terminates, and
    every final state has the result at what the fifteen host operations make of the output array the write-backs
    leave, and both arguments as launched. -/
theorem run_of
    (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qW w)
    (hΦ0 : ∀ c, ΦS c ⊢ (dats 0 c).Φ 0)
    (hΦN : ∀ c, (dats 0 c).Φ (Fin.last cfg0.N) ⊢ ΦS c)
    (howed : ∀ c t, (dats 0 c).owed t = 0)
    (hbody : ∀ c, Pipeline.BodyObligation (dats 0 c) (defs₀ (F := F)) Variants.none () Set.univ) :
    θ_run defs (onTc (τ := τ) (main (F := F))) ⟨m, fun _ => 0, ρ⟩ (fun r => ∀ c : Dev nD,
      r.2.mem ((c.tc : Thread nD τ).loc main_v23)
          = StableHlo.after hostOps1 (Function.update (V0 m c) (Proc.devRef .tc main_v9) ((dats 0 c).arrAt 4 cfg0.N)) (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm dats () cellOf_inj emb₁ defs₀ 𝒱₀ L lv m ρ main (segs m dats hA hq hΦ0 hΦN howed hbody)
    (fun c Q => by
      rw [main_segs adm dats () 𝒱₀ L lv (hseg hostOps0 hostOps0_sub hostOps0_fresh (fun c b => m (c, b)) R₀)
        (hseg hostOps1 hostOps1_sub hostOps1_fresh (W2 m dats) R) (reg0 m dats hA hq hΦ0 hΦN howed hbody) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R₀ c))
    (Tₙ := fun c => StableHlo.held (c : Thread nD τ) (Pipeline.ucRefs τ sig) (W3 m dats c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, -, -⟩, -⟩
      imodintro
      isplitl [Hh]; · iexact Hh
      iexact HO)
    (QY := fun c s => ∀ b ∈ Pipeline.ucRefs τ sig, s.mem ((c : Thread nD τ).1, b) = W3 m dats c b)
    (hfin := fun c s' => by
      iintro ⟨Hh, HSI⟩
      unfold StableHlo.held
      imodintro
      iapply (pointsTo_read_all (Pipeline.ucRefs τ sig) (fun b => ((c : Thread nD τ).1, b)) (W3 m dats c) s')
      isplitl [Hh] <;> iassumption)
    (hQ := fun s h c =>
      ⟨h c _ (mem_uc main_v23 (by decide)),
        (h c _ (mem_uc main_arg0 (by decide))).trans (W3_arg m dats c main_arg0 (.inl rfl)),
        (h c _ (mem_uc main_arg1 (by decide))).trans (W3_arg m dats c main_arg1 (.inr rfl))⟩)

end Launch

end Cert.Kernel.Launch

end
-- ==== Proof.WRun.lean ====
/-
  The kernel program's run with its result named: every weakly fair execution of @main ends, and the result
  buffer holds what the fifteen host operations after the region make of the output array as the region's write-backs
  leave it under the proof data of the body; both arguments end as launched.
-/
import proofs.«109907_j78185584657073_1_alg».proof.Proof.WBodyOb
import proofs.«109907_j78185584657073_1_alg».proof.Proof.WLaunch

set_option maxRecDepth 16384

noncomputable section

namespace Cert.Kernel.Body

open Cert.Kernel Cert.Kernel.Gen Cert.Kernel.Launch
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_main :
    θ_run defs (onTc (τ := τ) (main (F := F))) ⟨m, fun _ => 0, ρ⟩ (fun r => ∀ c : Dev nD,
      r.2.mem ((c.tc : Thread nD τ).loc main_v23)
          = StableHlo.after hostOps1 (Function.update (V0 m c) (Proc.devRef .tc main_v9) ((dats m 0 c).arrAt 4 cfg0.N)) (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of m ρ (dats m) (A_eq m) (q_eq m) (phi_in m) (phi_out m) (fun _ _ => rfl) (body_obligation m)

/-- The frame: the run ends with both arguments as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Body

end
-- ==== Proof.KCond.lean ====
/-
  The body's one branch: at a grid point (i, j) the accumulator is cleared exactly when j = 0, that is at the
  points whose number is a multiple of 16. Also the names of the memrefs the pipeline passes the body at a point.
-/
import proofs.«109907_j78185584657073_1_alg».proof.Proof.Gen.KernelIdeal.Launch
import proofs.«109907_j78185584657073_1_alg».proof.Proof.Gen.KernelIdeal.Skeleton
import proofs.«109907_j78185584657073_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch's condition from the grid coordinates: the second coordinate is zero. -/
abbrev clears (i : grid0.Coords) : Prop :=
  (Scalar.cmpi .ne (Scalar.extui (Scalar.cmpi .eq (BitVec.ofNat 32 (i 1).val) 0#32)) 0#32) = 1#1

/-- It holds at the points that begin a row of the grid. -/
theorem clears_iff : ∀ t : Fin cfg0.N, clears (grid0.coords t) ↔ t.val % 16 = 0 :=
  (by decide +kernel : ∀ t : Fin grid0.N, clears (grid0.coords t) ↔ t.val % 16 = 0)

/-- No window is idle at any point: the body stores into the output at every point. -/
theorem live : ∀ (w : Fin 5) (t : Fin cfg0.N), cfg0.idle w (grid0.coords t) = false := by decide +kernel

/-- The scratch accumulator as a memref and as a view. -/
abbrev accM : Memref sig .tc .vmem S8x128 .f32 := Memref.whole cc0_scratch0
abbrev accV : View sig .tc .vmem S8x128 .f32 := accM.view
/-- One staging buffer of the output window, through which its contents are stated. -/
abbrev outV : View sig .tc .vmem S1x8x128 .f32 := (Memref.whole cc0_stg4_0 : Memref sig .tc .vmem S1x8x128 .f32).view

end Cert.KernelIdeal.Body

end
-- ==== Proof.KRunFirst.lean ====
/-
  The body run at a point that begins a grid row (j = 0): the accumulator is first cleared, then each of its four
  leading cells of row 0 is read, increased by the tile's total for that cell and stored back, and last the whole
  accumulator is copied into the output block. What the stores leave is recorded as the list of pieces written.
-/
import proofs.«109907_j78185584657073_1_alg».proof.Proof.KCond

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four inputs at their contents, the output block and the accumulator at anything — the body
    at a row's first point runs to the continuation with the inputs as they were and the output block and the
    accumulator with their pieces written. -/
noncomputable def runFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (arg7 : Memref sig .tc .vmem S8x128 .f32) (harg7 : arg7.IsWhole) (hc : clears i)
    (x0 : Vec F S512x256 .bf16) (x1 : Vec F S512x256 .bf16) (x2 : Vec F S512x1 .i32) (x3 : Vec F S1x512 .i32) :
    Σ' (LO : List (View.Piece (Elt F) S1x8x128 .f32)), { LA : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LA)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, fun E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

end Cert.KernelIdeal.Body

end
-- ==== Proof.KRunNext.lean ====
/-
  The body run at a point that does not begin a grid row (j ≠ 0): the accumulator holds what the point before left;
  each of its four leading cells of row 0 is read, increased by the tile's total for that cell and stored back, and
  last the whole accumulator is copied into the output block. The accumulator ends at its old contents with the four
  pieces written over them; the output block with its one piece written.
-/
import proofs.«109907_j78185584657073_1_alg».proof.Proof.KCond

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four inputs at their contents, the output block at anything, the accumulator at `xa` —
    the body at a later point of a row runs to the continuation with the inputs as they were, the output block with
    its pieces written and the accumulator with its pieces written over `xa`. -/
noncomputable def runNext (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (arg7 : Memref sig .tc .vmem S8x128 .f32) (harg7 : arg7.IsWhole) (hc : ¬clears i)
    (x0 : Vec F S512x256 .bf16) (x1 : Vec F S512x256 .bf16) (x2 : Vec F S512x1 .i32) (x3 : Vec F S1x512 .i32) (xa : Vec F S8x128 .f32) :
    Σ' (LO : List (View.Piece (Elt F) S1x8x128 .f32)), { LA : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (arg7.view.loc (c : Thread nD τ) ↦[arg7.view.set]{fullShare} arg7.view.writes (Elt F) (harg7.unread xa) LA)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, fun E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3
    obtain rfl := harg7.eq_unread hf5
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexact H5

end Cert.KernelIdeal.Body

end
-- ==== Proof.KLeaves.lean ====
/-
  What one run of the body leaves: the accumulator's and the output block's contents after the body at a point, read
  back from the pieces the run wrote. At a row's first point the accumulator is wholly rewritten, so what it held
  before does not matter; at a later point the pieces are written over what the point before left. The output block
  is wholly rewritten at every point.
-/
import proofs.«109907_j78185584657073_1_alg».proof.Proof.KRunFirst
import proofs.«109907_j78185584657073_1_alg».proof.Proof.KRunNext

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator after the body at a row's first point. -/
def accFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (arg7 : Memref sig .tc .vmem S8x128 .f32) (harg7 : arg7.IsWhole) (hc : clears i) (x0 : Vec F S512x256 .bf16) (x1 : Vec F S512x256 .bf16) (x2 : Vec F S512x1 .i32) (x3 : Vec F S1x512 .i32) : Vec F S8x128 .f32 :=
  accV.read (Elt F) (accV.writes (Elt F) accV.junk (runFirst c i arg2 harg2 arg3 harg3 arg4 harg4 arg5 harg5 arg6 harg6 arg7 harg7 hc x0 x1 x2 x3).2.1)

/-- The output block after the body at a row's first point. -/
def outFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (arg7 : Memref sig .tc .vmem S8x128 .f32) (harg7 : arg7.IsWhole) (hc : clears i) (x0 : Vec F S512x256 .bf16) (x1 : Vec F S512x256 .bf16) (x2 : Vec F S512x1 .i32) (x3 : Vec F S1x512 .i32) : Vec F S1x8x128 .f32 :=
  outV.read (Elt F) (outV.writes (Elt F) outV.junk (runFirst c i arg2 harg2 arg3 harg3 arg4 harg4 arg5 harg5 arg6 harg6 arg7 harg7 hc x0 x1 x2 x3).1)

/-- The accumulator after the body at a later point of a row, from what it held before, `xa`. -/
def accNext (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (hc : ¬clears i)
    (x0 : Vec F S512x256 .bf16) (x1 : Vec F S512x256 .bf16) (x2 : Vec F S512x1 .i32) (x3 : Vec F S1x512 .i32) (xa : Vec F S8x128 .f32) : Vec F S8x128 .f32 :=
  accV.read (Elt F) (accV.writes (Elt F) ((Memref.isWhole_whole cc0_scratch0).unread xa)
    (runNext c i arg2 harg2 arg3 harg3 arg4 harg4 arg5 harg5 arg6 harg6 accM (Memref.isWhole_whole _) hc x0 x1 x2 x3 xa).2.1)

/-- The output block after the body at a later point of a row. -/
def outNext (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (hc : ¬clears i)
    (x0 : Vec F S512x256 .bf16) (x1 : Vec F S512x256 .bf16) (x2 : Vec F S512x1 .i32) (x3 : Vec F S1x512 .i32) (xa : Vec F S8x128 .f32) : Vec F S1x8x128 .f32 :=
  outV.read (Elt F) (outV.writes (Elt F) outV.junk
    (runNext c i arg2 harg2 arg3 harg3 arg4 harg4 arg5 harg5 arg6 harg6 accM (Memref.isWhole_whole _) hc x0 x1 x2 x3 xa).1)

end Cert.KernelIdeal.Body

end
-- ==== Proof.KEntry.lean ====
/-
  What core c's buffers hold when the kernel region is entered: the launch contents with the ten host operations
  before the region applied.
-/
import proofs.«109907_j78185584657073_1_alg».proof.Proof.Gen.KernelIdeal.Launch

noncomputable section

namespace Cert.KernelIdeal.Launch

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

/-- Core `c`'s buffers as a valuation once the ten host operations before the region have run. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

end Cert.KernelIdeal.Launch

end
-- ==== Proof.KBlocks.lean ====
/-
  A window's block at a grid point, read off its array as the kernel region finds it.
-/
import proofs.«109907_j78185584657073_1_alg».proof.Proof.KEntry
import Idealize.ShloMosaic.Lib.Pipeline.FrameBody

noncomputable section

namespace Cert.KernelIdeal.Body

open Cert.KernelIdeal Cert.KernelIdeal.Gen Cert.KernelIdeal.Launch
open Idealize.ShloMosaic Idealize.ShloMosaic.TcCoe Idealize.SL.Sem

variable {F : FTy → Type} [FloatOps F]

variable (m : (ℓ : Loc nD τ sig) → Buf (Elt F) ℓ)

/-- Window `w`'s block at point `t`: the part of its array (at the region-entry contents) the point's index selects. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Body

end
-- ==== Proof.KShares.lean ====
/-
  The share at which each window of the kernel's one call holds its array: the first two windows both read the
  array of unit rows, a half each; every other window's array is its own.
-/
import proofs.«109907_j78185584657073_1_alg».proof.Proof.Gen.KernelIdeal.Launch

noncomputable section

namespace Cert.KernelIdeal.Launch

open Idealize.ShloMosaic Idealize.SL Idealize.SL.RA Idealize.SL.BI

/-- Windows 0 and 1 hold the shared array at the two halves of the full share; windows 2, 3 and 4 hold theirs whole. -/
def qW : Fin 5 → PosShare TreeShare
  | ⟨0, _⟩ => fullShare.left
  | ⟨1, _⟩ => fullShare.right
  | ⟨2, _⟩ => fullShare
  | ⟨3, _⟩ => fullShare
  | ⟨4, _⟩ => fullShare

end Cert.KernelIdeal.Launch

end
-- ==== Proof.KData.lean ====
/-
  The proof data of the kernel's one call. After the body at point t the four input windows' buffers hold their
  blocks (the body only reads them); the output block and the accumulator hold what the run at t leaves: at a
  row's first point the run from cleared contents, at a later point the run over what the point before left in the
  accumulator. Between points the invariant is the accumulator at exactly those contents (before the first point:
  at anything).
-/
import proofs.«109907_j78185584657073_1_alg».proof.Proof.KLeaves
import proofs.«109907_j78185584657073_1_alg».proof.Proof.KBlocks
import proofs.«109907_j78185584657073_1_alg».proof.Proof.KShares

set_option maxRecDepth 16384

noncomputable section

namespace Cert.KernelIdeal.Body

open Cert.KernelIdeal Cert.KernelIdeal.Gen Cert.KernelIdeal.Launch
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Each window's current staging memref at point `t`, as the pipeline passes it to the body, and its wholeness. -/
abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x128 .f32 := win0_4.stage (cfg0.slots t 4)
abbrev hs4 (t : Fin cfg0.N) : (ms4 t).IsWhole := hstage0_4 ((cfg0.slots t 4).cast nbuf0_4)

/-- The output block and the accumulator after the body at a row's first point `t`. -/
def firstAt (c : Dev nD) (t : Fin cfg0.N) (h : t.val % 16 = 0) : Vec F S1x8x128 .f32 × Vec F S8x128 .f32 :=
  (outFirst c (grid0.coords t) (ms0 t) (hs0 t) (ms1 t) (hs1 t) (ms2 t) (hs2 t) (ms3 t) (hs3 t) (ms4 t) (hs4 t) accM (Memref.isWhole_whole _) ((clears_iff t).mpr h) (iblk m c 0 t) (iblk m c 1 t) (iblk m c 2 t) (iblk m c 3 t),
   accFirst c (grid0.coords t) (ms0 t) (hs0 t) (ms1 t) (hs1 t) (ms2 t) (hs2 t) (ms3 t) (hs3 t) (ms4 t) (hs4 t) accM (Memref.isWhole_whole _) ((clears_iff t).mpr h) (iblk m c 0 t) (iblk m c 1 t) (iblk m c 2 t) (iblk m c 3 t))

/-- The same at a later point `t` of a row, the accumulator having held `xa`. -/
def nextAt (c : Dev nD) (t : Fin cfg0.N) (h : ¬t.val % 16 = 0) (xa : Vec F S8x128 .f32) : Vec F S1x8x128 .f32 × Vec F S8x128 .f32 :=
  (outNext c (grid0.coords t) (ms0 t) (hs0 t) (ms1 t) (hs1 t) (ms2 t) (hs2 t) (ms3 t) (hs3 t) (ms4 t) (hs4 t) (fun hc => h ((clears_iff t).mp hc)) (iblk m c 0 t) (iblk m c 1 t) (iblk m c 2 t) (iblk m c 3 t) xa,
   accNext c (grid0.coords t) (ms0 t) (hs0 t) (ms1 t) (hs1 t) (ms2 t) (hs2 t) (ms3 t) (hs3 t) (ms4 t) (hs4 t) (fun hc => h ((clears_iff t).mp hc)) (iblk m c 0 t) (iblk m c 1 t) (iblk m c 2 t) (iblk m c 3 t) xa)

/-- What the output block and the accumulator hold after the body at point `n`, by recursion on the point. -/
def leavesAt (c : Dev nD) : (n : ℕ) → n < cfg0.N → Vec F S1x8x128 .f32 × Vec F S8x128 .f32
  | 0, hn => firstAt m c ⟨0, hn⟩ (Nat.zero_mod _)
  | n + 1, hn =>
    if h : (n + 1) % 16 = 0 then firstAt m c ⟨n + 1, hn⟩ h
    else nextAt m c ⟨n + 1, hn⟩ h (leavesAt c n (Nat.lt_of_succ_lt hn)).2

theorem leavesAt_first (c : Dev nD) (t : Fin cfg0.N) (h : t.val % 16 = 0) :
    leavesAt m c t.val t.isLt = firstAt m c t h := by
  obtain ⟨n, hn⟩ := t
  cases n with
  | zero => rfl
  | succ n => exact dif_pos h

theorem leavesAt_next (c : Dev nD) (t : Fin cfg0.N) (h : ¬t.val % 16 = 0) :
    leavesAt m c t.val t.isLt
      = nextAt m c t h (leavesAt m c (t.val - 1) (Nat.lt_of_le_of_lt (Nat.sub_le _ _) t.isLt)).2 := by
  obtain ⟨n, hn⟩ := t
  cases n with
  | zero => exact absurd (Nat.zero_mod _) h
  | succ n => exact dif_neg h

/-- The invariant before point `n`: before the first point the accumulator at anything (the call's scoped rest);
    afterwards the accumulator at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) accM fullShare (leavesAt m c n hn).2

theorem PhiS_succ (c : Dev nD) (n : ℕ) (hn : n < cfg0.N) :
    PhiS m c (n + 1) hn = owns (c : Thread nD τ) accM fullShare (leavesAt m c n hn).2 := rfl

theorem PhiS_pos (c : Dev nD) (n : ℕ) (h : n ≤ cfg0.N) (hz : n ≠ 0) :
    PhiS m c n h = owns (c : Thread nD τ) accM fullShare (leavesAt m c (n - 1) (by omega)).2 := by
  cases n with
  | zero => exact absurd rfl hz
  | succ n => rfl

/-- The scoped rest is the accumulator owned at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (leavesAt m c t.val t.isLt).1
  Φ t := PhiS m c t.val (Nat.le_of_lt_succ t.isLt)
  q := qW
  owed _ := 0

theorem A_eq (c : Dev nD) (w : Fin cfg0.W) : (dats m 0 c).A w = V m c (Pipeline.arrRef spec0 w) := by
  dsimp only [dats]

theorem q_eq (c : Dev nD) (w : Fin cfg0.W) : (dats m 0 c).q w = qW w := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (leavesAt m c t.val t.isLt).1 := by dsimp only [dats]

/-- Each input window's current buffer holds its block at every point, fetched there or not: the body leaves the
    block in place, and an unfetched window's block index has not moved. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

end Cert.KernelIdeal.Body

end
-- ==== Proof.Spec.lean ====
/-
  The mathematics both programs compute, stated once and free of either program.

  Rows of an 8192 × 256 matrix `x` are scaled to unit length, `e p k = x p k / sqrt (∑ k', x p k' · x p k')`;
  `sim p q = ∑ k, e p k · e q k` is the cosine of rows `p` and `q`. Two rows are alike when their labels are the
  same word. The loss is the mean of `(1 - sim)²` over the alike pairs plus the mean of `max (sim - 1) 0 ²` over the
  other pairs, each mean a total over all 8192² ordered pairs divided by the number of pairs of its kind
  (`loss`). The same quantity summed tile by tile — 16 × 16 tiles of 512 × 512 pairs, the count of unlike pairs
  of a tile taken as 262144 minus its count of alike pairs — is `tiled`.
-/
import Idealize.ShloMosaic.PureOps.Ideal
import Idealize.ShloMosaic.Lib.ValueIdx

noncomputable section

open scoped BigOperators

namespace Cert.Spec

open Idealize.ShloMosaic

/-- The float words the programs spell, at their extended-real values (never evaluated where both sides carry them). -/
def zero : EReal := Ideal.ofBits .f32 0x00000000#32
def one : EReal := Ideal.ofBits .f32 0x3F800000#32
def tilePairs : EReal := Ideal.ofBits .f32 0x48800000#32

/-- Row `p` of `x` scaled by the root of its sum of squares (the sum started from the zero word, as both programs do). -/
def unit (x : Fin 8192 → Fin 256 → EReal) (p : Fin 8192) (k : Fin 256) : EReal :=
  Ideal.div (x p k) (Ideal.sqrt (zero + ∑ k' : Fin 256, x p k' * x p k'))

variable (e : Fin 8192 → Fin 256 → EReal) (l : Fin 8192 → BitVec 32)

/-- The cosine of rows `p` and `q`. -/
def sim (p q : Fin 8192) : EReal := ∑ k : Fin 256, e p k * e q k

/-- An alike pair's term `(1 - sim)²`, nothing for an unlike pair. -/
def posT (p q : Fin 8192) : EReal := if l p = l q then (one - sim e p q) * (one - sim e p q) else zero

/-- An unlike pair's term `max (sim - 1) 0 ²`, nothing for an alike pair. -/
def negT (p q : Fin 8192) : EReal := if l p = l q then zero else max (sim e p q - one) zero * max (sim e p q - one) zero

/-- One for an alike pair, nought otherwise. -/
def alike (p q : Fin 8192) : ℝ := if l p = l q then 1 else 0

/-- The number of alike ordered pairs, as a real. -/
def alikeCount : ℝ := ∑ p : Fin 8192, ∑ q : Fin 8192, alike l p q

/-- The loss: each kind's total over all ordered pairs divided by the number of pairs of the kind. -/
def loss : EReal :=
  Ideal.div (∑ p : Fin 8192, ∑ q : Fin 8192, posT e l p q) ((alikeCount l : ℝ) : EReal)
    + Ideal.div (∑ p : Fin 8192, ∑ q : Fin 8192, negT e l p q) (((67108864 : ℝ) - alikeCount l : ℝ) : EReal)

/-- Row `r` of tile row `i`. -/
def row (i : Fin 16) (r : Fin 512) : Fin 8192 := ⟨512 * i.val + r.val, by have := i.isLt; have := r.isLt; omega⟩

/-- A tile's totals. -/
def tilePos (i j : Fin 16) : EReal := ∑ r : Fin 512, ∑ s : Fin 512, posT e l (row i r) (row j s)
def tileNeg (i j : Fin 16) : EReal := ∑ r : Fin 512, ∑ s : Fin 512, negT e l (row i r) (row j s)
def tileAlike (i j : Fin 16) : EReal := ∑ r : Fin 512, ∑ s : Fin 512, ((alike l (row i r) (row j s) : ℝ) : EReal)

/-- The loss summed tile by tile. -/
def tiled : EReal :=
  Ideal.div (∑ i : Fin 16, ∑ j : Fin 16, tilePos e l i j) (∑ i : Fin 16, ∑ j : Fin 16, tileAlike l i j)
    + Ideal.div (∑ i : Fin 16, ∑ j : Fin 16, tileNeg e l i j) (∑ i : Fin 16, ∑ j : Fin 16, (tilePairs - tileAlike l i j))

end Cert.Spec

end
-- ==== Proof.KTile.lean ====
/-
  One tile's totals from the four blocks the body loads at a point: `a` the 512 unit rows of the tile's row range,
  `b` the 512 unit rows of its column range, `la` and `lb` their labels (a column and a row of words). For rows
  `r` of `a` and `s` of `b`: their cosine, and the three totals over the 512 × 512 pairs of the tile — the
  alike pairs' `(1 - cos)²`, the unlike pairs' `max (cos - 1) 0 ²`, and the number of alike pairs —, each started
  from the zero word as the body's reductions are.
-/
import proofs.«109907_j78185584657073_1_alg».proof.Proof.Spec
import proofs.«109907_j78185584657073_1_alg».proof.Proof.Gen.KernelIdeal

noncomputable section

open scoped BigOperators

namespace Cert.KernelIdeal.Tile

open Cert.KernelIdeal Idealize.ShloMosaic Idealize.ShloMosaic.ValueIdx

variable (a b : Vec Ideal S512x256 .bf16) (la : Vec Ideal S512x1 .i32) (lb : Vec Ideal S1x512 .i32)

/-- The cosine of row `r` of `a` and row `s` of `b`. -/
def cos (r s : Fin 512) : EReal := ∑ k : Fin 256, a (ix2 r k) * b (ix2 s k)

/-- The alike pairs' total of the tile. -/
def pos : EReal :=
  Cert.Spec.zero + ∑ r : Fin 512, ∑ s : Fin 512,
    (if la (ix2 r 0) = lb (ix2 0 s) then (Cert.Spec.one - cos a b r s) * (Cert.Spec.one - cos a b r s) else Cert.Spec.zero)

/-- The unlike pairs' total of the tile. -/
def neg : EReal :=
  Cert.Spec.zero + ∑ r : Fin 512, ∑ s : Fin 512,
    (if la (ix2 r 0) = lb (ix2 0 s) then Cert.Spec.zero
      else max (cos a b r s - Cert.Spec.one) Cert.Spec.zero * max (cos a b r s - Cert.Spec.one) Cert.Spec.zero)

/-- The number of alike pairs of the tile. -/
def alike : EReal :=
  Cert.Spec.zero + ∑ r : Fin 512, ∑ s : Fin 512, (((if la (ix2 r 0) = lb (ix2 0 s) then 1 else 0 : ℝ) : ℝ) : EReal)

end Cert.KernelIdeal.Tile

end
-- ==== Proof.KSim.lean ====
/-
  The body's two shared intermediates read at one pair (r, s) of a tile: the matrix product of the row block `a` with
  the transpose of the row block `b`, accumulated from zero, is the cosine of row r of `a` and row s of `b`; the mask
  compares the label of row r (a column of words spread along the rows) with the label of row s (a row of words spread
  along the columns).
-/
import proofs.«109907_j78185584657073_1_alg».proof.Proof.KTile
import proofs.«109907_j78185584657073_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen
open Idealize.ShloMosaic Idealize.ShloMosaic.ValueIdx

/-- The left operand's row coordinate is the output's row. -/
theorem dot_lhs_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide),
    dif_pos (show (0 : Fin S512x256.rank) ∈ dot_S512x256_S256x512_S512x512_1_0_0_1_n_n.lhsNonContracting by decide)]
  rfl

/-- The left operand's column coordinate is the contraction's. -/
theorem dot_lhs_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q

/-- The right operand's row coordinate is the contraction's. -/
theorem dot_rhs_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q

/-- The right operand's column coordinate is the output's column. -/
theorem dot_rhs_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide),
    dif_pos (show (1 : Fin S256x512.rank) ∈ dot_S512x256_S256x512_S512x512_1_0_0_1_n_n.rhsNonContracting by decide)]
  rfl

/-- The product of `a` with the transpose of `b`, from a zero accumulator, at (r, s): the sum over k of a(r, k) · b(s, k). -/
theorem matmul_transpose_apply (a b : FVec Ideal S512x256 .bf16) (r s : Fin 512) :
    FloatOps.matmul dot_S512x256_S256x512_S512x512_1_0_0_1_n_n none a
        (transpose S256x512 [1, 0] b transposes_S512x256_p1_0_S256x512) (constant (F := Ideal) S512x512 .f32 0x00000000#32) (ix2 r s)
      = ∑ k : Fin 256, a (ix2 r k) * b (ix2 s k) := by
  generalize hT : transpose S256x512 [1, 0] b transposes_S512x256_p1_0_S256x512 = bT
  rw [Ideal.matmul_constant_zero_apply, ← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 r s) ((contrEquiv1 dot_S512x256_S256x512_S512x512_1_0_0_1_n_n 256 rfl rfl).symm k) = ix2 r k :=
    funext fun x => Fin.ext (by
      match x with
      | ⟨0, _⟩ => exact dot_lhs_0 _ _
      | ⟨1, _⟩ => exact (dot_lhs_1 _ _).trans hk)
  have er : dot_S512x256_S256x512_S512x512_1_0_0_1_n_n.rhsIdx (ix2 r s) ((contrEquiv1 dot_S512x256_S256x512_S512x512_1_0_0_1_n_n 256 rfl rfl).symm k) = ix2 k s :=
    funext fun x => Fin.ext (by
      match x with
      | ⟨0, _⟩ => exact (dot_rhs_0 _ _).trans hk
      | ⟨1, _⟩ => exact dot_rhs_1 _ _)
  rw [el, er, ← hT]
  exact congrArg (a (ix2 r k) * ·) (transpose_apply [1, 0] b transposes_S512x256_p1_0_S256x512 (ix2 k s) (ix2 s k) (fun x =>
    match x with
    | ⟨0, _⟩ => rfl
    | ⟨1, _⟩ => rfl))

/-- The body's matrix product at (r, s) is the cosine of row r of `a` and row s of `b`. -/
theorem pay2_apply (a b : Vec Ideal S512x256 .bf16) (r s : Fin 512) :
    k0_pay2 (F := Ideal) a b (ix2 r s) = Tile.cos a b r s := by
  unfold Gen.k0_pay2 Tile.cos
  rw [shapeCast_self, shapeCast_self]
  exact matmul_transpose_apply a b r s

/-- A column of 512 words spread along the rows reads its row's word. -/
theorem column_apply {α : Type} (x : S512x1.Idx → α) (r s : Fin 512) :
    broadcastTo S512x512 x broadcasts_S512x1_S512x512 (ix2 r s) = x (ix2 r 0) :=
  broadcastTo_apply x broadcasts_S512x1_S512x512 (ix2 r s) (ix2 r 0) (fun a =>
    match a with
    | ⟨0, _⟩ => rfl
    | ⟨1, _⟩ => rfl)

/-- A row of 512 words spread along the columns reads its column's word. -/
theorem row_apply {α : Type} (x : S1x512.Idx → α) (r s : Fin 512) :
    broadcastTo S512x512 x broadcasts_S1x512_S512x512 (ix2 r s) = x (ix2 0 s) :=
  broadcastTo_apply x broadcasts_S1x512_S512x512 (ix2 r s) (ix2 0 s) (fun a =>
    match a with
    | ⟨0, _⟩ => rfl
    | ⟨1, _⟩ => rfl)

/-- The mask at (r, s) compares the label of row r with the label of row s. -/
theorem pay3_apply (la : Vec Ideal S512x1 .i32) (lb : Vec Ideal S1x512 .i32) (r s : Fin 512) :
    k0_pay3 (F := Ideal) la lb (ix2 r s) = IntOp.cmpi .eq (la (ix2 r 0)) (lb (ix2 0 s)) := by
  unfold Gen.k0_pay3
  rw [shapeCast_self, shapeCast_self]
  show IntOp.cmpi .eq (broadcastTo S512x512 la broadcasts_S512x1_S512x512 (ix2 r s)) (broadcastTo S512x512 lb broadcasts_S1x512_S512x512 (ix2 r s)) = _
  rw [column_apply, row_apply]

/-- Equal words compare to the set bit, -/
theorem cmpi_eq_of_eq {x y : BitVec 32} (h : x = y) : IntOp.cmpi .eq x y = 1#1 := by
  subst h; simp [IntOp.cmpi]

/-- unequal words to the clear bit. -/
theorem cmpi_eq_of_ne {x y : BitVec 32} (h : x ≠ y) : IntOp.cmpi .eq x y = 0#1 := by
  unfold IntOp.cmpi
  rw [show (x == y) = false from beq_eq_false_iff_ne.mpr h]
  rfl

end Cert.KernelIdeal.Body

end
-- ==== Proof.KTotals.lean ====
/-
  The body's three tile totals. Each sums a 512 × 512 array of terms, first viewed as 1 × 512 × 512, over its two
  tile axes into one number, which is then spread over a 1 × 1 vector: that number is the double sum over the rows r
  and columns s of the array, so the three totals are the alike pairs' (1 - cos)², the unlike pairs' max (cos - 1) 0 ²
  and the count of alike pairs — the tile's totals, which start from the zero word, itself nought.
-/
import proofs.«109907_j78185584657073_1_alg».proof.Proof.KSim

noncomputable section

open scoped BigOperators

namespace Cert.KernelIdeal.Body

open Cert.KernelIdeal Cert.KernelIdeal.Gen
open Idealize.ShloMosaic Idealize.ShloMosaic.ValueIdx

/-- A sum over the indices of a 1 × m × n array viewed from an m × n one is the double sum over rows and columns. -/
theorem sum_addUnit {n0 n1 : ℕ} (v : (⟨2, ![n0, n1]⟩ : Shape).Idx → EReal)
    (h : (⟨2, ![n0, n1]⟩ : Shape).ShapeCasts ⟨3, ![1, n0, n1]⟩) :
    ∑ i : (⟨3, ![1, n0, n1]⟩ : Shape).Idx, shapeCast ⟨3, ![1, n0, n1]⟩ v h i = ∑ r : Fin n0, ∑ s : Fin n1, v (ix2 r s) := by
  have e : ∀ i : (⟨3, ![1, n0, n1]⟩ : Shape).Idx, shapeCast ⟨3, ![1, n0, n1]⟩ v h i = v (ix2 (i 1) (i 2)) := fun i =>
    (shapeCast_addUnit_apply ![n0, n1] v h i).trans (congrArg v (funext fun a =>
      match a with
      | ⟨0, _⟩ => rfl
      | ⟨1, _⟩ => rfl))
  rw [Finset.sum_congr rfl fun i _ => e i, ← sum_idx2 v]
  let toF : (⟨3, ![1, n0, n1]⟩ : Shape).Idx → (⟨2, ![n0, n1]⟩ : Shape).Idx := fun i => ix2 (n0 := n0) (n1 := n1) (i 1) (i 2)
  let inv : (⟨2, ![n0, n1]⟩ : Shape).Idx → (⟨3, ![1, n0, n1]⟩ : Shape).Idx := fun j => ix3 (n0 := 1) (n1 := n0) (n2 := n1) 0 (j 0) (j 1)
  refine Fintype.sum_equiv ⟨toF, inv, fun i => ?_, fun j => ?_⟩ _ _ fun i => rfl
  · funext a
    match a with
    | ⟨0, _⟩ => exact Fin.ext (by have h : (i 0).val < 1 := (i 0).isLt; show 0 = (i 0).val; omega)
    | ⟨1, _⟩ => rfl
    | ⟨2, _⟩ => rfl
  · exact (eq_ix2 j).symm

/-- The total of a 512 × 512 array of terms as the body takes it — viewed 1 × 512 × 512, summed over the two tile
    axes from the zero word, re-viewed, extracted and spread over a 1 × 1 vector — is the double sum of the terms. -/
theorem total_apply (v : FVec Ideal S512x512 .f32) (y : S1x1.Idx) :
    broadcast S1x1 (extractAt ![0, 0, 0] (shapeCast S1x1x1
        (multiReduction (F := Ideal) .add [1, 2] S1 (shapeCast S1x512x512 v shapeCasts_S512x512_S1x512x512) 0x00000000#32
          reduces_S1x512x512_S1 (.inl rfl) rfl) shapeCasts_S1_S1x1x1) inpos_S1x1x1_p0_0_0) y
      = ∑ r : Fin 512, ∑ s : Fin 512, v (ix2 r s) := by
  unfold broadcast extractAt shapeCast
  refine (Ideal.multiReduction_add_total _ _ reduces_S1x512x512_S1 (by decide) _ _ _).trans ?_
  exact sum_addUnit v shapeCasts_S512x512_S1x512x512

/-- The zero word is nought. -/
theorem spec_zero_add (x : EReal) : Cert.Spec.zero + x = x := by
  unfold Cert.Spec.zero
  rw [Ideal.ofBits_zero_f32, zero_add]

/-- The alike pairs' total the body computes is the tile's. -/
theorem pay4_eq (a b : Vec Ideal S512x256 .bf16) (la : Vec Ideal S512x1 .i32) (lb : Vec Ideal S1x512 .i32) (y : S1x1.Idx) :
    k0_pay4 (F := Ideal) a b la lb y = Tile.pos a b la lb := by
  unfold Gen.k0_pay4 Tile.pos
  rw [spec_zero_add]
  refine (total_apply _ y).trans ?_
  refine Finset.sum_congr rfl fun r _ => Finset.sum_congr rfl fun s _ => ?_
  rw [select_apply, pay3_apply, mulf_apply, subf_apply, pay2_apply, broadcast_apply, broadcast_apply]
  by_cases h : la (ix2 r 0) = lb (ix2 0 s)
  · rw [cmpi_eq_of_eq h, select_one, if_pos h]; rfl
  · rw [cmpi_eq_of_ne h, select_zero, if_neg h]; rfl

/-- The unlike pairs' total the body computes is the tile's. -/
theorem pay5_eq (a b : Vec Ideal S512x256 .bf16) (la : Vec Ideal S512x1 .i32) (lb : Vec Ideal S1x512 .i32) (y : S1x1.Idx) :
    k0_pay5 (F := Ideal) a b la lb y = Tile.neg a b la lb := by
  unfold Gen.k0_pay5 Tile.neg
  rw [spec_zero_add]
  refine (total_apply _ y).trans ?_
  refine Finset.sum_congr rfl fun r _ => Finset.sum_congr rfl fun s _ => ?_
  rw [select_apply, pay3_apply, mulf_apply, maximumf_apply, subf_apply, pay2_apply, broadcast_apply, broadcast_apply]
  by_cases h : la (ix2 r 0) = lb (ix2 0 s)
  · rw [cmpi_eq_of_eq h, select_one, if_pos h]; rfl
  · rw [cmpi_eq_of_ne h, select_zero, if_neg h]; rfl

/-- The count of alike pairs the body computes is the tile's. -/
theorem pay7_eq (la : Vec Ideal S512x1 .i32) (lb : Vec Ideal S1x512 .i32) (y : S1x1.Idx) :
    k0_pay7 (F := Ideal) (k0_pay6 (F := Ideal) la lb) y = Tile.alike la lb := by
  unfold Gen.k0_pay7 Gen.k0_pay6 Tile.alike
  rw [spec_zero_add]
  refine (total_apply _ y).trans ?_
  refine Finset.sum_congr rfl fun r _ => Finset.sum_congr rfl fun s _ => ?_
  rw [sitofp_apply, extui_apply, pay3_apply]
  by_cases h : la (ix2 r 0) = lb (ix2 0 s)
  · rw [cmpi_eq_of_eq h, if_pos h]
    show (((((1#1 : BitVec 1).setWidth 32).toInt : ℝ)) : EReal) = ((1 : ℝ) : EReal)
    norm_num
  · rw [cmpi_eq_of_ne h, if_neg h]
    show (((((0#1 : BitVec 1).setWidth 32).toInt : ℝ)) : EReal) = ((0 : ℝ) : EReal)
    norm_num

end Cert.KernelIdeal.Body

end
-- ==== Proof.KPieces.lean ====
/-
  The accumulator's pieces after one run of the body, as lists over the tile's three totals. At a row's first point:
  the clearing store of the whole accumulator, then the four cell stores, each adding its total to what a load of the
  cell reads after the stores before it. At a later point: the four cell stores over the accumulator's old contents,
  each adding its total to what the cell held.
-/
import proofs.«109907_j78185584657073_1_alg».proof.Proof.KLeaves
import Idealize.ShloMosaic.Lib.ValueIdx
import Idealize.ShloMosaic.Lib.Pipeline.Value

set_option maxRecDepth 16384

noncomputable section

open scoped BigOperators

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A load of a whole two-axis buffer of a whole memref reads the contents it was given. -/
theorem load_whole {sp : Space} {n0 n1 : ℕ} {e : EltTy} (m : Memref sig .tc sp (⟨2, ![n0, n1]⟩ : Shape) e) (hm : m.IsWhole)
    (inb : ∀ a, (![0, 0] : Fin 2 → ℕ) a + (⟨2, ![n0, n1]⟩ : Shape).size a ≤ (⟨2, ![n0, n1]⟩ : Shape).size a)
    (x : (⟨2, ![n0, n1]⟩ : Shape).Idx → Elt F e) :
    View.readAt (Elt F) m.view (Rect.unit ![0, 0] (⟨2, ![n0, n1]⟩ : Shape).size inb).toLoadRect (hm.unread x) = x := by
  rw [View.readAt_eq_ld, hm.read_unread]
  exact View.ld_unit_zero (funext fun a => match a with | ⟨0, _⟩ => rfl | ⟨1, _⟩ => rfl) inb x

/-- The store that clears the accumulator. -/
def zeroP : View.Piece (Elt F) S8x128 .f32 := ⟨Rect.unit ![0, 0] S8x128.size inb_S8x128_S8x128_0_0, k0_pay1 (F := F)⟩

/-- The stores of the cells (0, 0) … (0, 3): what was loaded from the cell plus the total kept there. -/
def cellP0 (a0 : Vec F S1x1 .f32) (P4 : FVec F S1x1 .f32) : View.Piece (Elt F) S8x128 .f32 :=
  ⟨Rect.unit ![0, 0] S1x1.size inb_S8x128_S1x1_0_0, k0_pay8 P4 a0⟩
def cellP1 (a1 : Vec F S1x1 .f32) (P5 : FVec F S1x1 .f32) : View.Piece (Elt F) S8x128 .f32 :=
  ⟨Rect.unit ![0, 1] S1x1.size inb_S8x128_S1x1_0_1, k0_pay9 P5 a1⟩
def cellP2 (a2 : Vec F S1x1 .f32) (M : IVec S512x512 32) : View.Piece (Elt F) S8x128 .f32 :=
  ⟨Rect.unit ![0, 2] S1x1.size inb_S8x128_S1x1_0_2, k0_pay10 M a2⟩
def cellP3 (a3 : Vec F S1x1 .f32) (M : IVec S512x512 32) : View.Piece (Elt F) S8x128 .f32 :=
  ⟨Rect.unit ![0, 3] S1x1.size inb_S8x128_S1x1_0_3, k0_pay11 M a3⟩

/-- What a load of each cell reads at a row's first point: the stores before it, read through the view `v`. -/
def firstA0 (v : View sig .tc .vmem S8x128 .f32) : Vec F S1x1 .f32 :=
  v.readCov [zeroP (F := F)] (Rect.unit (s := S8x128) ![0, 0] S1x1.size inb_S8x128_S1x1_0_0).toLoadRect
def firstA1 (v : View sig .tc .vmem S8x128 .f32) (P4 : FVec F S1x1 .f32) : Vec F S1x1 .f32 :=
  v.readCov [cellP0 (firstA0 v) P4, zeroP] (Rect.unit (s := S8x128) ![0, 1] S1x1.size inb_S8x128_S1x1_0_1).toLoadRect
def firstA2 (v : View sig .tc .vmem S8x128 .f32) (P4 P5 : FVec F S1x1 .f32) : Vec F S1x1 .f32 :=
  v.readCov [cellP1 (firstA1 v P4) P5, cellP0 (firstA0 v) P4, zeroP] (Rect.unit (s := S8x128) ![0, 2] S1x1.size inb_S8x128_S1x1_0_2).toLoadRect
def firstA3 (v : View sig .tc .vmem S8x128 .f32) (P4 P5 : FVec F S1x1 .f32) (M : IVec S512x512 32) : Vec F S1x1 .f32 :=
  v.readCov [cellP2 (firstA2 v P4 P5) M, cellP1 (firstA1 v P4) P5, cellP0 (firstA0 v) P4, zeroP]
    (Rect.unit (s := S8x128) ![0, 3] S1x1.size inb_S8x128_S1x1_0_3).toLoadRect

/-- The accumulator's pieces after the body at a row's first point, newest first. -/
def firstPieces (v : View sig .tc .vmem S8x128 .f32) (P4 P5 : FVec F S1x1 .f32) (M : IVec S512x512 32) :
    List (View.Piece (Elt F) S8x128 .f32) :=
  [cellP3 (firstA3 v P4 P5 M) M, cellP2 (firstA2 v P4 P5) M, cellP1 (firstA1 v P4) P5, cellP0 (firstA0 v) P4, zeroP]

/-- The accumulator's pieces after the body at a later point, newest first, over the contents `fa`. -/
def nextPieces (v : View sig .tc .vmem S8x128 .f32) (fa : v.ty.Contents (Elt F)) (P4 P5 : FVec F S1x1 .f32) (M : IVec S512x512 32) :
    List (View.Piece (Elt F) S8x128 .f32) :=
  [cellP3 (View.readAt (Elt F) v (Rect.unit (s := S8x128) ![0, 3] S1x1.size inb_S8x128_S1x1_0_3).toLoadRect fa) M,
    cellP2 (View.readAt (Elt F) v (Rect.unit (s := S8x128) ![0, 2] S1x1.size inb_S8x128_S1x1_0_2).toLoadRect fa) M,
    cellP1 (View.readAt (Elt F) v (Rect.unit (s := S8x128) ![0, 1] S1x1.size inb_S8x128_S1x1_0_1).toLoadRect fa) P5,
    cellP0 (View.readAt (Elt F) v (Rect.unit (s := S8x128) ![0, 0] S1x1.size inb_S8x128_S1x1_0_0).toLoadRect fa) P4]

/-- The run at a row's first point wrote those pieces, with the totals of the loaded blocks. -/
theorem runFirst_acc (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (arg7 : Memref sig .tc .vmem S8x128 .f32) (harg7 : arg7.IsWhole) (hc : clears i) (x0 : Vec F S512x256 .bf16) (x1 : Vec F S512x256 .bf16) (x2 : Vec F S512x1 .i32) (x3 : Vec F S1x512 .i32) :
    (runFirst c i arg2 harg2 arg3 harg3 arg4 harg4 arg5 harg5 arg6 harg6 arg7 harg7 hc x0 x1 x2 x3).2.1
      = firstPieces arg7.view (k0_pay4 x0 x1 x2 x3) (k0_pay5 x0 x1 x2 x3) (k0_pay6 x2 x3) := by
  unfold runFirst; dsimp only
  sl_unfold_words
  rw [load_whole arg2 harg2, load_whole arg3 harg3, load_whole arg4 harg4, load_whole arg5 harg5]
  rfl

/-- The run at a later point wrote those pieces, with the totals of the loaded blocks. -/
theorem runNext_acc (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (arg7 : Memref sig .tc .vmem S8x128 .f32) (harg7 : arg7.IsWhole) (hc : ¬clears i) (x0 : Vec F S512x256 .bf16) (x1 : Vec F S512x256 .bf16) (x2 : Vec F S512x1 .i32) (x3 : Vec F S1x512 .i32) (xa : Vec F S8x128 .f32) :
    (runNext c i arg2 harg2 arg3 harg3 arg4 harg4 arg5 harg5 arg6 harg6 arg7 harg7 hc x0 x1 x2 x3 xa).2.1
      = nextPieces arg7.view (harg7.unread xa) (k0_pay4 x0 x1 x2 x3) (k0_pay5 x0 x1 x2 x3) (k0_pay6 x2 x3) := by
  unfold runNext; dsimp only
  sl_unfold_words
  rw [load_whole arg2 harg2, load_whole arg3 harg3, load_whole arg4 harg4, load_whole arg5 harg5]
  rfl

end Cert.KernelIdeal.Body

end
-- ==== Proof.KCells.lean ====
/-
  Reading a two-axis buffer after a list of stores, newest first, when the stores are single cells of row 0 or the
  whole buffer: a cell (0, c) stored last is read back at (0, c) and hides nothing else; a store of the whole buffer
  hides everything before it. Also the index a load of the single cell (0, c) reads.
-/
import Idealize.ShloMosaic.Lib.WritesUnit
import Idealize.ShloMosaic.Lib.ValueIdx
import Idealize.ShloMosaic.Lib.Pipeline.FrameBody

noncomputable section

namespace Cert.KernelIdeal.Body

open Idealize.ShloMosaic Idealize.ShloMosaic.ValueIdx

section Cells

variable {sig : RefSig} {κ : Kind} {sp : Space} {e : EltTy} {Val : EltTy → Type} {n0 n1 : ℕ}
variable (v : View sig κ sp (⟨2, ![n0, n1]⟩ : Shape) e) (f : v.ty.Contents Val)

/-- The cell (0, c) stored last: the index (r, k) reads the stored value when r = 0 and k = c, and otherwise what the
    earlier stores left. -/
theorem read_cons_cell (c : ℕ)
    (inb : ∀ a, (![0, c] : Fin 2 → ℕ) a + (![1, 1] : Fin 2 → ℕ) a ≤ (⟨2, ![n0, n1]⟩ : Shape).size a)
    (w : (Rect.unit (s := (⟨2, ![n0, n1]⟩ : Shape)) ![0, c] ![1, 1] inb).shape.Idx → Val e)
    (L : List (View.Piece Val (⟨2, ![n0, n1]⟩ : Shape) e)) (r : Fin n0) (k : Fin n1) :
    v.read Val (v.writes Val f ((⟨Rect.unit ![0, c] ![1, 1] inb, w⟩ : View.Piece Val (⟨2, ![n0, n1]⟩ : Shape) e) :: L)) (ix2 r k)
      = if r.val = 0 ∧ k.val = c then w (ix2 (0 : Fin 1) (0 : Fin 1)) else v.read Val (v.writes Val f L) (ix2 r k) := by
  by_cases h : r.val = 0 ∧ k.val = c
  · rw [if_pos h]
    refine View.read_writes_cons_unit_of_mem v f inb w L (ix2 r k) (ix2 (0 : Fin 1) (0 : Fin 1)) rfl fun a => ?_
    match a with
    | ⟨0, _⟩ => exact h.1
    | ⟨1, _⟩ => exact h.2.trans (Nat.add_zero c).symm
  · rw [if_neg h]
    by_cases h0 : r.val = 0
    · have hk : k.val ≠ c := fun hk => h ⟨h0, hk⟩
      refine View.read_writes_cons_unit_of_not_mem v f inb w L (ix2 r k) rfl (1 : Fin 2) ?_
      show k.val < c ∨ c + 1 ≤ k.val
      omega
    · refine View.read_writes_cons_unit_of_not_mem v f inb w L (ix2 r k) rfl (0 : Fin 2) ?_
      show r.val < 0 ∨ 0 + 1 ≤ r.val
      omega

/-- The whole buffer stored last: every index reads the stored value. -/
theorem read_cons_whole
    (inb : ∀ a, (![0, 0] : Fin 2 → ℕ) a + (⟨2, ![n0, n1]⟩ : Shape).size a ≤ (⟨2, ![n0, n1]⟩ : Shape).size a)
    (w : (Rect.unit (s := (⟨2, ![n0, n1]⟩ : Shape)) ![0, 0] (⟨2, ![n0, n1]⟩ : Shape).size inb).shape.Idx → Val e)
    (L : List (View.Piece Val (⟨2, ![n0, n1]⟩ : Shape) e)) (y : (⟨2, ![n0, n1]⟩ : Shape).Idx) :
    v.read Val (v.writes Val f ((⟨Rect.unit ![0, 0] (⟨2, ![n0, n1]⟩ : Shape).size inb, w⟩ : View.Piece Val (⟨2, ![n0, n1]⟩ : Shape) e) :: L)) y
      = w y := by
  refine View.read_writes_cons_unit_of_mem v f inb w L y y rfl fun a => ?_
  match a with
  | ⟨0, _⟩ => exact (Nat.zero_add _).symm
  | ⟨1, _⟩ => exact (Nat.zero_add _).symm

/-- The one index a load of the single cell (0, c) reads. -/
theorem cell_idx (c : ℕ)
    (inb : ∀ a, (![0, c] : Fin 2 → ℕ) a + (![1, 1] : Fin 2 → ℕ) a ≤ (⟨2, ![n0, n1]⟩ : Shape).size a)
    (y : (Rect.unit (s := (⟨2, ![n0, n1]⟩ : Shape)) ![0, c] ![1, 1] inb).toLoadRect.shape.Idx)
    (r0 : Fin n0) (kc : Fin n1) (hr : r0.val = 0) (hk : kc.val = c) :
    (Rect.unit (s := (⟨2, ![n0, n1]⟩ : Shape)) ![0, c] ![1, 1] inb).toLoadRect.idx y = ix2 r0 kc := by
  funext a
  refine Fin.ext ?_
  match a with
  | ⟨0, h0⟩ =>
    have hy : (y ⟨0, h0⟩).val < 1 := (y ⟨0, h0⟩).isLt
    show 0 + 1 * (y ⟨0, h0⟩).val = r0.val
    omega
  | ⟨1, h1⟩ =>
    have hy : (y ⟨1, h1⟩).val < 1 := (y ⟨1, h1⟩).isLt
    show c + 1 * (y ⟨1, h1⟩).val = kc.val
    omega

end Cells

end Cert.KernelIdeal.Body

end
-- ==== Proof.KAccCells.lean ====
/-
  The four stores into row 0 of the accumulator, newest first, read back. Cell (0, 0) holds what was loaded from it
  plus the alike pairs' total, cell (0, 1) what was loaded plus the unlike pairs' total, cell (0, 2) what was loaded
  plus the count of alike pairs, cell (0, 3) what was loaded plus the tile's pairs less that count; every other cell
  holds what the stores before these four left.
-/
import proofs.«109907_j78185584657073_1_alg».proof.Proof.KCells
import proofs.«109907_j78185584657073_1_alg».proof.Proof.KTotals

noncomputable section

open scoped BigOperators

namespace Cert.KernelIdeal.Body

open Cert.KernelIdeal Cert.KernelIdeal.Gen
open Idealize.ShloMosaic Idealize.ShloMosaic.ValueIdx

/-- A store of one cell's sum, at the cell's one index: the loaded value plus the total. -/
theorem pay8_apply (P : FVec Ideal S1x1 .f32) (x : Vec Ideal S1x1 .f32) (y : S1x1.Idx) :
    k0_pay8 (F := Ideal) P x y = x y + P y := by
  unfold Gen.k0_pay8
  rw [shapeCast_self]; rfl

/-- The same for the second cell, -/
theorem pay9_apply (P : FVec Ideal S1x1 .f32) (x : Vec Ideal S1x1 .f32) (y : S1x1.Idx) :
    k0_pay9 (F := Ideal) P x y = x y + P y := by
  unfold Gen.k0_pay9
  rw [shapeCast_self]; rfl

/-- the third, whose total is the count of alike pairs, -/
theorem pay10_apply (M : IVec S512x512 32) (x : Vec Ideal S1x1 .f32) (y : S1x1.Idx) :
    k0_pay10 (F := Ideal) M x y = x y + k0_pay7 (F := Ideal) M y := by
  unfold Gen.k0_pay10
  rw [shapeCast_self]
  generalize k0_pay7 (F := Ideal) M = K
  rfl

/-- and the fourth, whose total is the tile's pairs less that count. -/
theorem pay11_apply (M : IVec S512x512 32) (x : Vec Ideal S1x1 .f32) (y : S1x1.Idx) :
    k0_pay11 (F := Ideal) M x y = x y + (Cert.Spec.tilePairs - k0_pay7 (F := Ideal) M y) := by
  unfold Gen.k0_pay11
  rw [shapeCast_self]
  generalize k0_pay7 (F := Ideal) M = K
  rw [addf_apply, subf_apply, broadcast_apply]
  rfl

section Cells

variable {sig' : RefSig} {κ : Kind} {sp : Space}
variable (v : View sig' κ sp S8x128 .f32) (f : v.ty.Contents (Elt Ideal))

/-- The four cell stores, newest first, over earlier stores `L`, read at (r, k). -/
theorem read_cells (a0 a1 a2 a3 : Vec Ideal S1x1 .f32) (P4 P5 : FVec Ideal S1x1 .f32) (M : IVec S512x512 32)
    (L : List (View.Piece (Elt Ideal) S8x128 .f32)) (r : Fin 8) (k : Fin 128) :
    v.read (Elt Ideal) (v.writes (Elt Ideal) f
        ((⟨Rect.unit ![0, 3] S1x1.size inb_S8x128_S1x1_0_3, k0_pay11 (F := Ideal) M a3⟩ : View.Piece (Elt Ideal) S8x128 .f32)
          :: ⟨Rect.unit ![0, 2] S1x1.size inb_S8x128_S1x1_0_2, k0_pay10 (F := Ideal) M a2⟩
          :: ⟨Rect.unit ![0, 1] S1x1.size inb_S8x128_S1x1_0_1, k0_pay9 (F := Ideal) P5 a1⟩
          :: ⟨Rect.unit ![0, 0] S1x1.size inb_S8x128_S1x1_0_0, k0_pay8 (F := Ideal) P4 a0⟩ :: L)) (ix2 r k)
      = if r.val = 0 ∧ k.val = 0 then a0 (ix2 0 0) + P4 (ix2 0 0)
        else if r.val = 0 ∧ k.val = 1 then a1 (ix2 0 0) + P5 (ix2 0 0)
        else if r.val = 0 ∧ k.val = 2 then a2 (ix2 0 0) + k0_pay7 (F := Ideal) M (ix2 0 0)
        else if r.val = 0 ∧ k.val = 3 then a3 (ix2 0 0) + (Cert.Spec.tilePairs - k0_pay7 (F := Ideal) M (ix2 0 0))
        else v.read (Elt Ideal) (v.writes (Elt Ideal) f L) (ix2 r k) := by
  refine (read_cons_cell v f 3 inb_S8x128_S1x1_0_3 _ _ r k).trans ?_
  by_cases h3 : r.val = 0 ∧ k.val = 3
  · rw [if_pos h3, if_neg (by omega), if_neg (by omega), if_neg (by omega), if_pos h3]
    exact pay11_apply M a3 _
  rw [if_neg h3]
  refine (read_cons_cell v f 2 inb_S8x128_S1x1_0_2 _ _ r k).trans ?_
  by_cases h2 : r.val = 0 ∧ k.val = 2
  · rw [if_pos h2, if_neg (by omega), if_neg (by omega), if_pos h2]
    exact pay10_apply M a2 _
  rw [if_neg h2]
  refine (read_cons_cell v f 1 inb_S8x128_S1x1_0_1 _ _ r k).trans ?_
  by_cases h1 : r.val = 0 ∧ k.val = 1
  · rw [if_pos h1, if_neg (by omega), if_pos h1]
    exact pay9_apply P5 a1 _
  rw [if_neg h1]
  refine (read_cons_cell v f 0 inb_S8x128_S1x1_0_0 _ _ r k).trans ?_
  by_cases h0 : r.val = 0 ∧ k.val = 0
  · rw [if_pos h0, if_pos h0]
    exact pay8_apply P4 a0 _
  rw [if_neg h0, if_neg h0, if_neg h1, if_neg h2, if_neg h3]

end Cells

end Cert.KernelIdeal.Body

end
-- ==== Proof.KAccValue.lean ====
/-
  What one run of the body leaves in the accumulator, cell by cell. After a row's first point the four leading cells
  of row 0 hold nought plus the tile's totals — the alike pairs' total, the unlike pairs' total, the count of alike
  pairs, and the tile's 262144 pairs less that count — and every other cell nought. After a later point those four
  cells are increased by the same totals and every other cell is as it was.
-/
import proofs.«109907_j78185584657073_1_alg».proof.Proof.KPieces
import proofs.«109907_j78185584657073_1_alg».proof.Proof.KAccCells

set_option maxRecDepth 16384

noncomputable section

open scoped BigOperators

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The clearing value is the zero word everywhere. -/
theorem pay1_apply (y : S8x128.Idx) : k0_pay1 (F := Ideal) y = Cert.Spec.zero := by
  unfold Gen.k0_pay1
  rw [shapeCast_self]; rfl

section Read

variable {sig' : RefSig} {κ : Kind} {sp : Space}
variable (v' : View sig' κ sp S8x128 .f32) (f : v'.ty.Contents (Elt Ideal)) (v : View sig .tc .vmem S8x128 .f32)

/-- After the clearing store every cell reads the zero word. -/
theorem read_zeroP (L : List (View.Piece (Elt Ideal) S8x128 .f32)) (y : S8x128.Idx) :
    v'.read (Elt Ideal) (v'.writes (Elt Ideal) f (zeroP (F := Ideal) :: L)) y = Cert.Spec.zero :=
  (read_cons_whole v' f inb_S8x128_S8x128_0_0 _ L y).trans (pay1_apply y)

/-- A load of the cell (0, c) after stores `L` reads what they left at (0, c). -/
theorem readCov_at (c : ℕ) (inb : ∀ a, (![0, c] : Fin 2 → ℕ) a + S1x1.size a ≤ S8x128.size a)
    (L : List (View.Piece (Elt Ideal) S8x128 .f32)) (y : S1x1.Idx) (kc : Fin 128) (hk : kc.val = c) :
    v'.readCov L (Rect.unit (s := S8x128) ![0, c] S1x1.size inb).toLoadRect y
      = v'.read (Elt Ideal) (v'.writes (Elt Ideal) v'.junk L) (ix2 (0 : Fin 8) kc) :=
  congrArg (v'.read (Elt Ideal) (v'.writes (Elt Ideal) v'.junk L)) (cell_idx c inb y (0 : Fin 8) kc rfl hk)

/-- A load of the cell (0, c) from contents `fa` reads them at (0, c), named here by any (r, k) with r = 0 and k = c. -/
theorem readAt_cell (c : ℕ) (inb : ∀ a, (![0, c] : Fin 2 → ℕ) a + S1x1.size a ≤ S8x128.size a)
    (fa : v'.ty.Contents (Elt Ideal)) (y : S1x1.Idx) (r : Fin 8) (k : Fin 128) (hr : r.val = 0) (hk : k.val = c) :
    View.readAt (Elt Ideal) v' (Rect.unit (s := S8x128) ![0, c] S1x1.size inb).toLoadRect fa y = v'.read (Elt Ideal) fa (ix2 r k) :=
  congrArg (v'.read (Elt Ideal) fa) (cell_idx c inb y r k hr hk)

/-- At a row's first point each cell's load reads the zero word: the cell stores before it miss the cell, the clearing
    store covers it. -/
theorem firstA0_apply (y : S1x1.Idx) : firstA0 (F := Ideal) v y = Cert.Spec.zero := by
  unfold firstA0
  exact read_zeroP v v.junk [] _

theorem firstA1_apply (P4 : FVec Ideal S1x1 .f32) (y : S1x1.Idx) : firstA1 (F := Ideal) v P4 y = Cert.Spec.zero := by
  unfold firstA1 cellP0
  refine (readCov_at v 1 inb_S8x128_S1x1_0_1 _ y (1 : Fin 128) rfl).trans ?_
  refine (read_cons_cell v v.junk 0 inb_S8x128_S1x1_0_0 _ _ 0 1).trans ?_
  rw [if_neg (by decide)]
  exact read_zeroP v v.junk [] _

theorem firstA2_apply (P4 P5 : FVec Ideal S1x1 .f32) (y : S1x1.Idx) : firstA2 (F := Ideal) v P4 P5 y = Cert.Spec.zero := by
  unfold firstA2 cellP1 cellP0
  refine (readCov_at v 2 inb_S8x128_S1x1_0_2 _ y (2 : Fin 128) rfl).trans ?_
  refine (read_cons_cell v v.junk 1 inb_S8x128_S1x1_0_1 _ _ 0 2).trans ?_
  rw [if_neg (by decide)]
  refine (read_cons_cell v v.junk 0 inb_S8x128_S1x1_0_0 _ _ 0 2).trans ?_
  rw [if_neg (by decide)]
  exact read_zeroP v v.junk [] _

theorem firstA3_apply (P4 P5 : FVec Ideal S1x1 .f32) (M : IVec S512x512 32) (y : S1x1.Idx) :
    firstA3 (F := Ideal) v P4 P5 M y = Cert.Spec.zero := by
  unfold firstA3 cellP2 cellP1 cellP0
  refine (readCov_at v 3 inb_S8x128_S1x1_0_3 _ y (3 : Fin 128) rfl).trans ?_
  refine (read_cons_cell v v.junk 2 inb_S8x128_S1x1_0_2 _ _ 0 3).trans ?_
  rw [if_neg (by decide)]
  refine (read_cons_cell v v.junk 1 inb_S8x128_S1x1_0_1 _ _ 0 3).trans ?_
  rw [if_neg (by decide)]
  refine (read_cons_cell v v.junk 0 inb_S8x128_S1x1_0_0 _ _ 0 3).trans ?_
  rw [if_neg (by decide)]
  exact read_zeroP v v.junk [] _

/-- The pieces of a row's first point read at (r, k). -/
theorem read_firstPieces (P4 P5 : FVec Ideal S1x1 .f32) (M : IVec S512x512 32) (r : Fin 8) (k : Fin 128) :
    v'.read (Elt Ideal) (v'.writes (Elt Ideal) f (firstPieces (F := Ideal) v P4 P5 M)) (ix2 r k)
      = if r.val = 0 ∧ k.val = 0 then Cert.Spec.zero + P4 (ix2 0 0)
        else if r.val = 0 ∧ k.val = 1 then Cert.Spec.zero + P5 (ix2 0 0)
        else if r.val = 0 ∧ k.val = 2 then Cert.Spec.zero + k0_pay7 (F := Ideal) M (ix2 0 0)
        else if r.val = 0 ∧ k.val = 3 then Cert.Spec.zero + (Cert.Spec.tilePairs - k0_pay7 (F := Ideal) M (ix2 0 0))
        else Cert.Spec.zero := by
  unfold firstPieces cellP3 cellP2 cellP1 cellP0
  refine (read_cells v' f _ _ _ _ P4 P5 M _ r k).trans ?_
  rw [firstA0_apply, firstA1_apply, firstA2_apply, firstA3_apply, read_zeroP]

/-- The pieces of a later point read at (r, k), over the contents `fa`. -/
theorem read_nextPieces (fa : v.ty.Contents (Elt Ideal)) (P4 P5 : FVec Ideal S1x1 .f32) (M : IVec S512x512 32) (r : Fin 8) (k : Fin 128) :
    v'.read (Elt Ideal) (v'.writes (Elt Ideal) f (nextPieces (F := Ideal) v fa P4 P5 M)) (ix2 r k)
      = if r.val = 0 ∧ k.val = 0 then v.read (Elt Ideal) fa (ix2 r k) + P4 (ix2 0 0)
        else if r.val = 0 ∧ k.val = 1 then v.read (Elt Ideal) fa (ix2 r k) + P5 (ix2 0 0)
        else if r.val = 0 ∧ k.val = 2 then v.read (Elt Ideal) fa (ix2 r k) + k0_pay7 (F := Ideal) M (ix2 0 0)
        else if r.val = 0 ∧ k.val = 3 then v.read (Elt Ideal) fa (ix2 r k) + (Cert.Spec.tilePairs - k0_pay7 (F := Ideal) M (ix2 0 0))
        else v'.read (Elt Ideal) f (ix2 r k) := by
  unfold nextPieces cellP3 cellP2 cellP1 cellP0
  refine (read_cells v' f _ _ _ _ P4 P5 M [] r k).trans ?_
  by_cases h0 : r.val = 0 ∧ k.val = 0
  · rw [if_pos h0, if_pos h0, readAt_cell v 0 inb_S8x128_S1x1_0_0 fa _ r k h0.1 h0.2]
  rw [if_neg h0, if_neg h0]
  by_cases h1 : r.val = 0 ∧ k.val = 1
  · rw [if_pos h1, if_pos h1, readAt_cell v 1 inb_S8x128_S1x1_0_1 fa _ r k h1.1 h1.2]
  rw [if_neg h1, if_neg h1]
  by_cases h2 : r.val = 0 ∧ k.val = 2
  · rw [if_pos h2, if_pos h2, readAt_cell v 2 inb_S8x128_S1x1_0_2 fa _ r k h2.1 h2.2]
  rw [if_neg h2, if_neg h2]
  by_cases h3 : r.val = 0 ∧ k.val = 3
  · rw [if_pos h3, if_pos h3, readAt_cell v 3 inb_S8x128_S1x1_0_3 fa _ r k h3.1 h3.2]
  rw [if_neg h3, if_neg h3]
  rfl

end Read

/-- The accumulator after a row's first point: its four leading cells of row 0 hold nought plus the tile's totals,
    every other cell nought. -/
theorem accFirst_apply (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (arg7 : Memref sig .tc .vmem S8x128 .f32) (harg7 : arg7.IsWhole) (hc : clears i)
    (x0 : Vec Ideal S512x256 .bf16) (x1 : Vec Ideal S512x256 .bf16) (x2 : Vec Ideal S512x1 .i32) (x3 : Vec Ideal S1x512 .i32)
    (r : Fin 8) (k : Fin 128) :
    accFirst (F := Ideal) c i arg2 harg2 arg3 harg3 arg4 harg4 arg5 harg5 arg6 harg6 arg7 harg7 hc x0 x1 x2 x3 (ix2 r k)
      = if r.val = 0 ∧ k.val = 0 then Cert.Spec.zero + Tile.pos x0 x1 x2 x3
        else if r.val = 0 ∧ k.val = 1 then Cert.Spec.zero + Tile.neg x0 x1 x2 x3
        else if r.val = 0 ∧ k.val = 2 then Cert.Spec.zero + Tile.alike x2 x3
        else if r.val = 0 ∧ k.val = 3 then Cert.Spec.zero + (Cert.Spec.tilePairs - Tile.alike x2 x3)
        else Cert.Spec.zero := by
  unfold accFirst
  rw [runFirst_acc]
  refine (read_firstPieces accV accV.junk arg7.view _ _ _ r k).trans ?_
  rw [pay4_eq, pay5_eq, pay7_eq]

/-- The accumulator after a later point: those four cells increased by the tile's totals, every other cell as it was. -/
theorem accNext_apply (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (hc : ¬clears i)
    (x0 : Vec Ideal S512x256 .bf16) (x1 : Vec Ideal S512x256 .bf16) (x2 : Vec Ideal S512x1 .i32) (x3 : Vec Ideal S1x512 .i32)
    (xa : Vec Ideal S8x128 .f32) (r : Fin 8) (k : Fin 128) :
    accNext (F := Ideal) c i arg2 harg2 arg3 harg3 arg4 harg4 arg5 harg5 arg6 harg6 hc x0 x1 x2 x3 xa (ix2 r k)
      = if r.val = 0 ∧ k.val = 0 then xa (ix2 r k) + Tile.pos x0 x1 x2 x3
        else if r.val = 0 ∧ k.val = 1 then xa (ix2 r k) + Tile.neg x0 x1 x2 x3
        else if r.val = 0 ∧ k.val = 2 then xa (ix2 r k) + Tile.alike x2 x3
        else if r.val = 0 ∧ k.val = 3 then xa (ix2 r k) + (Cert.Spec.tilePairs - Tile.alike x2 x3)
        else xa (ix2 r k) := by
  unfold accNext
  rw [runNext_acc]
  refine (read_nextPieces accV _ accM.view _ _ _ _ r k).trans ?_
  rw [pay4_eq, pay5_eq, pay7_eq, (Memref.isWhole_whole cc0_scratch0).read_unread xa]

end Cert.KernelIdeal.Body

end
-- ==== Proof.KOutValue.lean ====
/-
  The output block after one run of the body is the accumulator after it: the body's last step loads the whole
  accumulator, views the 8 × 128 vector as 1 × 8 × 128 and stores it over the whole output block, so the block's
  element (0, r, k) is the accumulator's element (r, k).
-/
import proofs.«109907_j78185584657073_1_alg».proof.Proof.KLeaves
import Idealize.ShloMosaic.Lib.ValueIdx
import Idealize.ShloMosaic.Lib.Pipeline.Value
import Idealize.ShloMosaic.Lib.WritesUnit

set_option maxRecDepth 16384

noncomputable section

open scoped BigOperators

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The whole three-axis block stored last: every index reads the stored value. -/
theorem read_cons_whole3 {sig' : RefSig} {κ : Kind} {sp : Space} {e : EltTy} {Val : EltTy → Type} {n0 n1 n2 : ℕ}
    (v : View sig' κ sp (⟨3, ![n0, n1, n2]⟩ : Shape) e) (f : v.ty.Contents Val)
    (inb : ∀ a, (![0, 0, 0] : Fin 3 → ℕ) a + (![n0, n1, n2] : Fin 3 → ℕ) a ≤ (⟨3, ![n0, n1, n2]⟩ : Shape).size a)
    (w : (Rect.unit (s := (⟨3, ![n0, n1, n2]⟩ : Shape)) ![0, 0, 0] ![n0, n1, n2] inb).shape.Idx → Val e)
    (L : List (View.Piece Val (⟨3, ![n0, n1, n2]⟩ : Shape) e)) (y : (⟨3, ![n0, n1, n2]⟩ : Shape).Idx) :
    v.read Val (v.writes Val f ((⟨Rect.unit ![0, 0, 0] ![n0, n1, n2] inb, w⟩ : View.Piece Val (⟨3, ![n0, n1, n2]⟩ : Shape) e) :: L)) y
      = w y := by
  refine View.read_writes_cons_unit_of_mem v f inb w L y y rfl fun a => ?_
  match a with
  | ⟨0, _⟩ => exact (Nat.zero_add _).symm
  | ⟨1, _⟩ => exact (Nat.zero_add _).symm
  | ⟨2, _⟩ => exact (Nat.zero_add _).symm

/-- The index a load of the whole accumulator reads at (r, k), named from the block index (0, r, k). -/
theorem whole_idx (r : Fin 8) (k : Fin 128) :
    (Rect.unit (s := S8x128) ![0, 0] S8x128.size inb_S8x128_S8x128_0_0).toLoadRect.idx
        (fun a : Fin 2 => (ix3 (0 : Fin 1) r k) a.succ) = ix2 r k := by
  funext a
  refine Fin.ext ?_
  match a with
  | ⟨0, _⟩ => show 0 + 1 * r.val = r.val; omega
  | ⟨1, _⟩ => show 0 + 1 * k.val = k.val; omega

/-- The stored block at (0, r, k) is the loaded accumulator at (r, k). -/
theorem pay12_apply {F : FTy → Type} [FloatOps F] (x : Vec F S8x128 .f32) (r : Fin 8) (k : Fin 128) :
    k0_pay12 (F := F) x (ix3 (0 : Fin 1) r k) = x (fun a : Fin 2 => (ix3 (0 : Fin 1) r k) a.succ) := by
  unfold Gen.k0_pay12
  exact shapeCast_addUnit_apply ![8, 128] x shapeCasts_S8x128_S1x8x128 (ix3 (0 : Fin 1) r k)

/-- The output block after a row's first point is the accumulator after it. -/
theorem outFirst_apply (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (arg7 : Memref sig .tc .vmem S8x128 .f32) (harg7 : arg7.IsWhole) (hc : clears i)
    (x0 : Vec Ideal S512x256 .bf16) (x1 : Vec Ideal S512x256 .bf16) (x2 : Vec Ideal S512x1 .i32) (x3 : Vec Ideal S1x512 .i32)
    (r : Fin 8) (k : Fin 128) :
    outFirst (F := Ideal) c i arg2 harg2 arg3 harg3 arg4 harg4 arg5 harg5 arg6 harg6 arg7 harg7 hc x0 x1 x2 x3 (ix3 (0 : Fin 1) r k)
      = accFirst (F := Ideal) c i arg2 harg2 arg3 harg3 arg4 harg4 arg5 harg5 arg6 harg6 arg7 harg7 hc x0 x1 x2 x3 (ix2 r k) := by
  unfold outFirst accFirst runFirst; dsimp only
  refine (read_cons_whole3 outV outV.junk inb_S1x8x128_S1x8x128_0_0_0 _ [] (ix3 (0 : Fin 1) r k)).trans ?_
  refine (pay12_apply _ r k).trans ?_
  unfold runFirst.sl.v67
  rw [View.readCov_eq_canon', View.read_writes_junk_apply_eq_canon]
  exact congrArg _ (whole_idx r k)

/-- The output block after a later point is the accumulator after it. -/
theorem outNext_apply (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (hc : ¬clears i)
    (x0 : Vec Ideal S512x256 .bf16) (x1 : Vec Ideal S512x256 .bf16) (x2 : Vec Ideal S512x1 .i32) (x3 : Vec Ideal S1x512 .i32)
    (xa : Vec Ideal S8x128 .f32) (r : Fin 8) (k : Fin 128) :
    outNext (F := Ideal) c i arg2 harg2 arg3 harg3 arg4 harg4 arg5 harg5 arg6 harg6 hc x0 x1 x2 x3 xa (ix3 (0 : Fin 1) r k)
      = accNext (F := Ideal) c i arg2 harg2 arg3 harg3 arg4 harg4 arg5 harg5 arg6 harg6 hc x0 x1 x2 x3 xa (ix2 r k) := by
  unfold outNext accNext runNext; dsimp only
  refine (read_cons_whole3 outV outV.junk inb_S1x8x128_S1x8x128_0_0_0 _ [] (ix3 (0 : Fin 1) r k)).trans ?_
  refine (pay12_apply _ r k).trans ?_
  unfold runNext.sl.v67
  exact congrArg _ (whole_idx r k)

end Cert.KernelIdeal.Body

end
-- ==== Proof.KValue.lean ====
/-
  The values of one run of the body, gathered. The three totals the body computes are the tile's totals
  (`pay4_eq`, `pay5_eq`, `pay7_eq`); the accumulator after a row's first point holds nought plus those totals in its four
  leading cells of row 0 and nought elsewhere (`accFirst_apply`), after a later point those four cells are increased by
  the totals and the others kept (`accNext_apply`); the output block is the accumulator (`outFirst_apply`,
  `outNext_apply`).
-/
import proofs.«109907_j78185584657073_1_alg».proof.Proof.KTotals
import proofs.«109907_j78185584657073_1_alg».proof.Proof.KAccValue
import proofs.«109907_j78185584657073_1_alg».proof.Proof.KOutValue
-- ==== Proof.KEntryLayout.lean ====
/-
  The layout and row-sum operations before the kernel region, read at an index built from its coordinates: a
  column, a row and a block of columns broadcast from a smaller array read the smaller array at the matching
  coordinates, and the sum over the second axis of an 8192 × 256 array, started from an initial value, is that
  value plus the sum of the row's 256 entries.
-/
import proofs.«109907_j78185584657073_1_alg».proof.Proof.Gen.KernelIdeal
import Idealize.ShloMosaic.Lib.Pipeline.Value
import Idealize.ShloMosaic.Lib.IdealHost

noncomputable section

open scoped BigOperators

namespace Cert.KernelIdeal.Host

open Cert.KernelIdeal Cert.KernelIdeal.Gen Idealize.ShloMosaic.ValueIdx
open Idealize.ShloMosaic Idealize.ShloMosaic.TcCoe Idealize.SL.Sem

variable {α : Type}

/-- An array of 8192 entries laid out as a column reads entry `p` in row `p`. -/
theorem column_apply (y : S8192.Idx → α) (p : Fin 8192) :
    broadcastInDim S8192x1 ![0] bcast_S8192_S8192x1_0 y (ix2 p (0 : Fin 1)) = y (ix1 p) :=
  broadcastInDim_apply _ bcast_S8192_S8192x1_0 y (ix2 p (0 : Fin 1)) (ix1 p) (fun a => match a with
    | ⟨0, _⟩ => by show p.val = if (8192 : Nat) = 1 then 0 else p.val; rw [if_neg (by decide)])

/-- An array of 8192 entries laid out as a row reads entry `p` in column `p`. -/
theorem row_apply (y : S8192.Idx → α) (p : Fin 8192) :
    broadcastInDim S1x8192 ![1] bcast_S8192_S1x8192_1 y (ix2 (0 : Fin 1) p) = y (ix1 p) :=
  broadcastInDim_apply _ bcast_S8192_S1x8192_1 y (ix2 (0 : Fin 1) p) (ix1 p) (fun a => match a with
    | ⟨0, _⟩ => by show p.val = if (8192 : Nat) = 1 then 0 else p.val; rw [if_neg (by decide)])

/-- A column repeated along 256 columns reads the column's entry of the same row. -/
theorem columns_apply (y : S8192x1.Idx → α) (p : Fin 8192) (k : Fin 256) :
    broadcastInDim S8192x256 ![0, 1] bcast_S8192x1_S8192x256_0_1 y (ix2 p k) = y (ix2 p (0 : Fin 1)) :=
  broadcastInDim_apply _ bcast_S8192x1_S8192x256_0_1 y (ix2 p k) (ix2 p (0 : Fin 1)) (fun a => match a with
    | ⟨0, _⟩ => by show p.val = if (8192 : Nat) = 1 then 0 else p.val; rw [if_neg (by decide)]
    | ⟨1, _⟩ => by show 0 = if (1 : Nat) = 1 then 0 else k.val; rw [if_pos rfl])

/-- The sum over the second axis, at row `p`: the initial value plus the sum of the row's entries. -/
theorem rowSum_apply (y : FVec Ideal S8192x256 .f32) (init : S_.Idx → Ideal .f32) (p : Fin 8192) :
    Host.reduceAdd (F := Ideal) y init reducesTo_S8192x256_S8192_d1 h_S_ (ix1 p)
      = init (Shape.Idx.first h_S_) + ∑ k : Fin 256, y (ix2 p k) := by
  rw [hostReduceAdd_apply, Ideal.hostReduceAdd_single reducesTo_S8192x256_S8192_d1 (by decide)]
  refine congrArg (_ + ·) (Finset.sum_congr rfl fun k _ => ?_)
  exact congrArg y (funext fun a => Fin.ext (by match a with | ⟨0, _⟩ => rfl | ⟨1, _⟩ => rfl))

end Cert.KernelIdeal.Host

end
-- ==== Proof.KEntryArrays.lean ====
/-
  What the kernel region finds in its three input arrays, at an index, from the program's two arguments. The ten
  operations before the region scale each row `p` of the first argument `x` by the root of its sum of squares, the
  sum started from the zero word: entry `(p, k)` is `x p k / sqrt (0 + ∑ k', x p k' · x p k')` (the narrowing to the
  16-bit format is the identity on extended reals); and they lay the label array out once as a column and once as
  a row.
-/
import proofs.«109907_j78185584657073_1_alg».proof.Proof.KEntry
import proofs.«109907_j78185584657073_1_alg».proof.Proof.KEntryLayout
import proofs.«109907_j78185584657073_1_alg».proof.Proof.Spec

noncomputable section

open scoped BigOperators

namespace Cert.KernelIdeal.Host

open Cert.KernelIdeal Cert.KernelIdeal.Gen Cert.KernelIdeal.Launch Idealize.ShloMosaic.ValueIdx
open Idealize.ShloMosaic Idealize.ShloMosaic.TcCoe Idealize.SL.Sem

/-- The operations' term for the scaled rows, as a function of the argument array. -/
def scaled (x : (⟨S8192x256, .f32⟩ : BufTy).Contents (Elt Ideal)) : (⟨S8192x256, .bf16⟩ : BufTy).Contents (Elt Ideal) :=
  truncf .bf16
    (Host.divf (F := Ideal) x
      (broadcastInDim S8192x256 ![0, 1] bcast_S8192x1_S8192x256_0_1
        (Host.sqrt (F := Ideal)
          (broadcastInDim S8192x1 ![0] bcast_S8192_S8192x1_0
            (Host.reduceAdd (F := Ideal) (mulf (F := Ideal) x x) (constant (F := Ideal) S_ .f32 0x00000000#32)
              reducesTo_S8192x256_S8192_d1 h_S_)))))
    bitsLt_bf16_f32

/-- Entry `(p, k)` of the scaled rows is the argument's entry over the root of its row's sum of squares. -/
theorem scaled_apply (x : (⟨S8192x256, .f32⟩ : BufTy).Contents (Elt Ideal)) (p : Fin 8192) (k : Fin 256) :
    (scaled x : S8192x256.Idx → EReal) (ix2 p k) = Cert.Spec.unit (fun p k => (x : S8192x256.Idx → EReal) (ix2 p k)) p k := by
  unfold scaled Cert.Spec.unit Cert.Spec.zero
  rw [truncf_apply, hostDivf_apply]
  refine congrArg (Ideal.div _) ?_
  rw [columns_apply]
  show Ideal.sqrt _ = _
  refine congrArg Ideal.sqrt ?_
  rw [column_apply, rowSum_apply]
  rfl

variable (m : (ℓ : Loc nD τ sig) → Buf (Elt Ideal) ℓ) (c : Dev nD)

/-- The region's first array is the scaled rows of the first argument. -/
theorem V_v6_eq : (V (F := Ideal) m c main_v6 : S8192x256.Idx → EReal)
    = scaled (m ((c : Thread nD τ).loc main_arg0)) := by
  show StableHlo.after hostOps0 (fun b => m (c, b)) (Proc.devRef .tc main_v6) = _
  after_results
  rfl

/-- The scaled rows at an index. -/
theorem V_v6 (p : Fin 8192) (k : Fin 256) :
    (V (F := Ideal) m c main_v6 : S8192x256.Idx → EReal) (ix2 p k)
      = Cert.Spec.unit (fun p k => (m ((c : Thread nD τ).loc main_arg0) : S8192x256.Idx → EReal) (ix2 p k)) p k := by
  rw [V_v6_eq]
  exact scaled_apply _ p k

/-- The label column holds label `p` in row `p`. -/
theorem V_v7 (p : Fin 8192) :
    (V (F := Ideal) m c main_v7 : S8192x1.Idx → BitVec 32) (ix2 p (0 : Fin 1))
      = (m ((c : Thread nD τ).loc main_arg1) : S8192.Idx → BitVec 32) (ix1 p) := by
  have e : (V (F := Ideal) m c main_v7 : S8192x1.Idx → BitVec 32)
      = broadcastInDim S8192x1 ![0] bcast_S8192_S8192x1_0 (m ((c : Thread nD τ).loc main_arg1) : S8192.Idx → BitVec 32) := by
    show StableHlo.after hostOps0 (fun b => m (c, b)) (Proc.devRef .tc main_v7) = _
    after_results
  rw [e]
  exact column_apply _ p

/-- The label row holds label `p` in column `p`. -/
theorem V_v8 (p : Fin 8192) :
    (V (F := Ideal) m c main_v8 : S1x8192.Idx → BitVec 32) (ix2 (0 : Fin 1) p)
      = (m ((c : Thread nD τ).loc main_arg1) : S8192.Idx → BitVec 32) (ix1 p) := by
  have e : (V (F := Ideal) m c main_v8 : S1x8192.Idx → BitVec 32)
      = broadcastInDim S1x8192 ![1] bcast_S8192_S1x8192_1 (m ((c : Thread nD τ).loc main_arg1) : S8192.Idx → BitVec 32) := by
    show StableHlo.after hostOps0 (fun b => m (c, b)) (Proc.devRef .tc main_v8) = _
    after_results
  rw [e]
  exact row_apply _ p

end Cert.KernelIdeal.Host

end
-- ==== Proof.KEntryBlocks.lean ====
/-
  A window's block at a grid point is the window's array read at the block's rows. Point `t` of the 16 × 16 grid has
  coordinates `(t / 16, t % 16)`. The two windows onto the scaled rows take 512 rows each, at block row `t / 16` and
  at block row `t % 16`; the label column's window takes the 512 labels at block row `t / 16`, the label row's window
  the 512 labels at block column `t % 16`. An entry of a block sits in the array, on each axis, at the block's index
  times the block's extent plus the entry's own coordinate.
-/
import proofs.«109907_j78185584657073_1_alg».proof.Proof.KBlocks
import proofs.«109907_j78185584657073_1_alg».proof.Proof.Spec
import Idealize.ShloMosaic.Lib.ValueIdx
import Idealize.ShloMosaic.Lib.Decide

noncomputable section

open scoped BigOperators

namespace Cert.KernelIdeal.Host

open Cert.KernelIdeal Cert.KernelIdeal.Gen Cert.KernelIdeal.Launch Cert.KernelIdeal.Body Idealize.ShloMosaic.ValueIdx
open Idealize.ShloMosaic Idealize.ShloMosaic.TcCoe Idealize.SL.Sem

variable (m : (ℓ : Loc nD τ sig) → Buf (Elt Ideal) ℓ) (c : Dev nD)

/-- The first grid coordinate of point `t`. -/
def ti (t : Fin cfg0.N) : Fin 16 := ⟨t.val / 16, by have h : t.val < 256 := lt_of_lt_of_eq t.isLt N_0; omega⟩
/-- The second grid coordinate of point `t`. -/
def tj (t : Fin cfg0.N) : Fin 16 := ⟨t.val % 16, by omega⟩

theorem ti_val (t : Fin cfg0.N) : (ti t).val = t.val / 16 := rfl
theorem tj_val (t : Fin cfg0.N) : (tj t).val = t.val % 16 := rfl

/-- The four input windows' block indices at a point, checked at each of the grid's 256 points. -/
theorem index_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16 :=
  (by decide +kernel : ∀ t : Fin grid0.N, _)

/-- The first window's block: rows `512 · (t / 16) + r` of the scaled rows. -/
theorem iblk0_apply (t : Fin cfg0.N) (r : Fin 512) (k : Fin 256) :
    (iblk (F := Ideal) m c 0 t : S512x256.Idx → EReal) (ix2 r k)
      = (V (F := Ideal) m c main_v6 : S8192x256.Idx → EReal) (ix2 (Cert.Spec.row (ti t) r) k) := by
  obtain ⟨e0, e1, -⟩ := index_facts t
  show (V (F := Ideal) m c main_v6 : S8192x256.Idx → EReal) (((cfg0.win 0).blk t).view.emb (ix2 r k)) = _
  refine congrArg _ (funext fun a => Fin.ext ?_)
  match a with
  | ⟨0, _⟩ => show win0_0.index t (0 : Fin 2) * 512 + 1 * r.val = 512 * (t.val / 16) + r.val; omega
  | ⟨1, _⟩ => show win0_0.index t (1 : Fin 2) * 256 + 1 * k.val = k.val; omega

/-- The second window's block: rows `512 · (t % 16) + s` of the scaled rows. -/
theorem iblk1_apply (t : Fin cfg0.N) (s : Fin 512) (k : Fin 256) :
    (iblk (F := Ideal) m c 1 t : S512x256.Idx → EReal) (ix2 s k)
      = (V (F := Ideal) m c main_v6 : S8192x256.Idx → EReal) (ix2 (Cert.Spec.row (tj t) s) k) := by
  obtain ⟨-, -, e0, e1, -⟩ := index_facts t
  show (V (F := Ideal) m c main_v6 : S8192x256.Idx → EReal) (((cfg0.win 1).blk t).view.emb (ix2 s k)) = _
  refine congrArg _ (funext fun a => Fin.ext ?_)
  match a with
  | ⟨0, _⟩ => show win0_1.index t (0 : Fin 2) * 512 + 1 * s.val = 512 * (t.val % 16) + s.val; omega
  | ⟨1, _⟩ => show win0_1.index t (1 : Fin 2) * 256 + 1 * k.val = k.val; omega

/-- The third window's block: labels `512 · (t / 16) + r` of the label column. -/
theorem iblk2_apply (t : Fin cfg0.N) (r : Fin 512) :
    (iblk (F := Ideal) m c 2 t : S512x1.Idx → BitVec 32) (ix2 r (0 : Fin 1))
      = (V (F := Ideal) m c main_v7 : S8192x1.Idx → BitVec 32) (ix2 (Cert.Spec.row (ti t) r) (0 : Fin 1)) := by
  obtain ⟨-, -, -, -, e0, e1, -⟩ := index_facts t
  show (V (F := Ideal) m c main_v7 : S8192x1.Idx → BitVec 32) (((cfg0.win 2).blk t).view.emb (ix2 r (0 : Fin 1))) = _
  refine congrArg _ (funext fun a => Fin.ext ?_)
  match a with
  | ⟨0, _⟩ => show win0_2.index t (0 : Fin 2) * 512 + 1 * r.val = 512 * (t.val / 16) + r.val; omega
  | ⟨1, _⟩ => show win0_2.index t (1 : Fin 2) * 1 + 1 * 0 = 0; omega

/-- The fourth window's block: labels `512 · (t % 16) + s` of the label row. -/
theorem iblk3_apply (t : Fin cfg0.N) (s : Fin 512) :
    (iblk (F := Ideal) m c 3 t : S1x512.Idx → BitVec 32) (ix2 (0 : Fin 1) s)
      = (V (F := Ideal) m c main_v8 : S1x8192.Idx → BitVec 32) (ix2 (0 : Fin 1) (Cert.Spec.row (tj t) s)) := by
  obtain ⟨-, -, -, -, -, -, e0, e1⟩ := index_facts t
  show (V (F := Ideal) m c main_v8 : S1x8192.Idx → BitVec 32) (((cfg0.win 3).blk t).view.emb (ix2 (0 : Fin 1) s)) = _
  refine congrArg _ (funext fun a => Fin.ext ?_)
  match a with
  | ⟨0, _⟩ => show win0_3.index t (0 : Fin 2) * 1 + 1 * 0 = 0; omega
  | ⟨1, _⟩ => show win0_3.index t (1 : Fin 2) * 512 + 1 * s.val = 512 * (t.val % 16) + s.val; omega

end Cert.KernelIdeal.Host

end
-- ==== Proof.KEntryValue.lean ====
/-
  The entry side of the kernel region: what its four input windows hold at a grid point, as functions of the
  program's two arguments. The arrays the region finds, read at an index (the scaled rows, the label column, the
  label row), and each window's block at a point as its array read at the block's rows.
-/
import proofs.«109907_j78185584657073_1_alg».proof.Proof.KEntryArrays
import proofs.«109907_j78185584657073_1_alg».proof.Proof.KEntryBlocks
-- ==== Proof.KTileAt.lean ====
/-
  At grid point t the four blocks the body loads are rows 512·(t/16)… of the unit rows, rows 512·(t%16)… of the unit
  rows, and the matching labels; so one tile's totals computed from them are the specification's totals of the tile
  (t / 16, t % 16), each started from the zero word.
-/
import proofs.«109907_j78185584657073_1_alg».proof.Proof.KTile
import proofs.«109907_j78185584657073_1_alg».proof.Proof.KEntryValue

noncomputable section

open scoped BigOperators

namespace Cert.KernelIdeal.Final

open Cert.KernelIdeal Cert.KernelIdeal.Gen Cert.KernelIdeal.Launch Cert.KernelIdeal.Body Cert.KernelIdeal.Host
open Idealize.ShloMosaic Idealize.ShloMosaic.TcCoe Idealize.ShloMosaic.ValueIdx Idealize.SL.Sem

variable (m : (ℓ : Loc nD τ sig) → Buf (Elt Ideal) ℓ) (c : Dev nD)

/-- The first argument as a function of row and column, the second as a function of the row. -/
def rows : Fin 8192 → Fin 256 → EReal := fun p k => (m ((c : Thread nD τ).loc main_arg0) : S8192x256.Idx → EReal) (ix2 p k)
def labels : Fin 8192 → BitVec 32 := fun p => (m ((c : Thread nD τ).loc main_arg1) : S8192.Idx → BitVec 32) (ix1 p)

theorem cos_at (t : Fin cfg0.N) (r s : Fin 512) :
    Tile.cos (iblk (F := Ideal) m c 0 t) (iblk (F := Ideal) m c 1 t) r s
      = Cert.Spec.sim (Cert.Spec.unit (rows m c)) (Cert.Spec.row (ti t) r) (Cert.Spec.row (tj t) s) := by
  unfold Tile.cos Cert.Spec.sim
  refine Finset.sum_congr rfl fun k _ => ?_
  rw [iblk0_apply, iblk1_apply, V_v6, V_v6]
  rfl

theorem label_i (t : Fin cfg0.N) (r : Fin 512) :
    (iblk (F := Ideal) m c 2 t : S512x1.Idx → BitVec 32) (ix2 r (0 : Fin 1)) = labels m c (Cert.Spec.row (ti t) r) := by
  rw [iblk2_apply, V_v7]; rfl

theorem label_j (t : Fin cfg0.N) (s : Fin 512) :
    (iblk (F := Ideal) m c 3 t : S1x512.Idx → BitVec 32) (ix2 (0 : Fin 1) s) = labels m c (Cert.Spec.row (tj t) s) := by
  rw [iblk3_apply, V_v8]; rfl

theorem pos_at (t : Fin cfg0.N) :
    Tile.pos (iblk (F := Ideal) m c 0 t) (iblk (F := Ideal) m c 1 t) (iblk (F := Ideal) m c 2 t) (iblk (F := Ideal) m c 3 t)
      = Cert.Spec.zero + Cert.Spec.tilePos (Cert.Spec.unit (rows m c)) (labels m c) (ti t) (tj t) := by
  unfold Tile.pos Cert.Spec.tilePos Cert.Spec.posT
  refine congrArg (Cert.Spec.zero + ·) (Finset.sum_congr rfl fun r _ => Finset.sum_congr rfl fun s _ => ?_)
  rw [cos_at, label_i, label_j]

theorem neg_at (t : Fin cfg0.N) :
    Tile.neg (iblk (F := Ideal) m c 0 t) (iblk (F := Ideal) m c 1 t) (iblk (F := Ideal) m c 2 t) (iblk (F := Ideal) m c 3 t)
      = Cert.Spec.zero + Cert.Spec.tileNeg (Cert.Spec.unit (rows m c)) (labels m c) (ti t) (tj t) := by
  unfold Tile.neg Cert.Spec.tileNeg Cert.Spec.negT
  refine congrArg (Cert.Spec.zero + ·) (Finset.sum_congr rfl fun r _ => Finset.sum_congr rfl fun s _ => ?_)
  rw [cos_at, label_i, label_j]

theorem alike_at (t : Fin cfg0.N) :
    Tile.alike (iblk (F := Ideal) m c 2 t) (iblk (F := Ideal) m c 3 t)
      = Cert.Spec.zero + Cert.Spec.tileAlike (labels m c) (ti t) (tj t) := by
  unfold Tile.alike Cert.Spec.tileAlike Cert.Spec.alike
  refine congrArg (Cert.Spec.zero + ·) (Finset.sum_congr rfl fun r _ => Finset.sum_congr rfl fun s _ => ?_)
  rw [label_i, label_j]

end Cert.KernelIdeal.Final

end
-- ==== Proof.Running.lean ====
/-
  A running total started from the zero word: `z + g 0`, then `+ g 1`, …, `+ g n`. It is `z` plus the sum of the
  first `n + 1` terms, and over sixteen terms the sum over `Fin 16`. Addition of extended reals is a commutative
  monoid, so no term needs to be finite.
-/
import Mathlib

noncomputable section

open scoped BigOperators

namespace Cert.Running

/-- The running total of `g` from `z` through term `n`. -/
def total (z : EReal) (g : ℕ → EReal) : ℕ → EReal
  | 0 => z + g 0
  | n + 1 => total z g n + g (n + 1)

theorem total_eq_sum (z : EReal) (g : ℕ → EReal) (n : ℕ) :
    total z g n = z + ∑ k ∈ Finset.range (n + 1), g k := by
  induction n with
  | zero => simp [total]
  | succ n ih => rw [total, ih, Finset.sum_range_succ _ (n + 1), add_assoc]

/-- Through the sixteenth term: the sum over `Fin 16`. -/
theorem total_fifteen (z : EReal) (g : ℕ → EReal) :
    total z g 15 = z + ∑ j : Fin 16, g j.val := by
  rw [total_eq_sum, Finset.sum_range]

end Cert.Running

end
-- ==== Proof.KAccum.lean ====
/-
  The accumulator along a grid row. At point t its cells (0,0), (0,1), (0,2), (0,3) are increased by the tile's alike
  total, unlike total, alike count, and pairs less that count; at a row's first point they start from the zero word.
  So after point t, cell (0,k) holds the zero word plus the increments of the points of t's row up to t, and after a
  row's last point the zero word plus the sum over the row's sixteen tiles. The output block always equals the
  accumulator.
-/
import proofs.«109907_j78185584657073_1_alg».proof.Proof.KData
import proofs.«109907_j78185584657073_1_alg».proof.Proof.KValue
import proofs.«109907_j78185584657073_1_alg».proof.Proof.KTileAt
import proofs.«109907_j78185584657073_1_alg».proof.Proof.Running

noncomputable section

open scoped BigOperators

namespace Cert.KernelIdeal.Final

open Cert.KernelIdeal Cert.KernelIdeal.Gen Cert.KernelIdeal.Launch Cert.KernelIdeal.Body
open Idealize.ShloMosaic Idealize.ShloMosaic.TcCoe Idealize.ShloMosaic.ValueIdx Idealize.SL.Sem

variable (m : (ℓ : Loc nD τ sig) → Buf (Elt Ideal) ℓ) (c : Dev nD)

/-- What point `t` adds to accumulator cell (0, k), k < 4. -/
def inc (k : Fin 128) (t : Fin cfg0.N) : EReal :=
  if k.val = 0 then Tile.pos (iblk (F := Ideal) m c 0 t) (iblk (F := Ideal) m c 1 t) (iblk (F := Ideal) m c 2 t) (iblk (F := Ideal) m c 3 t)
  else if k.val = 1 then Tile.neg (iblk (F := Ideal) m c 0 t) (iblk (F := Ideal) m c 1 t) (iblk (F := Ideal) m c 2 t) (iblk (F := Ideal) m c 3 t)
  else if k.val = 2 then Tile.alike (iblk (F := Ideal) m c 2 t) (iblk (F := Ideal) m c 3 t)
  else Cert.Spec.tilePairs - Tile.alike (iblk (F := Ideal) m c 2 t) (iblk (F := Ideal) m c 3 t)

/-- The same by the point's number (nothing past the grid). -/
def incN (k : Fin 128) (n : ℕ) : EReal := if h : n < cfg0.N then inc m c k ⟨n, h⟩ else 0

theorem incN_eq (k : Fin 128) (n : ℕ) (h : n < cfg0.N) : incN m c k n = inc m c k ⟨n, h⟩ := dif_pos h

/-- At a row's first point a leading cell of row 0 holds the zero word plus the point's increment; -/
theorem first_cell (t : Fin cfg0.N) (h0 : t.val % 16 = 0) (k : Fin 128) (hk : k.val < 4) :
    (leavesAt (F := Ideal) m c t.val t.isLt).2 (ix2 (0 : Fin 8) k) = Cert.Spec.zero + inc m c k t := by
  rw [leavesAt_first m c t h0]
  unfold firstAt; dsimp only
  rw [accFirst_apply]
  unfold inc
  have hk' : k.val = 0 ∨ k.val = 1 ∨ k.val = 2 ∨ k.val = 3 := by omega
  rcases hk' with h | h | h | h <;> simp [h]

/-- at a later point what the point before left there plus the increment. -/
theorem next_cell (t : Fin cfg0.N) (h0 : ¬t.val % 16 = 0) (k : Fin 128) (hk : k.val < 4) :
    (leavesAt (F := Ideal) m c t.val t.isLt).2 (ix2 (0 : Fin 8) k)
      = (leavesAt (F := Ideal) m c (t.val - 1) (Nat.lt_of_le_of_lt (Nat.sub_le _ _) t.isLt)).2 (ix2 (0 : Fin 8) k) + inc m c k t := by
  rw [leavesAt_next m c t h0]
  unfold nextAt; dsimp only
  rw [accNext_apply]
  unfold inc
  have hk' : k.val = 0 ∨ k.val = 1 ∨ k.val = 2 ∨ k.val = 3 := by omega
  rcases hk' with h | h | h | h <;> simp [h]

/-- The output block after a point is the accumulator after it. -/
theorem out_cell (t : Fin cfg0.N) (r : Fin 8) (k : Fin 128) :
    (leavesAt (F := Ideal) m c t.val t.isLt).1 (ix3 (0 : Fin 1) r k) = (leavesAt (F := Ideal) m c t.val t.isLt).2 (ix2 r k) := by
  by_cases h0 : t.val % 16 = 0
  · rw [leavesAt_first m c t h0]
    unfold firstAt; dsimp only
    exact outFirst_apply _ _ _ _ _ _ _ _ _ _ _ _ _ _ _ _ _ _ _ r k
  · rw [leavesAt_next m c t h0]
    unfold nextAt; dsimp only
    exact outNext_apply _ _ _ _ _ _ _ _ _ _ _ _ _ _ _ _ _ _ r k

/-- After point `n` a leading cell of row 0 holds the running total of its row's increments up to `n`. -/
theorem cell_total (k : Fin 128) (hk : k.val < 4) : ∀ (n : ℕ) (hn : n < cfg0.N),
    (leavesAt (F := Ideal) m c n hn).2 (ix2 (0 : Fin 8) k)
      = Cert.Running.total Cert.Spec.zero (fun j => incN m c k (16 * (n / 16) + j)) (n % 16) := by
  have hN : cfg0.N = 256 := N_0
  intro n
  induction n with
  | zero =>
    intro hn
    have h := first_cell m c ⟨0, hn⟩ (Nat.zero_mod _) k hk
    rw [show (leavesAt (F := Ideal) m c 0 hn) = leavesAt (F := Ideal) m c (⟨0, hn⟩ : Fin cfg0.N).val (⟨0, hn⟩ : Fin cfg0.N).isLt from rfl, h]
    show _ = Cert.Running.total Cert.Spec.zero _ 0
    unfold Cert.Running.total
    rw [show 16 * (0 / 16) + 0 = 0 from rfl, incN_eq m c k 0 hn]
  | succ n ih =>
    intro hn
    by_cases h0 : (n + 1) % 16 = 0
    · have h := first_cell m c ⟨n + 1, hn⟩ h0 k hk
      rw [show (leavesAt (F := Ideal) m c (n + 1) hn) = leavesAt (F := Ideal) m c (⟨n + 1, hn⟩ : Fin cfg0.N).val (⟨n + 1, hn⟩ : Fin cfg0.N).isLt from rfl, h, h0]
      unfold Cert.Running.total
      rw [show 16 * ((n + 1) / 16) + 0 = n + 1 from by omega, incN_eq m c k (n + 1) hn]
    · have h := next_cell m c ⟨n + 1, hn⟩ h0 k hk
      rw [show (leavesAt (F := Ideal) m c (n + 1) hn) = leavesAt (F := Ideal) m c (⟨n + 1, hn⟩ : Fin cfg0.N).val (⟨n + 1, hn⟩ : Fin cfg0.N).isLt from rfl, h]
      have ih' := ih (Nat.lt_of_succ_lt hn)
      rw [show (leavesAt (F := Ideal) m c ((⟨n + 1, hn⟩ : Fin cfg0.N).val - 1) (Nat.lt_of_le_of_lt (Nat.sub_le _ _) (⟨n + 1, hn⟩ : Fin cfg0.N).isLt))
            = leavesAt (F := Ideal) m c n (Nat.lt_of_succ_lt hn) from rfl, ih']
      rw [show (n + 1) % 16 = n % 16 + 1 from by omega, show (n + 1) / 16 = n / 16 from by omega]
      show _ = Cert.Running.total Cert.Spec.zero _ (n % 16) + incN m c k (16 * (n / 16) + (n % 16 + 1))
      rw [show 16 * (n / 16) + (n % 16 + 1) = n + 1 from by omega, incN_eq m c k (n + 1) hn]

/-- After the last point of grid row `i`: the zero word plus the sum of the row's sixteen increments. -/
theorem row_total (k : Fin 128) (hk : k.val < 4) (i : Fin 16) (h : 16 * i.val + 15 < cfg0.N) :
    (leavesAt (F := Ideal) m c (16 * i.val + 15) h).2 (ix2 (0 : Fin 8) k)
      = Cert.Spec.zero + ∑ j : Fin 16, incN m c k (16 * i.val + j.val) := by
  rw [cell_total m c k hk (16 * i.val + 15) h]
  rw [show (16 * i.val + 15) % 16 = 15 from by omega, show (16 * i.val + 15) / 16 = i.val from by omega]
  exact Cert.Running.total_fifteen _ _

end Cert.KernelIdeal.Final

end
-- ==== Proof.KBodyOb.lean ====
/-
  The body obligation of the kernel's call: at every grid point, from the invariant and the five windows' current
  buffers as the pipeline hands them, the body runs to the invariant of the next point and the buffers at what the
  proof data says it leaves. The point is either a row's first (the run from cleared contents; the accumulator came
  in at anything at the very first point, at the previous row's last contents otherwise) or a later one (the run
  over what the point before left).
-/
import proofs.«109907_j78185584657073_1_alg».proof.Proof.KData

set_option maxRecDepth 16384

noncomputable section

namespace Cert.KernelIdeal.Body

open Cert.KernelIdeal Cert.KernelIdeal.Gen Cert.KernelIdeal.Launch
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The one store of the whole output block covers it, at a first point -/
theorem coverOutFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (arg7 : Memref sig .tc .vmem S8x128 .f32) (harg7 : arg7.IsWhole) (hc : clears i) (x0 : Vec F S512x256 .bf16) (x1 : Vec F S512x256 .bf16) (x2 : Vec F S512x1 .i32) (x3 : Vec F S1x512 .i32) (y : S1x8x128.Idx) :
    ∃ pc ∈ (runFirst c i arg2 harg2 arg3 harg3 arg4 harg4 arg5 harg5 arg6 harg6 arg7 harg7 hc x0 x1 x2 x3).1, y ∈ pc.1.set :=
  View.cover_of_tiledL (runFirst c i arg2 harg2 arg3 harg3 arg4 harg4 arg5 harg5 arg6 harg6 arg7 harg7 hc x0 x1 x2 x3).1 S1x8x128.size (by sl_kernel_rfl) y

/-- and at a later point. -/
theorem coverOutNext (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (arg7 : Memref sig .tc .vmem S8x128 .f32) (harg7 : arg7.IsWhole) (hc : ¬clears i) (x0 : Vec F S512x256 .bf16) (x1 : Vec F S512x256 .bf16) (x2 : Vec F S512x1 .i32) (x3 : Vec F S1x512 .i32) (xa : Vec F S8x128 .f32) (y : S1x8x128.Idx) :
    ∃ pc ∈ (runNext c i arg2 harg2 arg3 harg3 arg4 harg4 arg5 harg5 arg6 harg6 arg7 harg7 hc x0 x1 x2 x3 xa).1, y ∈ pc.1.set :=
  View.cover_of_tiledL (runNext c i arg2 harg2 arg3 harg3 arg4 harg4 arg5 harg5 arg6 harg6 arg7 harg7 hc x0 x1 x2 x3 xa).1 S1x8x128.size (by sl_kernel_rfl) y

/-- At a first point the clearing store covers the accumulator. -/
theorem coverAccFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S1x8x128 .f32) (harg6 : arg6.IsWhole) (arg7 : Memref sig .tc .vmem S8x128 .f32) (harg7 : arg7.IsWhole) (hc : clears i) (x0 : Vec F S512x256 .bf16) (x1 : Vec F S512x256 .bf16) (x2 : Vec F S512x1 .i32) (x3 : Vec F S1x512 .i32) (y : S8x128.Idx) :
    ∃ pc ∈ (runFirst c i arg2 harg2 arg3 harg3 arg4 harg4 arg5 harg5 arg6 harg6 arg7 harg7 hc x0 x1 x2 x3).2.1, y ∈ pc.1.set :=
  View.cover_of_tiledL (runFirst c i arg2 harg2 arg3 harg3 arg4 harg4 arg5 harg5 arg6 harg6 arg7 harg7 hc x0 x1 x2 x3).2.1 S8x128.size (by sl_kernel_rfl) y

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem leaves_eq (c : Dev nD) (w : Fin 5) (t : Fin cfg0.N) :
    (dats m 0 c).leavesExact w t = owns (c : Thread nD τ) ((cfg0.win w).stage (cfg0.slots t w)) fullShare ((dats m 0 c).after w t) := by
  unfold Dat.leavesExact; rw [live w t]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves_eq m c 0 t, leaves_eq m c 1 t, leaves_eq m c 2 t, leaves_eq m c 3 t, leaves_eq m c 4 t,
    after0, after1, after2, after3, after4]
  by_cases h0 : t.val % 16 = 0
  · rw [leavesAt_first m c t h0]
    unfold firstAt outFirst accFirst; (try dsimp only)
    by_cases hz : t.val = 0
    · rw [Phi_castSucc m c t, PhiS_zero m c _ _ hz, scopedRest_eq]
      iintro ⟨HA, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) accM (Memref.isWhole_whole _) ((clears_iff t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HA]; · iexact HA
      iintro ⟨H0, H1, H2, H3, ⟨%e4, H4⟩, ⟨%ea, HA⟩⟩
      isplitl [HA]
      · unfold owns; iexists _; isplitr
        swap; · iexact HA
        ipureintro; exact View.read_writes_of_cover _ _ _ _ _ (coverAccFirst c _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutFirst c _ _ _ _ _ _ _ _ _ _ _ _ _ _ _ _ _ _)
    · rw [Phi_castSucc m c t, PhiS_pos m c _ _ hz]
      iintro ⟨HA, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) accM (Memref.isWhole_whole _) ((clears_iff t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HA]; · iexists _; iexact HA
      iintro ⟨H0, H1, H2, H3, ⟨%e4, H4⟩, ⟨%ea, HA⟩⟩
      isplitl [HA]
      · unfold owns; iexists _; isplitr
        swap; · iexact HA
        ipureintro; exact View.read_writes_of_cover _ _ _ _ _ (coverAccFirst c _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutFirst c _ _ _ _ _ _ _ _ _ _ _ _ _ _ _ _ _ _)
  · have hz : t.val ≠ 0 := fun h => h0 (by rw [h])
    rw [leavesAt_next m c t h0]
    unfold nextAt outNext accNext; (try dsimp only)
    rw [Phi_castSucc m c t, PhiS_pos m c _ _ hz]
    iintro ⟨HA, Ho, ⟨%d0, H0⟩, ⟨%d1, H1⟩, ⟨%d2, H2⟩, ⟨%d3, H3⟩, ⟨%d4, H4⟩⟩
    iapply ((runNext c (grid0.coords t) (ms0 t) (hs0 t) (ms1 t) (hs1 t) (ms2 t) (hs2 t) (ms3 t) (hs3 t) (ms4 t) (hs4 t) accM (Memref.isWhole_whole _) (fun hc => h0 ((clears_iff t).mp hc)) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [HA]; · iexact HA
    iintro ⟨H0, H1, H2, H3, ⟨%e4, H4⟩, HA⟩
    isplitl [HA]
    · unfold owns; iexists _; isplitr
      swap; · iexact HA
      ipureintro; rfl
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOutNext c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the invariant is the scoped rest. -/
theorem phi_in (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point it gives the scoped rest back: the accumulator's named contents are forgotten. -/
theorem phi_out (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), scopedRest_eq]
  iintro HA
  iexists _; iexact HA

end Cert.KernelIdeal.Body

end
-- ==== Proof.KLaunch.lean ====
/-
  The launch of the kernel program, over any proof data of its one region.

  @main is ten host operations (the rows of the first argument scaled to unit length and rounded, the labels broadcast
  as a column and as a row), ONE kernel region — a 16 × 16 grid of points over five windows, the first two BOTH on the
  array of unit rows (a tile row's block and a tile column's block), then the label column, the label row, and the
  output of per-tile-row partial totals, with a scratch accumulator —, then fifteen host operations that slice the
  partial totals, add them up and form the two quotients and their sum. Its run, for any float values: from any
  memory with zero counters every weakly fair execution of @main on the TensorCores terminates, and every final state
  has the result at what the fifteen operations make of the output array the region's write-backs leave, and both
  arguments as launched (`run_of`).

  The thread state between the segments is every unscoped buffer whole at a valuation: the launch memory, then the
  ten operations applied to it (`V0`), then that with the output array replaced by what the write-backs leave (`W2`),
  then the fifteen operations applied to that (`W3`). At the region's entry the four distinct buffers behind the five
  windows' arrays are dealt to the windows, the shared array's points-to split into the two halves of the full share
  (`entry_split`); at its exit the inputs come back as entered, the two halves are joined again, and with the buffers
  that bypassed the region they are every unscoped buffer at `W2` (`exit_join`). The region's invariant at both ends is
  the scratch at some contents (`ΦS`); the kernel has no semaphore of its own and owes nothing.
-/
import proofs.«109907_j78185584657073_1_alg».proof.Proof.KEntry
import proofs.«109907_j78185584657073_1_alg».proof.Proof.KShares
import proofs.«109907_j78185584657073_1_alg».proof.Proof.Gen.KernelIdeal.Launch
import Idealize.ShloMosaic.Lib.Pipeline.Regions
import Idealize.ShloMosaic.Lib.Pipeline.Frame

noncomputable section

namespace Cert.KernelIdeal.Launch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable {c : Dev nD} (dat : Dat τ (Elt F) Unit ℕ (UR sig nD τ) ℕ cfg0 c)

/-- The windows' arrays, one by one: the shared array twice, at the two halves of the full share. -/
theorem arrays_eq (hq : ∀ w, dat.q w = qW w)
    (G : (w : Fin cfg0.W) → Buf (Elt F) ((cfg0.win w).arr.view.loc (c : Thread nD τ))) :
    (dat.arrays G : sProp 𝕄)
      = iprop((((c : Thread nD τ).loc main_v6) ↦{fullShare.left} G 0) ∗ (((c : Thread nD τ).loc main_v6) ↦{fullShare.right} G 1)
          ∗ (((c : Thread nD τ).loc main_v7) ↦{fullShare} G 2) ∗ (((c : Thread nD τ).loc main_v8) ↦{fullShare} G 3)
          ∗ (((c : Thread nD τ).loc main_v9) ↦{fullShare} G 4)) := by
  unfold Dat.arrays
  rw [bigSep_W0]
  rw [(arr_whole0 0).set_eq_univ, (arr_whole0 2).set_eq_univ, (arr_whole0 3).set_eq_univ, (arr_whole0 4).set_eq_univ]
  unfold Dat.share
  rw [hq 0, hq 1, hq 2, hq 3]
  rfl

/-- The distinct buffers behind the windows' arrays, one by one. -/
theorem arrBufs_eq (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v6) ↦{fullShare} V main_v6) ∗ (((c : Thread nD τ).loc main_v7) ↦{fullShare} V main_v7)
          ∗ (((c : Thread nD τ).loc main_v8) ↦{fullShare} V main_v8) ∗ (((c : Thread nD τ).loc main_v9) ↦{fullShare} V main_v9)) := by
  unfold Pipeline.arrBufs
  exact bigSep_eq_bigSepL_of_eq [main_v6, main_v7, main_v8, main_v9] (by decide) (by decide) _

end Arrays

variable (m : (ℓ : Loc nD τ sig) → Buf (Elt F) ℓ) (ρ : Dev nD → PrngReg)

/-- The scratch at some contents: what the region's invariant is at both ends. -/
def ΦS (c : Dev nD) : sProp 𝕄 :=
  Pipeline.scopedRest (Ix := Unit) (Name := ℕ) (U := UR sig nD τ) (Lvl := ℕ) (Val := Elt F) spec0 c

/-- No pipeline has a prefetched table. -/
abbrev adm : (p : Fin 1) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through the host operations: the core owing nothing — before the region with nothing
    recorded, after it with whatever the region's waits recorded. -/
abbrev R₀ (c : Dev nD) : sProp 𝕄 := owes (c : Thread nD τ) (0 : CellTallies nD τ sig Unit) ∅
abbrev R (c : Dev nD) : sProp 𝕄 := iprop(∃ W, owes (c : Thread nD τ) (0 : CellTallies nD τ sig Unit) W)

/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (Rr : Dev nD → sProp 𝕄) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Run

variable (dats : (p : Fin 1) → (c : Dev nD) → Dat τ (Elt F) Unit ℕ (UR sig nD τ) ℕ (cfgs p) c)

/-- Core `c`'s buffers when the region is left: the output array at what the write-backs leave, every other buffer as entered. -/
def W2 (c : Dev nD) : Valuation τ sig (Elt F) :=
  Function.update (V0 m c) (Proc.devRef .tc main_v9) ((dats 0 c).arrAt 4 cfg0.N)

/-- and at the end: the fifteen host operations after the region have run. -/
abbrev W3 (c : Dev nD) : Valuation τ sig (Elt F) := StableHlo.after hostOps1 (W2 m dats c)

end Run

section Deal

variable {c : Dev nD} (dat : Dat τ (Elt F) Unit ℕ (UR sig nD τ) ℕ cfg0 c)

/-- ENTRY: the four buffers behind the windows' arrays, each whole, dealt to the five windows — the shared array's
    points-to split into the two halves of the full share. -/
theorem entry_split (hA : ∀ w, dat.A w = V m c (Pipeline.arrRef spec0 w)) (hq : ∀ w, dat.q w = qW w) :
    (Pipeline.arrBufs (Ix := Unit) (Name := ℕ) (U := UR sig nD τ) (Lvl := ℕ) spec0 c (V m c) : sProp 𝕄)
      ⊢ dat.arrays (dat.arrAt · 0) := by
  rw [arrBufs_eq, arrays_eq dat hq]
  rw [show dat.arrAt 0 0 = V m c main_v6 from hA 0, show dat.arrAt 1 0 = V m c main_v6 from hA 1,
    show dat.arrAt 2 0 = V m c main_v7 from hA 2, show dat.arrAt 3 0 = V m c main_v8 from hA 3,
    show dat.arrAt 4 0 = V m c main_v9 from hA 4]
  iintro ⟨H6, H7, H8, H9⟩
  ihave H := (pointsTo_share (PosShare.mem_left_op_right fullShare)).1 $$ H6
  icases H with ⟨H6a, H6b⟩
  isplitl [H6a]; · iexact H6a
  isplitl [H6b]; · iexact H6b
  isplitl [H7]; · iexact H7
  isplitl [H8]; · iexact H8
  iexact H9

end Deal

section Join

variable (dats : (p : Fin 1) → (c : Dev nD) → Dat τ (Elt F) Unit ℕ (UR sig nD τ) ℕ (cfgs p) c) (c : Dev nD)

/-- Off the output array, the buffers at the region's exit are those at its entry; -/
theorem W2_of_ne (b : Ref sig .tc) (hb : b ≠ main_v9) : W2 m dats c (Proc.devRef .tc b) = V0 m c (Proc.devRef .tc b) :=
  Function.update_of_ne (StableHlo.devRef_ne_of_ne hb) _ _
/-- the output array holds what the write-backs leave. -/
theorem W2_v9 : W2 m dats c (Proc.devRef .tc main_v9) = (dats 0 c).arrAt 4 cfg0.N := Function.update_self ..

/-- EXIT: the five windows' arrays as the region leaves them — the inputs as entered, the shared array's two halves
    joined again — and the buffers that bypassed the region are every unscoped buffer at the exit contents. -/
theorem exit_join (hA : ∀ w, (dats 0 c).A w = V m c (Pipeline.arrRef spec0 w)) (hq : ∀ w, (dats 0 c).q w = qW w) :
    iprop((dats 0 c).arrays ((dats 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (W2 m dats c) : sProp 𝕄) := by
  have hrest : (Pipeline.unscopedRest (Ix := Unit) (Name := ℕ) (U := UR sig nD τ) (Lvl := ℕ) spec0 c (fun b => W2 m dats c b) : sProp 𝕄)
      = Pipeline.unscopedRest spec0 c (V m c) := by
    unfold Pipeline.unscopedRest
    exact bigSep_congr fun b hb => by
      beta_reduce
      rw [W2_of_ne m dats c b (fun e => (Finset.mem_sdiff.mp hb).2 (Finset.mem_image.mpr ⟨4, Finset.mem_univ _, e.symm⟩))]
  rw [← Pipeline.unscopedBufs_held c (W2 m dats c), Pipeline.unscopedBufs_split₀ cfgs 0 winFacts₀0.arr_unscoped c, hrest,
    arrBufs_eq, arrays_eq (dats 0 c) hq]
  beta_reduce
  rw [show (dats 0 c).arrAt 0 cfg0.N = V m c main_v6 from ((dats 0 c).arrAt_in 0 rfl _).trans (hA 0),
    show (dats 0 c).arrAt 1 cfg0.N = V m c main_v6 from ((dats 0 c).arrAt_in 1 rfl _).trans (hA 1),
    show (dats 0 c).arrAt 2 cfg0.N = V m c main_v7 from ((dats 0 c).arrAt_in 2 rfl _).trans (hA 2),
    show (dats 0 c).arrAt 3 cfg0.N = V m c main_v8 from ((dats 0 c).arrAt_in 3 rfl _).trans (hA 3),
    show W2 m dats c (Proc.devRef .tc main_v6) = V m c main_v6 from W2_of_ne m dats c main_v6 (by decide),
    show W2 m dats c (Proc.devRef .tc main_v7) = V m c main_v7 from W2_of_ne m dats c main_v7 (by decide),
    show W2 m dats c (Proc.devRef .tc main_v8) = V m c main_v8 from W2_of_ne m dats c main_v8 (by decide),
    W2_v9 m dats c]
  iintro ⟨⟨H6a, H6b, H7, H8, H9⟩, Hrest⟩
  isplitr [Hrest]
  · isplitl [H6a H6b]
    · iapply (pointsTo_share (PosShare.mem_left_op_right fullShare)).2
      isplitl [H6a] <;> iassumption
    isplitl [H7]; · iexact H7
    isplitl [H8]; · iexact H8
    iexact H9
  iexact Hrest

end Join

section Segs

variable (dats : (p : Fin 1) → (c : Dev nD) → Dat τ (Elt F) Unit ℕ (UR sig nD τ) ℕ (cfgs p) c)
  (hA : ∀ c w, (dats 0 c).A w = V m c (Pipeline.arrRef spec0 w))
  (hq : ∀ c w, (dats 0 c).q w = qW w)
  (hΦ0 : ∀ c, ΦS c ⊢ (dats 0 c).Φ 0)
  (hΦN : ∀ c, (dats 0 c).Φ (Fin.last cfg0.N) ⊢ ΦS c)
  (howed : ∀ c t, (dats 0 c).owed t = 0)
  (hbody : ∀ c, Pipeline.BodyObligation (dats 0 c) (defs₀ (F := F)) Variants.none () Set.univ)

set_option backward.isDefEq.respectTransparency.types false in
/-- THE REGION over the thread state: entered from every unscoped buffer at the contents the ten host operations leave,
    left with the output array at what the write-backs leave and every other buffer as entered; the windows' arrays
    dealt out of the unscoped buffers at entry and put back at exit; the invariant's ends the scratch at some contents;
    nothing owed; no semaphore of the kernel's own. -/
def reg0 : Pipeline.RegionSeg (pcfgs (F := F)) adm dats () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 howed
  pre c := iprop(StableHlo.held (c : Thread nD τ) (Pipeline.ucRefs τ sig) (V0 m c) ∗ R₀ c)
  post c := iprop(StableHlo.held (c : Thread nD τ) (Pipeline.ucRefs τ sig) (W2 m dats c) ∗ R c)
  X c := iprop(emp)
  Y c := iprop(emp)
  Z c := Pipeline.unscopedRest (Ix := Unit) (Name := ℕ) (U := UR sig nD τ) (Lvl := ℕ) spec0 c (V m c)
  hentry c := by
    rw [Pipeline.ownSems0_none, ← Pipeline.unscopedBufs_held c (V0 m c), Pipeline.unscopedBufs_split₀ cfgs 0 winFacts₀0.arr_unscoped c]
    iintro ⟨⟨⟨Hab, Hrest⟩, HO⟩, -, -⟩
    ihave Ha := (entry_split m (dats 0 c) (hA c) (hq c)) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      iexists ∅; isplitr; · ipureintro; rw [Finset.coe_empty]; exact Set.empty_subset _
      iexact HO
    isplitr; · iempintro
    iexact Hrest
  hin c := by
    have h := hΦ0 c
    unfold ΦS at h
    iintro ⟨-, -, Hr⟩
    iapply h; iexact Hr
  hout c := by
    have h := hΦN c
    unfold ΦS at h
    rw [Pipeline.ownSems0_none]
    refine h.trans ?_
    iintro Hr
    isplitr; · iempintro
    isplitr; · iempintro
    iexact Hr
  hexit c := by
    iintro ⟨Ha, HO, -, Hrest⟩
    imodintro
    isplitr [HO]
    · iapply (exit_join m dats c (hA c) (hq c)); isplitl [Ha] <;> iassumption
    unfold Pipeline.Dat.owesAt Pipeline.owesWithin
    rw [howed c]
    icases HO with ⟨%W, -, HO⟩; iexists W; iexact HO

end Segs

section Launch

/-- No host operation before the region writes an argument, -/
theorem after0_arg (Wv : Valuation τ sig (Elt F)) (b : Ref sig .tc) (hb : b = main_arg0 ∨ b = main_arg1) :
    StableHlo.after (hostOps0 (F := F)) Wv (Proc.devRef .tc b) = Wv (Proc.devRef .tc b) := by
  refine StableHlo.after_of_forall_not_mem _ _ (List.forall_iff_forall_mem.mp ?_)
  rcases hb with rfl | rfl
  all_goals
    simp only [hostOps0, List.Forall, StableHlo.nullary_writes, StableHlo.unary_writes, StableHlo.binary_writes, StableHlo.reshape_writes, Finset.mem_singleton]
    repeat' apply And.intro
    all_goals exact StableHlo.devRef_ne_of_ne (by decide)

/-- and none after it. -/
theorem after1_arg (Wv : Valuation τ sig (Elt F)) (b : Ref sig .tc) (hb : b = main_arg0 ∨ b = main_arg1) :
    StableHlo.after (hostOps1 (F := F)) Wv (Proc.devRef .tc b) = Wv (Proc.devRef .tc b) := by
  refine StableHlo.after_of_forall_not_mem _ _ (List.forall_iff_forall_mem.mp ?_)
  rcases hb with rfl | rfl
  all_goals
    simp only [hostOps1, List.Forall, StableHlo.nullary_writes, StableHlo.unary_writes, StableHlo.binary_writes, StableHlo.reshape_writes, Finset.mem_singleton]
    repeat' apply And.intro
    all_goals exact StableHlo.devRef_ne_of_ne (by decide)

variable (dats : (p : Fin 1) → (c : Dev nD) → Dat τ (Elt F) Unit ℕ (UR sig nD τ) ℕ (cfgs p) c)

/-- An argument reaches the end as launched: no host operation writes it and the region only reads. -/
theorem W3_arg (c : Dev nD) (b : Ref sig .tc) (hb : b = main_arg0 ∨ b = main_arg1) :
    W3 m dats c (Proc.devRef .tc b) = m ((c : Thread nD τ).loc b) :=
  calc W3 m dats c (Proc.devRef .tc b)
    _ = W2 m dats c (Proc.devRef .tc b) := after1_arg _ b hb
    _ = V0 m c (Proc.devRef .tc b) := W2_of_ne m dats c b (by rcases hb with rfl | rfl <;> decide)
    _ = m ((c : Thread nD τ).loc b) := after0_arg _ b hb

variable (hA : ∀ c w, (dats 0 c).A w = V m c (Pipeline.arrRef spec0 w))
  (hq : ∀ c w, (dats 0 c).q w = qW w)
  (hΦ0 : ∀ c, ΦS c ⊢ (dats 0 c).Φ 0)
  (hΦN : ∀ c, (dats 0 c).Φ (Fin.last cfg0.N) ⊢ ΦS c)
  (howed : ∀ c t, (dats 0 c).owed t = 0)
  (hbody : ∀ c, Pipeline.BodyObligation (dats 0 c) (defs₀ (F := F)) Variants.none () Set.univ)

/-- @main's three segments: the ten host operations, the region, the fifteen host operations. -/
abbrev segs : List (Pipeline.Seg (pcfgs (F := F)) adm dats () defs₀ 𝒱₀ L lv) :=
  [ .host (hseg hostOps0 hostOps0_sub hostOps0_fresh (fun c b => m (c, b)) R₀),
    .region (reg0 m dats hA hq hΦ0 hΦN howed hbody),
    .host (hseg hostOps1 hostOps1_sub hostOps1_fresh (W2 m dats) R) ]

set_option backward.isDefEq.respectTransparency.types false in
/-- THE RUN, over any proof data of the region whose arrays are the entry contents, whose shares are `qW`, whose
    invariant's ends are the scratch at some contents, that owes nothing and whose body obligation holds: at the compiled
    mesh, from any memory with zero counters, every weakly fair execution of @main on the TensorCores terminates, and
    every final state has the result at what the fifteen host operations make of the output array the write-backs
    leave, and both arguments as launched. -/
theorem run_of
    (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qW w)
    (hΦ0 : ∀ c, ΦS c ⊢ (dats 0 c).Φ 0)
    (hΦN : ∀ c, (dats 0 c).Φ (Fin.last cfg0.N) ⊢ ΦS c)
    (howed : ∀ c t, (dats 0 c).owed t = 0)
    (hbody : ∀ c, Pipeline.BodyObligation (dats 0 c) (defs₀ (F := F)) Variants.none () Set.univ) :
    θ_run defs (onTc (τ := τ) (main (F := F))) ⟨m, fun _ => 0, ρ⟩ (fun r => ∀ c : Dev nD,
      r.2.mem ((c.tc : Thread nD τ).loc main_v23)
          = StableHlo.after hostOps1 (Function.update (V0 m c) (Proc.devRef .tc main_v9) ((dats 0 c).arrAt 4 cfg0.N)) (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm dats () cellOf_inj emb₁ defs₀ 𝒱₀ L lv m ρ main (segs m dats hA hq hΦ0 hΦN howed hbody)
    (fun c Q => by
      rw [main_segs adm dats () 𝒱₀ L lv (hseg hostOps0 hostOps0_sub hostOps0_fresh (fun c b => m (c, b)) R₀)
        (hseg hostOps1 hostOps1_sub hostOps1_fresh (W2 m dats) R) (reg0 m dats hA hq hΦ0 hΦN howed hbody) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R₀ c))
    (Tₙ := fun c => StableHlo.held (c : Thread nD τ) (Pipeline.ucRefs τ sig) (W3 m dats c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, -, -⟩, -⟩
      imodintro
      isplitl [Hh]; · iexact Hh
      iexact HO)
    (QY := fun c s => ∀ b ∈ Pipeline.ucRefs τ sig, s.mem ((c : Thread nD τ).1, b) = W3 m dats c b)
    (hfin := fun c s' => by
      iintro ⟨Hh, HSI⟩
      unfold StableHlo.held
      imodintro
      iapply (pointsTo_read_all (Pipeline.ucRefs τ sig) (fun b => ((c : Thread nD τ).1, b)) (W3 m dats c) s')
      isplitl [Hh] <;> iassumption)
    (hQ := fun s h c =>
      ⟨h c _ (mem_uc main_v23 (by decide)),
        (h c _ (mem_uc main_arg0 (by decide))).trans (W3_arg m dats c main_arg0 (.inl rfl)),
        (h c _ (mem_uc main_arg1 (by decide))).trans (W3_arg m dats c main_arg1 (.inr rfl))⟩)

end Launch

end Cert.KernelIdeal.Launch

end
-- ==== Proof.KRun.lean ====
/-
  The kernel program's run with its result named: every weakly fair execution of @main ends, and the result
  buffer holds what the fifteen host operations after the region make of the output array as the region's write-backs
  leave it under the proof data of the body; both arguments end as launched.
-/
import proofs.«109907_j78185584657073_1_alg».proof.Proof.KBodyOb
import proofs.«109907_j78185584657073_1_alg».proof.Proof.KLaunch

set_option maxRecDepth 16384

noncomputable section

namespace Cert.KernelIdeal.Body

open Cert.KernelIdeal Cert.KernelIdeal.Gen Cert.KernelIdeal.Launch
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_main :
    θ_run defs (onTc (τ := τ) (main (F := F))) ⟨m, fun _ => 0, ρ⟩ (fun r => ∀ c : Dev nD,
      r.2.mem ((c.tc : Thread nD τ).loc main_v23)
          = StableHlo.after hostOps1 (Function.update (V0 m c) (Proc.devRef .tc main_v9) ((dats m 0 c).arrAt 4 cfg0.N)) (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of m ρ (dats m) (A_eq m) (q_eq m) (phi_in m) (phi_out m) (fun _ _ => rfl) (body_obligation m)

/-- The frame: the run ends with both arguments as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Body

end
-- ==== Proof.KExitCols.lean ====
/-
  The column sums the host takes of the kernel's output array `o : f32[16,8,128]`: `o[:, 0, 0:4]` as a 16 × 4
  matrix, summed over its sixteen rows from the zero word, one sum per column.
-/
import proofs.«109907_j78185584657073_1_alg».proof.Proof.Gen.KernelIdeal
import proofs.«109907_j78185584657073_1_alg».proof.Proof.Spec
import Idealize.ShloMosaic.Lib.Pipeline.Value
import Idealize.ShloMosaic.Lib.ValueIdx
import Idealize.ShloMosaic.PureOps.Ideal.Laws

noncomputable section

namespace Cert.KernelIdeal.Host

open Cert.KernelIdeal Cert.KernelIdeal.Gen
open Idealize.ShloMosaic Idealize.ShloMosaic.ValueIdx

open scoped BigOperators

/-- `o[:, 0, 0:4]` as a 16 × 4 matrix: the slice, then the reshape that drops the unit axis. -/
def outCols (o : FVec Ideal S16x8x128 .f32) : FVec Ideal S16x4 .f32 :=
  shapeCast S16x4 (extractStridedSlice S16x1x4 ![0, 0, 0] o slices_S16x8x128_S16x1x4_0_0_0) shapeCasts_S16x1x4_S16x4

/-- Its entry `(i, j)` is `o (i, 0, j)`: the reshape keeps the row-major position, the slice starts at the origin. -/
theorem outCols_apply (o : FVec Ideal S16x8x128 .f32) (i : Fin 16) (j : Fin 4) (j' : Fin 128) (hj : j'.val = j.val) :
    outCols o (ix2 i j) = o (ix3 i (0 : Fin 8) j') := by
  unfold outCols
  refine (shapeCast_apply _ shapeCasts_S16x1x4_S16x4 (ix2 i j) (ix3 i (0 : Fin 1) j) ?_).trans ?_
  · rw [Shape.rowMajor_val_three, Shape.rowMajor_val_two]
    show (i.val * 1 + 0) * 4 + j.val = i.val * 4 + j.val
    omega
  · refine extractStridedSlice_apply _ o slices_S16x8x128_S16x1x4_0_0_0 (ix3 i (0 : Fin 1) j) (ix3 i (0 : Fin 8) j') fun a => ?_
    match a with
    | ⟨0, _⟩ => show i.val = 0 + i.val; omega
    | ⟨1, _⟩ => show 0 = 0 + 0; rfl
    | ⟨2, _⟩ => show j'.val = 0 + j.val; omega

/-- The four column sums, each started from the zero word. -/
def colSums (o : FVec Ideal S16x8x128 .f32) : FVec Ideal S4 .f32 :=
  Host.reduceAdd (F := Ideal) (outCols o) (constant (F := Ideal) S_ .f32 0x00000000#32) reducesTo_S16x4_S4_d0 h_S_

/-- Column `j`'s sum: the zero word plus the sum over the sixteen rows `i` of `o (i, 0, j)`. -/
theorem colSums_apply (o : FVec Ideal S16x8x128 .f32) (j : Fin 4) (j' : Fin 128) (hj : j'.val = j.val) :
    colSums o (ix1 j) = Cert.Spec.zero + ∑ i : Fin 16, o (ix3 i (0 : Fin 8) j') := by
  unfold colSums
  generalize hy : outCols o = y
  simp only [Host.reduceAdd, Ideal.hostReduceAdd_def]
  rw [Ideal.hostReduceAdd_single reducesTo_S16x4_S4_d0 (by decide)]
  refine congrArg (_ + ·) (Finset.sum_congr rfl fun i _ => ?_)
  rw [← hy, ← outCols_apply o i j j' hj]
  exact congrArg (outCols o) (funext fun a => Fin.ext (by match a with | ⟨0, _⟩ => rfl | ⟨1, _⟩ => rfl))

/-- One column's sum as a scalar: the one-element slice at offset `off`, then the reshape to rank 0. -/
def colAt (o : FVec Ideal S16x8x128 .f32) (off : Fin 1 → Nat) (h : S4.Slices off S1) : FVec Ideal S_ .f32 :=
  shapeCast S_ (extractStridedSlice S1 off (colSums o) h) shapeCasts_S1_S_

/-- Entry `k` of a vector of four, taken as the one-element slice at offset `k` and reshaped to rank 0. -/
theorem slice_scalar_apply (y : FVec Ideal S4 .f32) (off : Fin 1 → Nat) (h : S4.Slices off S1) (k : Fin 4) (hk : off 0 = k.val)
    (j : S_.Idx) : shapeCast S_ (extractStridedSlice S1 off y h) shapeCasts_S1_S_ j = y (ix1 k) := by
  refine (shapeCast_apply _ shapeCasts_S1_S_ j (ix1 (0 : Fin 1)) ?_).trans ?_
  · rw [Shape.rowMajor_val_one]
    have hn : S_.numel = 1 := Shape.numel_eq_one fun a => a.elim0
    have h1 := (Shape.rowMajor S_ j).isLt
    show 0 = (Shape.rowMajor S_ j).val
    omega
  · refine extractStridedSlice_apply off y h (ix1 (0 : Fin 1)) (ix1 k) fun a => ?_
    match a with
    | ⟨0, _⟩ => show k.val = off 0 + 0; omega

/-- It is column `k`'s sum when the offset is `k`. -/
theorem colAt_apply (o : FVec Ideal S16x8x128 .f32) (off : Fin 1 → Nat) (h : S4.Slices off S1) (k : Fin 4) (hk : off 0 = k.val)
    (j : S_.Idx) : colAt o off h j = colSums o (ix1 k) :=
  slice_scalar_apply (colSums o) off h k hk j

end Cert.KernelIdeal.Host

end
-- ==== Proof.KExitTail.lean ====
/-
  The fifteen host operations after the kernel region, as one function of the output array `o : f32[16,8,128]`: the
  quotient of the column sums 0 and 2 of `o[:, 0, 0:4]` plus the quotient of the column sums 1 and 3.
-/
import proofs.«109907_j78185584657073_1_alg».proof.Proof.KExitCols

noncomputable section

namespace Cert.KernelIdeal.Host

open Cert.KernelIdeal Cert.KernelIdeal.Gen
open Idealize.ShloMosaic Idealize.ShloMosaic.ValueIdx

open scoped BigOperators

/-- The tail's result from the output array. -/
def tailOf (o : FVec Ideal S16x8x128 .f32) : FVec Ideal S_ .f32 :=
  addf (Host.divf (F := Ideal) (colAt o ![0] slices_S4_S1_0) (colAt o ![2] slices_S4_S1_2))
    (Host.divf (F := Ideal) (colAt o ![1] slices_S4_S1_1) (colAt o ![3] slices_S4_S1_3))

/-- Read at its one index: the two quotients of the column sums, each sum started from the zero word. -/
theorem tailOf_eq (o : FVec Ideal S16x8x128 .f32) :
    tailOf o = fun _ => Ideal.div (Cert.Spec.zero + ∑ i : Fin 16, o (ix3 i 0 0)) (Cert.Spec.zero + ∑ i : Fin 16, o (ix3 i 0 2))
      + Ideal.div (Cert.Spec.zero + ∑ i : Fin 16, o (ix3 i 0 1)) (Cert.Spec.zero + ∑ i : Fin 16, o (ix3 i 0 3)) := by
  funext j
  show Ideal.div (colAt o ![0] slices_S4_S1_0 j) (colAt o ![2] slices_S4_S1_2 j)
      + Ideal.div (colAt o ![1] slices_S4_S1_1 j) (colAt o ![3] slices_S4_S1_3 j) = _
  rw [colAt_apply o ![0] slices_S4_S1_0 0 rfl j, colAt_apply o ![2] slices_S4_S1_2 2 rfl j,
    colAt_apply o ![1] slices_S4_S1_1 1 rfl j, colAt_apply o ![3] slices_S4_S1_3 3 rfl j,
    colSums_apply o 0 0 rfl, colSums_apply o 2 2 rfl, colSums_apply o 1 1 rfl, colSums_apply o 3 3 rfl]

end Cert.KernelIdeal.Host

end
-- ==== Proof.KExitRun.lean ====
/-
  The run of the fifteen host operations after the kernel region: whatever the buffers hold when they start, the last
  operation leaves in its result buffer the tail's function of what the output array's buffer held.
-/
import proofs.«109907_j78185584657073_1_alg».proof.Proof.Gen.KernelIdeal.Launch
import proofs.«109907_j78185584657073_1_alg».proof.Proof.KExitTail
import Idealize.ShloMosaic.Lib.StableHlo.Run

noncomputable section

namespace Cert.KernelIdeal.Host

open Cert.KernelIdeal Cert.KernelIdeal.Gen
open Idealize.ShloMosaic Idealize.ShloMosaic.TcCoe Idealize.SL.Sem Idealize.ShloMosaic.StableHlo

/-- The tail reads the output array's buffer and nothing else: its result is `tailOf` of that buffer's contents. -/
theorem tail_run (W : Valuation τ sig (Elt Ideal)) :
    (StableHlo.after (hostOps1 (F := Ideal)) W (Proc.devRef .tc main_v23) : S_.Idx → EReal)
      = tailOf (W (Proc.devRef .tc main_v9)) := by
  after_results
  rfl

end Cert.KernelIdeal.Host

end
-- ==== Proof.KExitCover.lean ====
/-
  The output window's write-backs cover its array: grid row `i`'s block of the output array is written back once,
  at the last point `16 i + 15` of the row, so after the run the array holds at `(i, r, k)` what the body left in
  the staging block at that point, at `(0, r, k)`.
-/
import proofs.«109907_j78185584657073_1_alg».proof.Proof.Gen.KernelIdeal.Launch
import proofs.«109907_j78185584657073_1_alg».proof.Proof.Gen.KernelIdeal.Points
import Idealize.ShloMosaic.Lib.Pipeline.Value
import Idealize.ShloMosaic.Lib.ValueIdx

noncomputable section

namespace Cert.KernelIdeal.Host

open Cert.KernelIdeal Cert.KernelIdeal.Gen
open Idealize.ShloMosaic Idealize.ShloMosaic.TcCoe Idealize.SL.Sem Idealize.ShloMosaic.ValueIdx

variable {F : FTy → Type} [FloatOps F]

/-- The output window's block index at a point: the point's grid row on the leading axis, nought on the others. -/
theorem out_index : ∀ t : Fin cfg0.N, win0_4.index t (0 : Fin 3) = t.val / 16 ∧ win0_4.index t (1 : Fin 3) = 0 ∧ win0_4.index t (2 : Fin 3) = 0 :=
  (by decide +kernel : ∀ t : Fin grid0.N, win0_4.index t (0 : Fin 3) = t.val / 16 ∧ win0_4.index t (1 : Fin 3) = 0 ∧ win0_4.index t (2 : Fin 3) = 0)

variable (c : Dev nD) (dat : Pipeline.Dat τ (Elt F) Unit ℕ (UR sig nD τ) ℕ cfg0 c)

/-- The whole output array as one function of its index: row `i` holds the staging block left at point `16 i + 15`. -/
def outArr : S16x8x128.Idx → Elt F .f32 := fun idx =>
  (dat.after 4 ⟨16 * (idx 0).val + 15, by have h : (idx 0).val < 16 := (idx 0).isLt; have : cfg0.N = 256 := N_0; omega⟩ : S1x8x128.Idx → Elt F .f32)
    (ix3 (0 : Fin 1) (⟨(idx 1).val, (idx 1).isLt⟩ : Fin 8) (⟨(idx 2).val, (idx 2).isLt⟩ : Fin 128))

/-- The staging block read at equal points and equal indices. -/
theorem after_out_congr {t t' : Fin cfg0.N} (h : t = t') {j j' : S1x8x128.Idx} (hj : j = j') :
    (dat.after 4 t : S1x8x128.Idx → Elt F .f32) j = (dat.after 4 t' : S1x8x128.Idx → Elt F .f32) j' := by
  subst h; subst hj; rfl

/-- What a point that writes back writes is its block of `outArr`: such a point is the last of its grid row. -/
theorem flushed_out (t : Fin cfg0.N) (hf : (cfg0.win 4).flush t = true) :
    dat.flushed 4 t = ((cfg0.win 4).blk t).view.read (Elt F) (outArr c dat) := by
  have hN : cfg0.N = 256 := N_0
  have ht : t.val % 16 = 15 := (flush0_4 t).mp hf
  obtain ⟨e0, e1, e2⟩ := out_index t
  funext y
  show (dat.after 4 t : S1x8x128.Idx → Elt F .f32) ((cfg0.win 4).xinj (grid0.coords t) y) = outArr c dat (((cfg0.win 4).blk t).view.emb y)
  unfold outArr
  have y0 : (y 0).val < 1 := (y 0).isLt
  have h0 : ((((cfg0.win 4).blk t).view.emb y) 0).val = t.val / 16 := by
    show win0_4.index t (0 : Fin 3) * 1 + 1 * (y 0).val = _; omega
  have h1 : ((((cfg0.win 4).blk t).view.emb y) 1).val = (y 1).val := by
    show win0_4.index t (1 : Fin 3) * 8 + 1 * (y 1).val = _; omega
  have h2 : ((((cfg0.win 4).blk t).view.emb y) 2).val = (y 2).val := by
    show win0_4.index t (2 : Fin 3) * 128 + 1 * (y 2).val = _; omega
  refine after_out_congr c dat (Fin.ext ?_) (funext fun a => Fin.ext ?_)
  · show t.val = 16 * ((((cfg0.win 4).blk t).view.emb y) 0).val + 15
    rw [h0]; omega
  · match a with
    | ⟨0, _⟩ => show (y 0).val = 0; omega
    | ⟨1, _⟩ => exact h1.symm
    | ⟨2, _⟩ => exact h2.symm

/-- An index of the output array is in a point's block iff each coordinate is in the block's range on its axis. -/
theorem mem_out (t : Fin cfg0.N) (i : S16x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v9).slice (win0_4.rect t)).set ↔ _
  rw [View.set_slice_whole, Rect.mem_set_unit]
  exact Iff.rfl

/-- Every index of the output array is in the block of the last point of its row, a point that writes back. -/
theorem out_cover (i : S16x8x128.Idx) : ∃ t : Fin cfg0.N, (cfg0.win 4).flush t = true ∧ i ∈ ((cfg0.win 4).blk t).view.set := by
  have hN : cfg0.N = 256 := N_0
  have i0 : (i 0).val < 16 := (i 0).isLt
  have i1 : (i 1).val < 8 := (i 1).isLt
  have i2 : (i 2).val < 128 := (i 2).isLt
  obtain ⟨t, tv⟩ : ∃ t : Fin cfg0.N, t.val = 16 * (i 0).val + 15 := ⟨⟨16 * (i 0).val + 15, by omega⟩, rfl⟩
  refine ⟨t, (flush0_4 t).mpr (by omega), ?_⟩
  rw [mem_out]
  obtain ⟨e0, e1, e2⟩ := out_index t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 8 ≤ (i 1).val ∧ (i 1).val < win0_4.index t (1 : Fin 3) * 8 + 8; omega
  | ⟨2, _⟩ => show win0_4.index t (2 : Fin 3) * 128 ≤ (i 2).val ∧ (i 2).val < win0_4.index t (2 : Fin 3) * 128 + 128; omega

/-- The output array after the run is `outArr`. -/
theorem arrAt_eq_outArr : dat.arrAt 4 cfg0.N = outArr c dat :=
  dat.arrAt_eq_of_cover 4 (outArr c dat) (flushed_out c dat) (out_cover)

/-- THE WRITE-BACKS COVER THE OUTPUT ARRAY: at `(i, r, k)` it holds what the body left in the staging block at the last
    point of grid row `i`, at `(0, r, k)`. -/
theorem arrAt_out (i : Fin 16) (r : Fin 8) (k : Fin 128) :
    (dat.arrAt 4 cfg0.N : S16x8x128.Idx → Elt F .f32) (ix3 i r k)
      = (dat.after 4 ⟨16 * i.val + 15, by have := i.isLt; have : cfg0.N = 256 := N_0; omega⟩ : S1x8x128.Idx → Elt F .f32) (ix3 (0 : Fin 1) r k) := by
  rw [arrAt_eq_outArr]
  rfl

end Cert.KernelIdeal.Host

end
-- ==== Proof.KExitValue.lean ====
/-
  The exit side of the kernel program, from what the output window's blocks hold to @main's result.

  `tail_eq`: the fifteen host operations after the region, run from the region-entry contents with the output array's
  buffer holding `o`, leave in the result the quotient of the column sums 0 and 2 of `o[:, 0, 0:4]` plus the quotient
  of the column sums 1 and 3, each sum over the sixteen rows started from the zero word.

  `arrAt_out` (proved with the window's cover): the output array after the run holds at `(i, r, k)` what the body left
  in the staging block at the last point `16 i + 15` of grid row `i`, at `(0, r, k)`.
-/
import proofs.«109907_j78185584657073_1_alg».proof.Proof.KEntry
import proofs.«109907_j78185584657073_1_alg».proof.Proof.KExitRun
import proofs.«109907_j78185584657073_1_alg».proof.Proof.KExitCover

noncomputable section

namespace Cert.KernelIdeal.Host

open Cert.KernelIdeal Cert.KernelIdeal.Gen Cert.KernelIdeal.Launch
open Idealize.ShloMosaic Idealize.ShloMosaic.TcCoe Idealize.SL.Sem Idealize.ShloMosaic.ValueIdx

open scoped BigOperators

/-- THE TAIL: @main's result from the output array. The tail reads only the output array's buffer (`tail_run`), which
    the updated valuation holds at `o`, and its function of that buffer is the two quotients (`tailOf_eq`). The array
    `o` is typed as the function of its index that the buffer's contents are. -/
theorem tail_eq (m : (ℓ : Loc nD τ sig) → Buf (Elt Ideal) ℓ) (c : Dev nD) (o : S16x8x128.Idx → EReal) :
    (StableHlo.after (hostOps1 (F := Ideal)) (Function.update (V0 (F := Ideal) m c) (Proc.devRef .tc main_v9) o) (Proc.devRef .tc main_v23) : S_.Idx → EReal)
      = fun _ => Ideal.div (Cert.Spec.zero + ∑ i : Fin 16, o (ix3 i 0 0)) (Cert.Spec.zero + ∑ i : Fin 16, o (ix3 i 0 2))
          + Ideal.div (Cert.Spec.zero + ∑ i : Fin 16, o (ix3 i 0 1)) (Cert.Spec.zero + ∑ i : Fin 16, o (ix3 i 0 3)) := by
  rw [tail_run, Function.update_self]
  exact tailOf_eq o

end Cert.KernelIdeal.Host

end
-- ==== Proof.TileSum.lean ====
/-
  The loss summed tile by tile is the loss.

  The map (i, r) ↦ 512 · i + r is a bijection from 16 × 512 onto the 8192 rows, so a double sum over all ordered
  pairs of rows is the same sum taken tile by tile. The count of alike pairs is a sum of reals, whose coercion to
  the extended reals passes through finite sums; the word for the size of a tile is the real 262144, and
  256 · 262144 = 67108864.
-/
import proofs.«109907_j78185584657073_1_alg».proof.Proof.Spec

noncomputable section

open scoped BigOperators

namespace Cert.Spec

open Idealize.ShloMosaic

/-- The rows, as 16 blocks of 512. -/
def tileEquiv : Fin 16 × Fin 512 ≃ Fin 8192 where
  toFun ir := row ir.1 ir.2
  invFun p := (⟨p.val / 512, by have := p.isLt; omega⟩, ⟨p.val % 512, by omega⟩)
  left_inv := by
    rintro ⟨i, r⟩
    have hi := i.isLt
    have hr := r.isLt
    refine Prod.ext (Fin.ext ?_) (Fin.ext ?_)
    · show (512 * i.val + r.val) / 512 = i.val
      omega
    · show (512 * i.val + r.val) % 512 = r.val
      omega
  right_inv := by
    intro p
    refine Fin.ext ?_
    show 512 * (p.val / 512) + p.val % 512 = p.val
    omega

/-- A sum over the rows, block by block. -/
theorem sum_rows {M : Type*} [AddCommMonoid M] (g : Fin 8192 → M) :
    ∑ p : Fin 8192, g p = ∑ i : Fin 16, ∑ r : Fin 512, g (row i r) := by
  rw [← tileEquiv.sum_comp, Fintype.sum_prod_type]
  rfl

/-- A sum over the ordered pairs of rows, tile by tile. -/
theorem sum_tiles {M : Type*} [AddCommMonoid M] (f : Fin 8192 → Fin 8192 → M) :
    ∑ i : Fin 16, ∑ j : Fin 16, ∑ r : Fin 512, ∑ s : Fin 512, f (row i r) (row j s)
      = ∑ p : Fin 8192, ∑ q : Fin 8192, f p q := by
  rw [sum_rows]
  refine Finset.sum_congr rfl fun i _ => ?_
  rw [Finset.sum_comm]
  refine Finset.sum_congr rfl fun r _ => ?_
  rw [sum_rows]

/-- The coercion of the reals into the extended reals passes through a finite sum. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The word for the number of pairs of a tile is the real 262144 = 2 ^ 18. -/
theorem tilePairs_eq : tilePairs = ((262144 : ℝ) : EReal) := by
  simp [tilePairs, Ideal.ofBits, Ideal.ieee, -EReal.coe_mul]; norm_num

/-- The zero word is the extended real 0, and the word for one is 1. -/
theorem zeroWord_eq : zero = 0 := by
  simp [zero, Ideal.ofBits, Ideal.ieee]

theorem oneWord_eq : one = 1 := by
  simp [one, Ideal.ofBits, Ideal.ieee, -EReal.coe_mul]; norm_num

/-- The number of alike pairs of a tile, as a real. -/
def tileAlikeR (l : Fin 8192 → BitVec 32) (i j : Fin 16) : ℝ :=
  ∑ r : Fin 512, ∑ s : Fin 512, alike l (row i r) (row j s)

theorem tileAlike_eq (l : Fin 8192 → BitVec 32) (i j : Fin 16) :
    tileAlike l i j = ((tileAlikeR l i j : ℝ) : EReal) := by
  unfold tileAlike tileAlikeR
  rw [coe_sum]
  refine Finset.sum_congr rfl fun r _ => ?_
  rw [coe_sum]

theorem sum_tileAlikeR (l : Fin 8192 → BitVec 32) :
    ∑ i : Fin 16, ∑ j : Fin 16, tileAlikeR l i j = alikeCount l := by
  unfold tileAlikeR alikeCount
  exact sum_tiles (fun p q => alike l p q)

/-- The tiles' alike counts total the number of alike pairs. -/
theorem sum_tileAlike (l : Fin 8192 → BitVec 32) :
    ∑ i : Fin 16, ∑ j : Fin 16, tileAlike l i j = ((alikeCount l : ℝ) : EReal) := by
  rw [← sum_tileAlikeR, coe_sum]
  refine Finset.sum_congr rfl fun i _ => ?_
  rw [coe_sum]
  refine Finset.sum_congr rfl fun j _ => ?_
  exact tileAlike_eq l i j

/-- The tiles' unlike counts total 16 · 16 · 262144 = 67108864 less the number of alike pairs. -/
theorem sum_tileUnlike (l : Fin 8192 → BitVec 32) :
    ∑ i : Fin 16, ∑ j : Fin 16, (tilePairs - tileAlike l i j)
      = (((67108864 : ℝ) - alikeCount l : ℝ) : EReal) := by
  have h : ∀ i j : Fin 16, tilePairs - tileAlike l i j = (((262144 : ℝ) - tileAlikeR l i j : ℝ) : EReal) := by
    intro i j
    rw [tilePairs_eq, tileAlike_eq, EReal.coe_sub]
  have hR : ∑ i : Fin 16, ∑ j : Fin 16, ((262144 : ℝ) - tileAlikeR l i j) = (67108864 : ℝ) - alikeCount l := by
    rw [← sum_tileAlikeR]
    simp only [Finset.sum_sub_distrib, Finset.sum_const, Finset.card_univ, Fintype.card_fin, nsmul_eq_mul]
    norm_num
  rw [← hR, coe_sum]
  refine Finset.sum_congr rfl fun i _ => ?_
  rw [coe_sum]
  refine Finset.sum_congr rfl fun j _ => ?_
  exact h i j

/-- The loss summed tile by tile is the loss. -/
theorem tiled_eq_loss (e : Fin 8192 → Fin 256 → EReal) (l : Fin 8192 → BitVec 32) :
    tiled e l = loss e l := by
  unfold tiled loss
  have hp : ∑ i : Fin 16, ∑ j : Fin 16, tilePos e l i j = ∑ p : Fin 8192, ∑ q : Fin 8192, posT e l p q := by
    unfold tilePos
    exact sum_tiles (fun p q => posT e l p q)
  have hn : ∑ i : Fin 16, ∑ j : Fin 16, tileNeg e l i j = ∑ p : Fin 8192, ∑ q : Fin 8192, negT e l p q := by
    unfold tileNeg
    exact sum_tiles (fun p q => negT e l p q)
  rw [hp, hn, sum_tileAlike, sum_tileUnlike]

end Cert.Spec

end
-- ==== Proof.KFinal.lean ====
/-
  The idealized kernel program's result is the loss. After the region, row 0 of tile row i of the output array holds
  in its first four cells the zero word plus the sums over the sixteen tiles of the row of: the alike total, the
  unlike total, the alike count, and the pairs less the alike count. The fifteen host operations add these over the
  tile rows and form the two quotients and their sum: the loss summed tile by tile, which is the loss.
-/
import proofs.«109907_j78185584657073_1_alg».proof.Proof.KAccum
import proofs.«109907_j78185584657073_1_alg».proof.Proof.KRun
import proofs.«109907_j78185584657073_1_alg».proof.Proof.KExitValue
import proofs.«109907_j78185584657073_1_alg».proof.Proof.TileSum

noncomputable section

open scoped BigOperators

namespace Cert.KernelIdeal.Final

open Cert.KernelIdeal Cert.KernelIdeal.Gen Cert.KernelIdeal.Launch Cert.KernelIdeal.Body Cert.KernelIdeal.Host
open Idealize.ShloMosaic Idealize.ShloMosaic.TcCoe Idealize.ShloMosaic.ValueIdx Idealize.SL.Sem

variable (m : (ℓ : Loc nD τ sig) → Buf (Elt Ideal) ℓ) (c : Dev nD)

theorem pt_lt (i j : Fin 16) : 16 * i.val + j.val < cfg0.N := by
  have hN : cfg0.N = 256 := N_0
  have := i.isLt; have := j.isLt; omega

theorem ti_pt (i j : Fin 16) : ti (⟨16 * i.val + j.val, pt_lt i j⟩ : Fin cfg0.N) = i :=
  Fin.ext (by show (16 * i.val + j.val) / 16 = i.val; have := j.isLt; omega)

theorem tj_pt (i j : Fin 16) : tj (⟨16 * i.val + j.val, pt_lt i j⟩ : Fin cfg0.N) = j :=
  Fin.ext (by show (16 * i.val + j.val) % 16 = j.val; have := j.isLt; omega)

/-- The increments of the point of tile (i, j), in the specification's terms. -/
theorem inc_pos (i j : Fin 16) :
    incN m c (0 : Fin 128) (16 * i.val + j.val)
      = Cert.Spec.zero + Cert.Spec.tilePos (Cert.Spec.unit (rows m c)) (labels m c) i j := by
  rw [incN_eq m c _ _ (pt_lt i j)]
  unfold inc
  rw [if_pos (show ((0 : Fin 128) : Fin 128).val = 0 from rfl), pos_at, ti_pt, tj_pt]

theorem inc_neg (i j : Fin 16) :
    incN m c (1 : Fin 128) (16 * i.val + j.val)
      = Cert.Spec.zero + Cert.Spec.tileNeg (Cert.Spec.unit (rows m c)) (labels m c) i j := by
  rw [incN_eq m c _ _ (pt_lt i j)]
  unfold inc
  rw [if_neg (show ¬((1 : Fin 128) : Fin 128).val = 0 from by decide), if_pos (show ((1 : Fin 128) : Fin 128).val = 1 from rfl), neg_at, ti_pt, tj_pt]

theorem inc_alike (i j : Fin 16) :
    incN m c (2 : Fin 128) (16 * i.val + j.val) = Cert.Spec.zero + Cert.Spec.tileAlike (labels m c) i j := by
  rw [incN_eq m c _ _ (pt_lt i j)]
  unfold inc
  rw [if_neg (show ¬((2 : Fin 128) : Fin 128).val = 0 from by decide), if_neg (show ¬((2 : Fin 128) : Fin 128).val = 1 from by decide),
    if_pos (show ((2 : Fin 128) : Fin 128).val = 2 from rfl), alike_at, ti_pt, tj_pt]

theorem inc_unlike (i j : Fin 16) :
    incN m c (3 : Fin 128) (16 * i.val + j.val)
      = Cert.Spec.tilePairs - (Cert.Spec.zero + Cert.Spec.tileAlike (labels m c) i j) := by
  rw [incN_eq m c _ _ (pt_lt i j)]
  unfold inc
  rw [if_neg (show ¬((3 : Fin 128) : Fin 128).val = 0 from by decide), if_neg (show ¬((3 : Fin 128) : Fin 128).val = 1 from by decide),
    if_neg (show ¬((3 : Fin 128) : Fin 128).val = 2 from by decide), alike_at, ti_pt, tj_pt]

/-- Cell (i, 0, k), k < 4, of the output array after the region. -/
theorem out_col (i : Fin 16) (k : Fin 128) (hk : k.val < 4) :
    ((dats (F := Ideal) m 0 c).arrAt 4 cfg0.N : S16x8x128.Idx → EReal) (ix3 i (0 : Fin 8) k)
      = Cert.Spec.zero + ∑ j : Fin 16, incN m c k (16 * i.val + j.val) := by
  rw [arrAt_out c (dats (F := Ideal) m 0 c) i (0 : Fin 8) k, after4]
  exact (out_cell m c _ (0 : Fin 8) k).trans (row_total m c k hk i _)

/-- What the fifteen host operations make of the output array: the loss. -/
theorem result_eq :
    (StableHlo.after (hostOps1 (F := Ideal)) (Function.update (V0 (F := Ideal) m c) (Proc.devRef .tc main_v9) ((dats (F := Ideal) m 0 c).arrAt 4 cfg0.N))
        (Proc.devRef .tc main_v23) : S_.Idx → EReal)
      = fun _ => Cert.Spec.loss (Cert.Spec.unit (rows m c)) (labels m c) := by
  rw [tail_eq m c]
  funext _
  rw [← Cert.Spec.tiled_eq_loss]
  unfold Cert.Spec.tiled
  simp only [out_col m c _ (0 : Fin 128) (by decide), out_col m c _ (1 : Fin 128) (by decide),
    out_col m c _ (2 : Fin 128) (by decide), out_col m c _ (3 : Fin 128) (by decide),
    inc_pos, inc_neg, inc_alike, inc_unlike, Cert.Spec.zeroWord_eq, zero_add]

variable (ρ : Dev nD → PrngReg)

/-- The idealized kernel program's run: the result is the loss of the arguments, which end as launched. -/
theorem run_value :
    θ_run defs (onTc (τ := τ) (main (F := Ideal))) ⟨m, fun _ => 0, ρ⟩ (fun r => ∀ c : Dev nD,
      r.2.mem ((c.tc : Thread nD τ).loc main_v23) = (fun _ => Cert.Spec.loss (Cert.Spec.unit (rows m c)) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m c), (h c).2⟩) (Cert.KernelIdeal.Body.run_main m ρ)

end Cert.KernelIdeal.Final

end
-- ==== Proof.RefSim.lean ====
/-
  The reference's cosine matrix.

  The reference divides each entry x p k by the square root of row p's sum of squares (the sum started from the
  zero word), which is the specification's unit row, and multiplies the scaled matrix by its own transpose:
  entry (p, q) of the product is the sum over k of row p's k-th entry times row q's, the cosine of the two rows.
-/
import proofs.«109907_j78185584657073_1_alg».proof.Proof.Gen.ReferenceIdeal.Read
import proofs.«109907_j78185584657073_1_alg».proof.Proof.Spec

noncomputable section

open scoped BigOperators

namespace Cert.RefSim

open Idealize.ShloMosaic Idealize.ShloMosaic.ValueIdx Cert.ReferenceIdeal Cert.ReferenceIdeal.Read

/-- The norm that divides entry (p, k) is row p's. -/
theorem idx_norm (p : Fin 8192) (k : Fin 256) : idx_main_call0_v2 (idx_main_v1 (ix2 p k)) = ix1 p :=
  funext fun a => Fin.ext (by match a with | ⟨0, _⟩ => rfl)

/-- The k-th square summed into row p's norm is entry (p, k)'s. -/
theorem idx_square (p : Fin 8192) (k : Fin 256) : idx_main_call0_v1 (ix1 p) k = ix2 p k :=
  funext fun a => Fin.ext (by match a with | ⟨0, _⟩ => rfl | ⟨1, _⟩ => rfl)

/-- The left factor of the k-th term of entry (p, q) of the product is entry (p, k). -/
theorem idx_left (p q : Fin 8192) (k : Fin 256) : lidx_main_v4 (ix2 p q) k = ix2 p k :=
  funext fun a => Fin.ext (by match a with | ⟨0, _⟩ => rfl | ⟨1, _⟩ => rfl)

/-- The right factor, read through the transpose, is entry (q, k). -/
theorem idx_right (p q : Fin 8192) (k : Fin 256) : idx_main_v3 (ridx_main_v4 (ix2 p q) k) = ix2 q k :=
  funext fun a => Fin.ext (by match a with | ⟨0, _⟩ => rfl | ⟨1, _⟩ => rfl)

variable (x0 : (⟨S8192x256, .f32⟩ : BufTy).Contents (Elt Ideal))

/-- The scaled matrix is the specification's unit rows. -/
theorem unit_apply (p : Fin 8192) (k : Fin 256) :
    val_main_v2 (F := Ideal) x0 (ix2 p k) = Cert.Spec.unit (fun p k => x0 (ix2 p k)) p k := by
  rw [val_main_v2_apply, val_main_v1_apply, val_main_v0_apply, val_main_call0_v2_apply, idx_norm,
    val_main_call0_v1_apply, val_main_call0_cst_apply]
  simp only [idx_square, val_main_call0_v0_apply, Ideal.hostDivf_def, Ideal.hostUnary_sqrt_def, Ideal.mulf_def,
    Ideal.ofBits_def]
  rfl

/-- The product with the transpose is the cosine of rows p and q. -/
theorem sim_apply (p q : Fin 8192) :
    val_main_v4 (F := Ideal) x0 (ix2 p q) = Cert.Spec.sim (Cert.Spec.unit fun p k => x0 (ix2 p k)) p q := by
  rw [val_main_v4_apply]
  unfold Cert.Spec.sim
  refine Finset.sum_congr rfl fun k _ => ?_
  rw [val_main_v3_apply, idx_left, idx_right, unit_apply, unit_apply]

end Cert.RefSim

end
-- ==== Proof.AlikeCount.lean ====
/-
  Counting alike pairs with 32-bit words.

  A sum of 32-bit words by wrapping addition has, as a natural number, the sum of the words' values modulo 2³².
  When every word is 0 or 1 and there are 8192² = 2²⁶ of them the sum is below 2³¹: nothing wraps, the sign bit
  is clear, and the signed reading of the total is the number of words that are 1. Here word (p, q) is 1 exactly
  when the labels of rows p and q are the same word, so the total is the number of alike ordered pairs, and
  2²⁶ minus it (again without wrapping) is the number of unlike pairs.
-/
import Idealize.ShloMosaic.PureOps.Reduce
import Idealize.ShloMosaic.Lib.Affine
import Idealize.ShloMosaic.Lib.ValueIdx
import proofs.«109907_j78185584657073_1_alg».proof.Proof.Spec

noncomputable section

open scoped BigOperators

namespace Cert.AlikeCount

open Idealize.ShloMosaic Idealize.ShloMosaic.ValueIdx

/-- The value of a wrapping sum of 32-bit words is the sum of their values modulo 2³². -/
theorem fold_addi_toNat {ι : Type} (S : Finset ι) (f : ι → BitVec 32) :
    (S.fold IntOp.addi 0#32 f).toNat = (∑ i ∈ S, (f i).toNat) % 2 ^ 32 := by
  induction S using Finset.cons_induction with
  | empty => rfl
  | cons a S ha ih =>
    rw [Finset.fold_cons, Finset.sum_cons]
    show ((f a) + S.fold IntOp.addi 0#32 f).toNat = _
    rw [BitVec.toNat_add, ih, Nat.add_mod_mod]

/-- The widened equality bit of two words is worth 1 when they are equal and 0 otherwise. -/
theorem eqWord_toNat (a b : BitVec 32) :
    ((IntOp.cmpi .eq a b).setWidth 32).toNat = if a = b then 1 else 0 := by
  by_cases h : a = b
  · rw [IntOp.cmpi_eq.mpr h, if_pos h]; rfl
  · rw [eq_zero_of_ne_one (fun e => h (IntOp.cmpi_eq.mp e)), if_neg h]; rfl

variable (l : Fin 8192 → BitVec 32)

/-- The number of alike ordered pairs, as a natural number. -/
def count : ℕ := ∑ p : Fin 8192, ∑ q : Fin 8192, if l p = l q then 1 else 0

/-- There are at most 2²⁶ alike pairs. -/
theorem count_le : count l ≤ 67108864 := by
  unfold count
  calc (∑ p : Fin 8192, ∑ q : Fin 8192, if l p = l q then 1 else 0)
      ≤ ∑ _p : Fin 8192, ∑ _q : Fin 8192, 1 :=
        Finset.sum_le_sum fun p _ => Finset.sum_le_sum fun q _ => by split_ifs <;> omega
    _ = 67108864 := by simp

/-- As a real number the count is the specification's. -/
theorem count_cast : ((count l : ℕ) : ℝ) = Cert.Spec.alikeCount l := by
  unfold count Cert.Spec.alikeCount Cert.Spec.alike
  push_cast
  rfl

variable (c : (⟨2, ![8192, 8192]⟩ : Shape).Idx → BitVec 32)
  (hc : ∀ p q : Fin 8192, c (ix2 p q) = (IntOp.cmpi .eq (l p) (l q)).setWidth 32)

include hc in
/-- The wrapping total of the equality words is the count: no wrap occurs. -/
theorem total_toNat : (Finset.univ.fold IntOp.addi 0#32 c).toNat = count l := by
  rw [fold_addi_toNat, sum_idx2]
  have e : (∑ p : Fin 8192, ∑ q : Fin 8192, (c (ix2 p q)).toNat) = count l :=
    Finset.sum_congr rfl fun p _ => Finset.sum_congr rfl fun q _ => by rw [hc p q, eqWord_toNat]
  rw [e]
  have := count_le l
  omega

include hc in
/-- Read as a signed integer the total is the count. -/
theorem total_toInt : (Finset.univ.fold IntOp.addi 0#32 c).toInt = (count l : ℤ) := by
  have h := total_toNat l c hc
  have := count_le l
  rw [BitVec.toInt_eq_toNat_cond, h]
  split_ifs <;> omega

include hc in
/-- 2²⁶ minus the total, read as a signed integer, is 2²⁶ minus the count. -/
theorem rest_toInt :
    (IntOp.subi 67108864#32 (Finset.univ.fold IntOp.addi 0#32 c)).toInt = 67108864 - (count l : ℤ) := by
  have h := total_toNat l c hc
  have := count_le l
  show (67108864#32 - Finset.univ.fold IntOp.addi 0#32 c).toInt = _
  rw [BitVec.toInt_eq_toNat_cond, BitVec.toNat_sub, h]
  simp only [BitVec.toNat_ofNat]
  split_ifs <;> omega

end Cert.AlikeCount

end
-- ==== Proof.RefCount.lean ====
/-
  The reference's two pair counts.

  The reference compares the label of row p (labels broadcast down the columns) with the label of row q (labels
  broadcast along the rows), widens the equality bit to a 32-bit word and adds all 8192² words with wrapping
  addition from 0. That total, read as a signed integer and converted to a real, is the number of alike ordered
  pairs; 2²⁶ minus it, read the same way, is the number of unlike pairs.
-/
import proofs.«109907_j78185584657073_1_alg».proof.Proof.Gen.ReferenceIdeal.Read
import proofs.«109907_j78185584657073_1_alg».proof.Proof.AlikeCount

noncomputable section

open scoped BigOperators

namespace Cert.RefCount

open Idealize.ShloMosaic Idealize.ShloMosaic.ValueIdx Cert.ReferenceIdeal Cert.ReferenceIdeal.Read

/-- Entry (p, q) of the labels broadcast down the columns is label p. -/
theorem idx_rowLabel (p q : Fin 8192) : idx_main_v5 (idx_main_v7 (ix2 p q)) = ix1 p :=
  funext fun a => Fin.ext (by match a with | ⟨0, _⟩ => rfl)

/-- Entry (p, q) of the labels broadcast along the rows is label q. -/
theorem idx_colLabel (p q : Fin 8192) : idx_main_v6 (idx_main_v8 (ix2 p q)) = ix1 q :=
  funext fun a => Fin.ext (by match a with | ⟨0, _⟩ => rfl)

variable (x1 : (⟨S8192, .i32⟩ : BufTy).Contents (Elt Ideal))

/-- The mask at (p, q) is the equality bit of labels p and q. -/
theorem mask_apply (p q : Fin 8192) :
    val_main_v9 (F := Ideal) x1 (ix2 p q) = IntOp.cmpi .eq (x1 (ix1 p)) (x1 (ix1 q)) := by
  rw [val_main_v9_apply, val_main_v7_apply, val_main_v8_apply, val_main_v5_apply, val_main_v6_apply,
    idx_rowLabel, idx_colLabel]

/-- The mask as 32-bit words. -/
theorem word_apply (p q : Fin 8192) :
    val_main_v10 (F := Ideal) x1 (ix2 p q) = (IntOp.cmpi .eq (x1 (ix1 p)) (x1 (ix1 q))).setWidth 32 := by
  rw [val_main_v10_apply, mask_apply]

/-- The integer sum over both axes is the wrapping total of all the words, in any order, from 0. -/
theorem total_eq (i : S_.Idx) :
    val_main_v11 (F := Ideal) x1 i = Finset.univ.fold IntOp.addi 0#32 (val_main_v10 (F := Ideal) x1) := by
  unfold val_main_v11
  generalize val_main_v10 (F := Ideal) x1 = y
  rw [Host.reduce_eq_fold, Finset.filter_true_of_mem fun j _ => funext fun b => b.elim0]
  rfl

/-- The count of alike pairs converted to a float is the specification's count. -/
theorem sitofp_alike (i : S_.Idx) :
    FloatOps.sitofp (F := Ideal) .f32 (val_main_v11 (F := Ideal) x1 i)
      = ((Cert.Spec.alikeCount (fun p => x1 (ix1 p)) : ℝ) : EReal) := by
  show (((val_main_v11 (F := Ideal) x1 i).toInt : ℝ) : EReal) = _
  rw [total_eq, Cert.AlikeCount.total_toInt (fun p => x1 (ix1 p)) _ (word_apply x1),
    ← Cert.AlikeCount.count_cast]
  norm_cast

/-- The count of unlike pairs converted to a float is 2²⁶ minus the specification's count. -/
theorem sitofp_unlike (i : S_.Idx) :
    FloatOps.sitofp (F := Ideal) .f32 (val_main_v12 (F := Ideal) x1 i)
      = (((67108864 : ℝ) - Cert.Spec.alikeCount (fun p => x1 (ix1 p)) : ℝ) : EReal) := by
  show (((val_main_v12 (F := Ideal) x1 i).toInt : ℝ) : EReal) = _
  rw [val_main_v12_apply, val_main_c_0_apply, total_eq,
    Cert.AlikeCount.rest_toInt (fun p => x1 (ix1 p)) _ (word_apply x1), ← Cert.AlikeCount.count_cast]
  push_cast
  rfl

end Cert.RefCount

end
-- ==== Proof.RefTerms.lean ====
/-
  The reference's two totals, pair by pair.

  For a pair (p, q) the reference keeps (1 - cos)² where the labels agree and the zero word elsewhere, and keeps
  max (cos - 1) 0 ² where they differ and the zero word elsewhere; these are the specification's two terms. Each
  total is the zero word, which is the number 0, plus the sum of its terms over every ordered pair.
-/
import proofs.«109907_j78185584657073_1_alg».proof.Proof.RefSim
import proofs.«109907_j78185584657073_1_alg».proof.Proof.RefCount

noncomputable section

open scoped BigOperators

namespace Cert.RefTerms

open Idealize.ShloMosaic Idealize.ShloMosaic.ValueIdx Cert.ReferenceIdeal Cert.ReferenceIdeal.Read

/-- A choice on the equality bit of two words is the choice on their being equal. -/
theorem select_eqBit {α : Type} (a b : BitVec 32) (u v : α) :
    Scalar.select (IntOp.cmpi .eq a b) u v = if a = b then u else v := by
  by_cases h : a = b
  · rw [IntOp.cmpi_eq.mpr h, select_one, if_pos h]
  · rw [eq_zero_of_ne_one (fun e => h (IntOp.cmpi_eq.mp e)), select_zero, if_neg h]

variable (x0 : (⟨S8192x256, .f32⟩ : BufTy).Contents (Elt Ideal)) (x1 : (⟨S8192, .i32⟩ : BufTy).Contents (Elt Ideal))

/-- The alike term at (p, q). -/
theorem pos_apply (p q : Fin 8192) :
    val_main_v16 (F := Ideal) x0 x1 (ix2 p q)
      = Cert.Spec.posT (Cert.Spec.unit fun p k => x0 (ix2 p k)) (fun p => x1 (ix1 p)) p q := by
  rw [val_main_v16_apply, Cert.RefCount.mask_apply, val_main_v15_apply, val_main_v14_apply, val_main_v13_apply,
    val_main_cst_apply, Cert.RefSim.sim_apply, val_main_call1_v1_apply, val_main_call1_v0_apply,
    val_main_cst_1_apply, select_eqBit]
  simp only [Ideal.mulf_def, Ideal.subf_def, Ideal.ofBits_def]
  rfl

/-- The unlike term at (p, q). -/
theorem neg_apply (p q : Fin 8192) :
    val_main_v21 (F := Ideal) x0 x1 (ix2 p q)
      = Cert.Spec.negT (Cert.Spec.unit fun p k => x0 (ix2 p k)) (fun p => x1 (ix1 p)) p q := by
  rw [val_main_v21_apply, Cert.RefCount.mask_apply, val_main_v20_apply, val_main_v19_apply, val_main_v18_apply,
    val_main_v17_apply, val_main_cst_2_apply, Cert.RefSim.sim_apply, val_main_call2_v0_apply,
    val_main_call2_cst_apply, val_main_call3_v1_apply, val_main_call3_v0_apply, val_main_cst_3_apply,
    select_eqBit]
  simp only [Ideal.mulf_def, Ideal.subf_def, Ideal.maximumf_def, Ideal.ofBits_def]
  rfl

/-- The total of the alike terms over every ordered pair. -/
theorem pos_total (i : S_.Idx) :
    val_main_v22 (F := Ideal) x0 x1 i
      = ∑ p : Fin 8192, ∑ q : Fin 8192,
          Cert.Spec.posT (Cert.Spec.unit fun p k => x0 (ix2 p k)) (fun p => x1 (ix1 p)) p q := by
  rw [val_main_v22_apply, val_main_cst_4_apply, sum_idx2, Ideal.ofBits_def, Ideal.ofBits_zero_f32, zero_add]
  exact Finset.sum_congr rfl fun p _ => Finset.sum_congr rfl fun q _ => pos_apply x0 x1 p q

/-- The total of the unlike terms over every ordered pair. -/
theorem neg_total (i : S_.Idx) :
    val_main_v25 (F := Ideal) x0 x1 i
      = ∑ p : Fin 8192, ∑ q : Fin 8192,
          Cert.Spec.negT (Cert.Spec.unit fun p k => x0 (ix2 p k)) (fun p => x1 (ix1 p)) p q := by
  rw [val_main_v25_apply, val_main_cst_5_apply, sum_idx2, Ideal.ofBits_def, Ideal.ofBits_zero_f32, zero_add]
  exact Finset.sum_congr rfl fun p _ => Finset.sum_congr rfl fun q _ => neg_apply x0 x1 p q

end Cert.RefTerms

end
-- ==== Proof.RefValue.lean ====
/-
  The reference program computes the loss.

  Its result is the total of the alike terms divided by the number of alike pairs plus the total of the unlike terms
  divided by the number of unlike pairs: each total read pair by pair, each count read from its 32-bit word.
-/
import proofs.«109907_j78185584657073_1_alg».proof.Proof.RefTerms

noncomputable section

open scoped BigOperators

namespace Cert.RefValue

open Idealize.ShloMosaic Idealize.ShloMosaic.ValueIdx in
/-- The reference's result is the specification's loss of the unit rows and the labels. -/
theorem ref_eq_loss
    (x0 : (⟨Cert.ReferenceIdeal.S8192x256, .f32⟩ : BufTy).Contents (Elt Ideal))
    (x1 : (⟨Cert.ReferenceIdeal.S8192, .i32⟩ : BufTy).Contents (Elt Ideal)) :
    Cert.ReferenceIdeal.Read.val_main_v28 (F := Ideal) x0 x1
      = fun _ => Cert.Spec.loss (Cert.Spec.unit fun p k => x0 (ix2 p k)) (fun p => x1 (ix1 p)) := by
  funext i
  rw [Cert.ReferenceIdeal.Read.val_main_v28_apply, Cert.ReferenceIdeal.Read.val_main_v24_apply,
    Cert.ReferenceIdeal.Read.val_main_v27_apply, Cert.ReferenceIdeal.Read.val_main_v23_apply,
    Cert.ReferenceIdeal.Read.val_main_v26_apply, Cert.RefTerms.pos_total, Cert.RefTerms.neg_total,
    Cert.RefCount.sitofp_alike, Cert.RefCount.sitofp_unlike]
  rfl

end Cert.RefValue

end
-- ==== Proof.lean ====
/-
  The contrastive loss of 8192 rows of 256 numbers with integer labels, computed two ways, is one extended real.

  Both programs scale every row to unit length by the same host operations (the row's sum of squares from the zero
  word, its root, the quotient), so they start from the same unit rows e. The reference forms all 8192² cosines
  e p · e q at once, totals (1 - cos)² over the pairs with equal labels and max (cos - 1) 0 ² over the others, counts
  the equal-label pairs as a 32-bit integer (at most 2²⁶, so the count does not wrap) and divides each total by the
  number of pairs of its kind. The kernel walks a 16 × 16 grid of tiles of 512 × 512 pairs: at tile (i, j) it forms
  the tile's cosines by one matrix product, its two totals and its count of equal-label pairs, and adds them, with
  262144 less the count, into four cells of an accumulator that is cleared at j = 0 and copied out after each tile;
  the host adds the sixteen tile rows' cells and forms the same two quotients. Addition of extended reals is a
  commutative monoid, so regrouping the totals tile by tile changes nothing and no input need be finite; the counts
  are finite reals, 16 · 16 · 262144 = 67108864 = 8192², so the two counts of unlike pairs agree as well
  (`Cert.Spec.tiled_eq_loss`). The reference's result is the loss by reading its operations at an index
  (`Cert.RefValue.ref_eq_loss`); the kernel's by running its body at a symbolic grid point, following the
  accumulator along a grid row, and reading the host operations after the call (`Cert.KernelIdeal.Final.run_value`).

  Each program also runs to the end without a fault and leaves its arguments as they were: the reference as a
  straight line of host operations; the kernel, at the word level and idealized alike, because every grid point's body
  runs on the blocks the pipeline stages (two of the five windows read one array, held a half each) and the host
  operations around the call write neither argument. The idealization changed no operation, so nothing is owed
  for it.
-/
import proofs.«109907_j78185584657073_1_alg».proof.Defs
import proofs.«109907_j78185584657073_1_alg».proof.Proof.Gen.Kernel
import proofs.«109907_j78185584657073_1_alg».proof.Proof.Gen.KernelIdeal
import proofs.«109907_j78185584657073_1_alg».proof.Proof.Gen.ReferenceIdeal
import proofs.«109907_j78185584657073_1_alg».proof.Proof.Gen.Pre_finite_inputs
import proofs.«109907_j78185584657073_1_alg».proof.Proof.Gen.ReferenceIdeal.Run
import proofs.«109907_j78185584657073_1_alg».proof.Proof.Gen.ReferenceIdeal.Read
import proofs.«109907_j78185584657073_1_alg».proof.Proof.WRun
import proofs.«109907_j78185584657073_1_alg».proof.Proof.KFinal
import proofs.«109907_j78185584657073_1_alg».proof.Proof.RefValue

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Body.frame m ρ

/-- So does the idealized kernel program. -/
theorem frame_kernelIdeal : Cert.frame_KernelIdeal := fun m ρ _ => Cert.KernelIdeal.Body.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both idealized programs end with the loss of those arguments. -/
theorem algebraic : Cert.algebraic_KernelIdeal_ReferenceIdeal := by
  intro m ρ m' ρ' _ hagree
  refine ⟨fun c => fun _ => Cert.Spec.loss (Cert.Spec.unit (Cert.KernelIdeal.Final.rows m c)) (Cert.KernelIdeal.Final.labels m c),
    Cert.KernelIdeal.Final.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v28_eq, Cert.RefValue.ref_eq_loss, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
